-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S400000x256 : Shape := ⟨2, ![400000, 256]⟩
abbrev S2x800000 : Shape := ⟨2, ![2, 800000]⟩
abbrev S50000 : Shape := ⟨1, ![50000]⟩
abbrev S400000 : Shape := ⟨1, ![400000]⟩
abbrev S1000x1 : Shape := ⟨2, ![1000, 1]⟩
abbrev S256x128 : Shape := ⟨2, ![256, 128]⟩
abbrev S128 : Shape := ⟨1, ![128]⟩
abbrev S128x64 : Shape := ⟨2, ![128, 64]⟩
abbrev S64 : Shape := ⟨1, ![64]⟩
abbrev S512x256 : Shape := ⟨2, ![512, 256]⟩
abbrev S256 : Shape := ⟨1, ![256]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S400000x256 : S_.BroadcastsInDim S400000x256 (![] : Fin 0 → Fin S400000x256.rank)
  reducesTo_S400000x256_S_d0_1 : S400000x256.ReducesTo [0, 1] S_
  bcast_S_S1000x1 : S_.BroadcastsInDim S1000x1 (![] : Fin 0 → Fin S1000x1.rank)
  reducesTo_S1000x1_S_d0_1 : S1000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S128x64 .f32) (main_arg15 : FVec F S64 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg14
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x1 .f32 := Host.absf main_arg16
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg17 main_v63 main_v67

def fn_part2 {F : FTy → Type} [FloatOps F] (main_arg10 : FVec F S512x256 .f32) (main_arg11 : FVec F S256 .f32) (main_arg12 : FVec F S256x128 .f32) (main_arg13 : FVec F S128 .f32) (main_arg14 : FVec F S128x64 .f32) (main_arg15 : FVec F S64 .f32) (main_arg16 : FVec F S128x1 .f32) (main_arg17 : FVec F S1 .f32) (main_v33 : IVec S_ 1) : IVec S_ 1 :=
  let main_v34 : FVec F S512x256 .f32 := Host.absf main_arg10
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg12
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_v48 main_v49 main_v50

def fn_part1 {F : FTy → Type} [FloatOps F] (main_arg7 : FVec F S128 .f32) (main_arg8 : FVec F S128x64 .f32) (main_arg9 : FVec F S64 .f32) (main_arg10 : FVec F S512x256 .f32) (main_arg11 : FVec F S256 .f32) (main_arg12 : FVec F S256x128 .f32) (main_arg13 : FVec F S128 .f32) (main_arg14 : FVec F S128x64 .f32) (main_arg15 : FVec F S64 .f32) (main_arg16 : FVec F S128x1 .f32) (main_arg17 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S50000x256 .f32) (main_arg1 : FVec F S400000x256 .f32) (main_arg2 : IVec S2x800000 32) (main_arg3 : IVec S50000 32) (main_arg4 : IVec S400000 32) (main_arg5 : FVec F S1000x1 .f32) (main_arg6 : FVec F S256x128 .f32) (main_arg7 : FVec F S128 .f32) (main_arg8 : FVec F S128x64 .f32) (main_arg9 : FVec F S64 .f32) (main_arg10 : FVec F S512x256 .f32) (main_arg11 : FVec F S256 .f32) (main_arg12 : FVec F S256x128 .f32) (main_arg13 : FVec F S128 .f32) (main_arg14 : FVec F S128x64 .f32) (main_arg15 : FVec F S64 .f32) (main_arg16 : FVec F S128x1 .f32) (main_arg17 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S400000x256 .f32 := Host.absf main_arg1
  let main_cst_0 : FVec F S_ .f32 := constant S_ .f32 0x7F800000#32
  let main_v5 : FVec F S400000x256 .f32 := broadcastInDim S400000x256 ![] bcast_S_S400000x256 main_cst_0
  let main_v6 : IVec S400000x256 1 := cmpf .olt main_v4 main_v5
  let main_c_1 : IVec S_ 1 := constantI S_ 1 1#1
  let main_v7 : IVec S_ 1 := (fun x v => Host.reduce IntOp.andi x v reducesTo_S400000x256_S_d0_1 h_S_) main_v6 main_c_1
  let main_v8 : IVec S_ 1 := andi main_v3 main_v7
  let main_v9 : FVec F S1000x1 .f32 := Host.absf main_arg5
  let main_cst_2 : FVec F S_ .f32 := constant S_ .f32 0x7F800000#32
  let main_v10 : FVec F S1000x1 .f32 := broadcastInDim S1000x1 ![] bcast_S_S1000x1 main_cst_2
  let main_v11 : IVec S1000x1 1 := cmpf .olt main_v9 main_v10
  let main_c_3 : IVec S_ 1 := constantI S_ 1 1#1
  let main_v12 : IVec S_ 1 := (fun x v => Host.reduce IntOp.andi x v reducesTo_S1000x1_S_d0_1 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S50000x256 : Shape := ⟨2, ![50000, 256]⟩
abbrev S400000x256 : Shape := ⟨2, ![400000, 256]⟩
abbrev S2x800000 : Shape := ⟨2, ![2, 800000]⟩
abbrev S50000 : Shape := ⟨1, ![50000]⟩
abbrev S400000 : Shape := ⟨1, ![400000]⟩
abbrev S1000x1 : Shape := ⟨2, ![1000, 1]⟩
abbrev S256x128 : Shape := ⟨2, ![256, 128]⟩
abbrev S128 : Shape := ⟨1, ![128]⟩
abbrev S128x64 : Shape := ⟨2, ![128, 64]⟩
abbrev S64 : Shape := ⟨1, ![64]⟩
abbrev S512x256 : Shape := ⟨2, ![512, 256]⟩
abbrev S256 : Shape := ⟨1, ![256]⟩
abbrev S128x1 : Shape := ⟨2, ![128, 1]⟩
abbrev S1 : Shape := ⟨1, ![1]⟩
abbrev S1x128 : Shape := ⟨2, ![1, 128]⟩
abbrev S1x64 : Shape := ⟨2, ![1, 64]⟩
abbrev S50000x64 : Shape := ⟨2, ![50000, 64]⟩
abbrev S2000x256 : Shape := ⟨2, ![2000, 256]⟩
abbrev S2000x64 : Shape := ⟨2, ![2000, 64]⟩
abbrev S2000x128 : Shape := ⟨2, ![2000, 128]⟩
abbrev S_ : Shape := ⟨0, ![]⟩
abbrev S1000x64 : Shape := ⟨2, ![1000, 64]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S400000x1 : Shape := ⟨2, ![400000, 1]⟩
abbrev S256x256 : Shape := ⟨2, ![256, 256]⟩
abbrev S1x256 : Shape := ⟨2, ![1, 256]⟩
abbrev S400000x64 : Shape := ⟨2, ![400000, 64]⟩
abbrev S1000x128 : Shape := ⟨2, ![1000, 128]⟩
abbrev S1x1 : Shape := ⟨2, ![1, 1]⟩

abbrev nBuf : Space → Nat
  | .hbm => 176
  | .vmem => 21
  | .smem => 0
  | _ => 0

abbrev hbmTy0_0 (i : Nat) : BufTy := match i % 128 with
  | 0 => ⟨S50000x256, .f32⟩
  | 1 => ⟨S400000x256, .f32⟩
  | 2 => ⟨S2x800000, .i32⟩
  | 3 => ⟨S50000, .i32⟩
  | 4 => ⟨S400000, .i32⟩
  | 5 => ⟨S1000x1, .f32⟩
  | 6 => ⟨S256x128, .f32⟩
  | 7 => ⟨S128, .f32⟩
  | 8 => ⟨S128x64, .f32⟩
  | 9 => ⟨S64, .f32⟩
  | 10 => ⟨S512x256, .f32⟩
  | 11 => ⟨S256, .f32⟩
  | 12 => ⟨S256x128, .f32⟩
  | 13 => ⟨S128, .f32⟩
  | 14 => ⟨S128x64, .f32⟩
  | 15 => ⟨S64, .f32⟩
  | 16 => ⟨S128x1, .f32⟩
  | 17 => ⟨S1, .f32⟩
  | 18 => ⟨S256x128, .bf16⟩
  | 19 => ⟨S128x64, .bf16⟩
  | 20 => ⟨S1x128, .f32⟩
  | 21 => ⟨S1x64, .f32⟩
  | 22 => ⟨S50000x64, .f32⟩
  | 23 => ⟨S_, .f32⟩
  | 24 => ⟨S1000x64, .f32⟩
  | 25 => ⟨S50000x1, .i32⟩
  | 26 => ⟨S1000x64, .f32⟩
  | 27 => ⟨S_, .f32⟩
  | 28 => ⟨S50000x1, .f32⟩
  | 29 => ⟨S_, .f32⟩
  | 30 => ⟨S1000x1, .f32⟩
  | 31 => ⟨S50000x1, .i32⟩
  | 32 => ⟨S1000x1, .f32⟩
  | 33 => ⟨S_, .f32⟩
  | 34 => ⟨S1000x1, .f32⟩
  | 35 => ⟨S1000x1, .f32⟩
  | 36 => ⟨S1000x64, .f32⟩
  | 37 => ⟨S1000x64, .f32⟩
  | 38 => ⟨S1x800000, .i32⟩
  | 39 => ⟨S800000, .i32⟩
  | 40 => ⟨S1x800000, .i32⟩
  | 41 => ⟨S800000, .i32⟩
  | 42 => ⟨S800000, .i1⟩
  | 43 => ⟨S800000, .i32⟩
  | 44 => ⟨S_, .i32⟩
  | 45 => ⟨S_, .i32⟩
  | 46 => ⟨S800000, .i32⟩
  | 47 => ⟨S_, .i32⟩
  | 48 => ⟨S400000, .i32⟩
  | 49 => ⟨S_, .i32⟩
  | 50 => ⟨S_, .i32⟩
  | 51 => ⟨S800000, .i32⟩
  | 52 => ⟨S800000, .i32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S_, .i32⟩
  | 62 => ⟨S800000, .i32⟩
  | 63 => ⟨S400000, .i32⟩
  | 64 => ⟨S_, .i32⟩
  | 65 => ⟨S_, .i32⟩
  | 66 => ⟨S400000, .i32⟩
  | 67 => ⟨S_, .i32⟩
  | 68 => ⟨S400000, .i32⟩
  | 69 => ⟨S400000, .i32⟩
  | 70 => ⟨S400000, .i32⟩
  | 71 => ⟨S_, .i32⟩
  | 72 => ⟨S400000, .i32⟩
  | 73 => ⟨S400000, .i1⟩
  | 74 => ⟨S400000, .i32⟩
  | 75 => ⟨S400000, .i32⟩
  | 76 => ⟨S_, .i32⟩
  | 77 => ⟨S400000, .i32⟩
  | 78 => ⟨S400000, .i1⟩
  | 79 => ⟨S400000, .i1⟩
  | 80 => ⟨S_, .i32⟩
  | 81 => ⟨S400000, .i32⟩
  | 82 => ⟨S400000, .i32⟩
  | 83 => ⟨S400000, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S400000, .i32⟩
  | 91 => ⟨S400000, .i32⟩
  | 92 => ⟨S_, .i32⟩
  | 93 => ⟨S400000, .i32⟩
  | 94 => ⟨S400000, .i1⟩
  | 95 => ⟨S_, .i32⟩
  | 96 => ⟨S400000, .i32⟩
  | 97 => ⟨S400000, .i1⟩
  | 98 => ⟨S_, .i32⟩
  | 99 => ⟨S_, .i1⟩
  | 100 => ⟨S400000, .i1⟩
  | 101 => ⟨S400000, .i1⟩
  | 102 => ⟨S400000, .i1⟩
  | 103 => ⟨S400000, .i32⟩
  | 104 => ⟨S400000, .i32⟩
  | 105 => ⟨S400000, .i32⟩
  | 106 => ⟨S1x800000, .i32⟩
  | 107 => ⟨S800000, .i32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000, .i32⟩
  | 117 => ⟨S1x800000, .i32⟩
  | 118 => ⟨S800000, .i32⟩
  | 119 => ⟨S_, .i32⟩
  | 120 => ⟨S400000, .i32⟩
  | 121 => ⟨S400000, .i1⟩
  | 122 => ⟨S_, .i32⟩
  | 123 => ⟨S400000, .i32⟩
  | 124 => ⟨S400000, .i32⟩
  | 125 => ⟨S400000, .i32⟩
  | 126 => ⟨S400000x1, .i32⟩
  | 127 => ⟨S400000, .i32⟩
  | _ => ⟨S50000x256, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x256, .f32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x256, .f32⟩
  | 18 => ⟨S400000x256, .f32⟩
  | 19 => ⟨S512x256, .bf16⟩
  | 20 => ⟨S256x256, .bf16⟩
  | 21 => ⟨S256x256, .bf16⟩
  | 22 => ⟨S256x128, .bf16⟩
  | 23 => ⟨S128x64, .bf16⟩
  | 24 => ⟨S1x256, .f32⟩
  | 25 => ⟨S1x128, .f32⟩
  | 26 => ⟨S1x64, .f32⟩
  | 27 => ⟨S400000x64, .f32⟩
  | 28 => ⟨S_, .f32⟩
  | 29 => ⟨S1000x64, .f32⟩
  | 30 => ⟨S400000x1, .i32⟩
  | 31 => ⟨S1000x64, .f32⟩
  | 32 => ⟨S_, .f32⟩
  | 33 => ⟨S400000x1, .f32⟩
  | 34 => ⟨S_, .f32⟩
  | 35 => ⟨S1000x1, .f32⟩
  | 36 => ⟨S400000x1, .i32⟩
  | 37 => ⟨S1000x1, .f32⟩
  | 38 => ⟨S_, .f32⟩
  | 39 => ⟨S1000x1, .f32⟩
  | 40 => ⟨S1000x1, .f32⟩
  | 41 => ⟨S1000x64, .f32⟩
  | 42 => ⟨S1000x64, .f32⟩
  | 43 => ⟨S1000x128, .f32⟩
  | 44 => ⟨S1000x1, .f32⟩
  | 45 => ⟨S1x1, .f32⟩
  | 46 => ⟨S1000x1, .f32⟩
  | 47 => ⟨S1000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S256x128, .bf16⟩
  | .local _ .vmem, ⟨16, _⟩ => ⟨S1x128, .f32⟩
  | .local _ .vmem, ⟨17, _⟩ => ⟨S128x64, .bf16⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_v0 : Ref sig .tc := ⟨.hbm, 43, rfl⟩
abbrev main_call0_call0_c : Ref sig .tc := ⟨.hbm, 44, rfl⟩
abbrev main_call0_call0_v0 : Ref sig .tc := ⟨.hbm, 45, rfl⟩
abbrev main_v21 : Ref sig .tc := ⟨.hbm, 46, rfl⟩
abbrev main_c : Ref sig .tc := ⟨.hbm, 47, rfl⟩
abbrev main_v22 : Ref sig .tc := ⟨.hbm, 48, rfl⟩
abbrev main_c_3 : Ref sig .tc := ⟨.hbm, 49, rfl⟩
abbrev main_call1_v0 : Ref sig .tc := ⟨.hbm, 50, rfl⟩
abbrev main_call1_v1 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_6 : Ref sig .tc := ⟨.hbm, 61, rfl⟩
abbrev main_v30 : Ref sig .tc := ⟨.hbm, 62, rfl⟩
abbrev main_v31 : Ref sig .tc := ⟨.hbm, 63, rfl⟩
abbrev main_call2_call0_c : Ref sig .tc := ⟨.hbm, 64, rfl⟩
abbrev main_call2_call0_v0 : Ref sig .tc := ⟨.hbm, 65, rfl⟩
abbrev main_v32 : Ref sig .tc := ⟨.hbm, 66, rfl⟩
abbrev main_c_7 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_c : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_c_0 : Ref sig .tc := ⟨.hbm, 80, rfl⟩
abbrev main_call3_v11 : Ref sig .tc := ⟨.hbm, 81, rfl⟩
abbrev main_call3_v12 : Ref sig .tc := ⟨.hbm, 82, rfl⟩
abbrev main_v33 : Ref sig .tc := ⟨.hbm, 83, rfl⟩
abbrev main_c_8 : Ref sig .tc := ⟨.hbm, 84, rfl⟩
abbrev main_call4_v0 : Ref sig .tc := ⟨.hbm, 85, rfl⟩
abbrev main_call4_c : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_c_1 : Ref sig .tc := ⟨.hbm, 92, rfl⟩
abbrev main_call4_v5 : Ref sig .tc := ⟨.hbm, 93, rfl⟩
abbrev main_call4_v6 : Ref sig .tc := ⟨.hbm, 94, rfl⟩
abbrev main_call4_c_2 : Ref sig .tc := ⟨.hbm, 95, rfl⟩
abbrev main_call4_v7 : Ref sig .tc := ⟨.hbm, 96, rfl⟩
abbrev main_call4_v8 : Ref sig .tc := ⟨.hbm, 97, rfl⟩
abbrev main_call4_c_3 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_v12 : Ref sig .tc := ⟨.hbm, 102, rfl⟩
abbrev main_call4_v13 : Ref sig .tc := ⟨.hbm, 103, rfl⟩
abbrev main_call4_v14 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_c_9 : Ref sig .tc := ⟨.hbm, 108, rfl⟩
abbrev main_v37 : Ref sig .tc := ⟨.hbm, 109, rfl⟩
abbrev main_v38 : Ref sig .tc := ⟨.hbm, 110, rfl⟩
abbrev main_c_10 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_c_11 : Ref sig .tc := ⟨.hbm, 119, rfl⟩
abbrev main_v46 : Ref sig .tc := ⟨.hbm, 120, rfl⟩
abbrev main_v47 : Ref sig .tc := ⟨.hbm, 121, rfl⟩
abbrev main_c_12 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_c_13 : Ref sig .tc := ⟨.hbm, 128, rfl⟩
abbrev main_v53 : Ref sig .tc := ⟨.hbm, 129, rfl⟩
abbrev main_v54 : Ref sig .tc := ⟨.hbm, 130, rfl⟩
abbrev main_c_14 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_c_15 : Ref sig .tc := ⟨.hbm, 137, rfl⟩
abbrev main_v60 : Ref sig .tc := ⟨.hbm, 138, rfl⟩
abbrev main_v61 : Ref sig .tc := ⟨.hbm, 139, rfl⟩
abbrev main_c_16 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_17 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_cst_18 : Ref sig .tc := ⟨.hbm, 160, rfl⟩
abbrev main_v80 : Ref sig .tc := ⟨.hbm, 161, rfl⟩
abbrev main_cst_19 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_20 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S1000x64 : S_.BroadcastsInDim S1000x64 (![] : Fin 0 → Fin S1000x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  natLt_1_32 : 1 < 32
  bcast_S_S_ : S_.BroadcastsInDim S_ (![] : Fin 0 → Fin S_.rank)
  reduceWindows_S800000_S800000_w800000s1p799999_0 : S800000.ReduceWindows (![800000] : Fin 1 → Nat) ![1] ![799999] ![0] S800000
  h_S_ : 0 < S_.numel
  bcast_S_S400000 : S_.BroadcastsInDim S400000 (![] : Fin 0 → Fin S400000.rank)
  bcast_S_S800000 : S_.BroadcastsInDim S800000 (![] : Fin 0 → Fin S800000.rank)
  bcast_S800000_S800000x1_0 : S800000.BroadcastsInDim S800000x1 (![0] : Fin 1 → Fin S800000x1.rank)
  reduceWindows_S400000_S400000_w400000s1p399999_0 : S400000.ReduceWindows (![400000] : Fin 1 → Nat) ![1] ![399999] ![0] S400000
  bcast_S400000_S400000x1_0 : S400000.BroadcastsInDim S400000x1 (![0] : Fin 1 → Fin S400000x1.rank)
  slices_S512x256_S256x256_0_0 : S512x256.Slices ![0, 0] S256x256
  slices_S512x256_S256x256_256_0 : S512x256.Slices ![256, 0] S256x256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S400000x1 : S_.BroadcastsInDim S400000x1 (![] : Fin 0 → Fin S400000x1.rank)
  concatenates_S1000x64_S1000x64_S1000x128_d1 : Shape.Concatenates [S1000x64, S1000x64] S1000x128 1
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  scatter_S1000x64_S50000x1_S50000x64_1_0_0_1_wf : ScatterDims.WF S1000x64 S50000x1 S50000x64 [1] [0] [0] 1
  scatter_S1000x1_S50000x1_S50000x1_1_0_0_1_wf : ScatterDims.WF S1000x1 S50000x1 S50000x1 [1] [0] [0] 1
  scatter_S400000_S800000x1_S800000_n_0_0_1_wf : ScatterDims.WF S400000 S800000x1 S800000 [] [0] [0] 1
  gather_S800000_S400000x1_S400000_n_0_n_n_0_1_1_wf : GatherDims.WF S800000 S400000x1 S400000 [] [0] [] [0] [] 1 ![1]
  gather_S50000x256_S400000x1_S400000x256_1_0_n_n_0_1_1256_wf : GatherDims.WF S50000x256 S400000x1 S400000x256 [1] [0] [] [0] [] 1 ![1, 256]
  dot_S2000x256_S256x256_S2000x256_1_0_0_1_n_n_wf : DotDims.WF S2000x256 S256x256 S2000x256 [1] [0] [0] [1] [] []
  scatter_S1000x64_S400000x1_S400000x64_1_0_0_1_wf : ScatterDims.WF S1000x64 S400000x1 S400000x64 [1] [0] [0] 1
  scatter_S1000x1_S400000x1_S400000x1_1_0_0_1_wf : ScatterDims.WF S1000x1 S400000x1 S400000x1 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S400000x256.size a
  hwx1_0 : ∀ i : grid1.Coords, EltTy.bits .f32 = 32 ∨ (Rect.block (s := S400000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S400000x256.size a
  hwx1_1 : ∀ i : grid1.Coords, EltTy.bits .f32 = 32 ∨ (Rect.block (s := S400000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .bf16 = 32 ∨ (Rect.block (s := S128x64) S128x64.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S400000x64.size a
  hwx1_9 : ∀ i : grid1.Coords, EltTy.bits .f32 = 32 ∨ (Rect.block (s := S400000x64) S2000x64.size (cc1_transform_9 i) (hinb1_9 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000x1_S50000x1_S50000x1_1_0_0_1 : ScatterDims S1000x1 S50000x1 S50000x1 where
  updateWindowDims := [1]
  insertedWindowDims := [0]
  scatterDimsToOperandDims := [0]
  indexVectorDim := 1
  wf := scatter_S1000x1_S50000x1_S50000x1_1_0_0_1_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def gather_S800000_S400000x1_S400000_n_0_n_n_0_1_1 : GatherDims S800000 S400000x1 S400000 where
  offsetDims := []
  collapsedSliceDims := [0]
  operandBatchingDims := []
  startIndicesBatchingDims := []
  startIndexMap := [0]
  indexVectorDim := 1
  sliceSizes := ![1]
  wf := gather_S800000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S1000x64_S400000x1_S400000x64_1_0_0_1 : ScatterDims S1000x64 S400000x1 S400000x64 where
  updateWindowDims := [1]
  insertedWindowDims := [0]
  scatterDimsToOperandDims := [0]
  indexVectorDim := 1
  wf := scatter_S1000x64_S400000x1_S400000x64_1_0_0_1_wf
def scatter_S1000x1_S400000x1_S400000x1_1_0_0_1 : ScatterDims S1000x1 S400000x1 S400000x1 where
  updateWindowDims := [1]
  insertedWindowDims := [0]
  scatterDimsToOperandDims := [0]
  indexVectorDim := 1
  wf := scatter_S1000x1_S400000x1_S400000x1_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v72) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v75) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v76) S2000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x256 : Shape := ⟨2, ![50000, 256]⟩
abbrev S400000x256 : Shape := ⟨2, ![400000, 256]⟩
abbrev S2x800000 : Shape := ⟨2, ![2, 800000]⟩
abbrev S50000 : Shape := ⟨1, ![50000]⟩
abbrev S400000 : Shape := ⟨1, ![400000]⟩
abbrev S1000x1 : Shape := ⟨2, ![1000, 1]⟩
abbrev S256x128 : Shape := ⟨2, ![256, 128]⟩
abbrev S128 : Shape := ⟨1, ![128]⟩
abbrev S128x64 : Shape := ⟨2, ![128, 64]⟩
abbrev S64 : Shape := ⟨1, ![64]⟩
abbrev S512x256 : Shape := ⟨2, ![512, 256]⟩
abbrev S256 : Shape := ⟨1, ![256]⟩
abbrev S128x1 : Shape := ⟨2, ![128, 1]⟩
abbrev S1 : Shape := ⟨1, ![1]⟩
abbrev S50000x128 : Shape := ⟨2, ![50000, 128]⟩
abbrev S1x128 : Shape := ⟨2, ![1, 128]⟩
abbrev S_ : Shape := ⟨0, ![]⟩
abbrev S50000x64 : Shape := ⟨2, ![50000, 64]⟩
abbrev S1x64 : Shape := ⟨2, ![1, 64]⟩
abbrev S1000x64 : Shape := ⟨2, ![1000, 64]⟩
abbrev S50000x1 : Shape := ⟨2, ![50000, 1]⟩
abbrev S1x800000 : Shape := ⟨2, ![1, 800000]⟩
abbrev S800000 : Shape := ⟨1, ![800000]⟩
abbrev S800000x1 : Shape := ⟨2, ![800000, 1]⟩
abbrev S400000x1 : Shape := ⟨2, ![400000, 1]⟩
abbrev S400000x512 : Shape := ⟨2, ![400000, 512]⟩
abbrev S1x256 : Shape := ⟨2, ![1, 256]⟩
abbrev S400000x128 : Shape := ⟨2, ![400000, 128]⟩
abbrev S400000x64 : Shape := ⟨2, ![400000, 64]⟩
abbrev S1000x128 : Shape := ⟨2, ![1000, 128]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S50000x256, .f32⟩
  | 1 => ⟨S400000x256, .f32⟩
  | 2 => ⟨S2x800000, .i32⟩
  | 3 => ⟨S50000, .i32⟩
  | 4 => ⟨S400000, .i32⟩
  | 5 => ⟨S1000x1, .f32⟩
  | 6 => ⟨S256x128, .f32⟩
  | 7 => ⟨S128, .f32⟩
  | 8 => ⟨S128x64, .f32⟩
  | 9 => ⟨S64, .f32⟩
  | 10 => ⟨S512x256, .f32⟩
  | 11 => ⟨S256, .f32⟩
  | 12 => ⟨S256x128, .f32⟩
  | 13 => ⟨S128, .f32⟩
  | 14 => ⟨S128x64, .f32⟩
  | 15 => ⟨S64, .f32⟩
  | 16 => ⟨S128x1, .f32⟩
  | 17 => ⟨S1, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S_, .f32⟩
  | 33 => ⟨S1000x64, .f32⟩
  | 34 => ⟨S50000x1, .i32⟩
  | 35 => ⟨S1000x64, .f32⟩
  | 36 => ⟨S_, .f32⟩
  | 37 => ⟨S50000x1, .f32⟩
  | 38 => ⟨S_, .f32⟩
  | 39 => ⟨S1000x1, .f32⟩
  | 40 => ⟨S50000x1, .i32⟩
  | 41 => ⟨S1000x1, .f32⟩
  | 42 => ⟨S_, .f32⟩
  | 43 => ⟨S1000x1, .f32⟩
  | 44 => ⟨S1000x1, .f32⟩
  | 45 => ⟨S1000x64, .f32⟩
  | 46 => ⟨S1000x64, .f32⟩
  | 47 => ⟨S1x800000, .i32⟩
  | 48 => ⟨S800000, .i32⟩
  | 49 => ⟨S1x800000, .i32⟩
  | 50 => ⟨S800000, .i32⟩
  | 51 => ⟨S800000, .i1⟩
  | 52 => ⟨S800000, .i32⟩
  | 53 => ⟨S_, .i32⟩
  | 54 => ⟨S_, .i32⟩
  | 55 => ⟨S800000, .i32⟩
  | 56 => ⟨S_, .i32⟩
  | 57 => ⟨S400000, .i32⟩
  | 58 => ⟨S_, .i32⟩
  | 59 => ⟨S_, .i32⟩
  | 60 => ⟨S800000, .i32⟩
  | 61 => ⟨S800000, .i32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S_, .i32⟩
  | 71 => ⟨S800000, .i32⟩
  | 72 => ⟨S400000, .i32⟩
  | 73 => ⟨S_, .i32⟩
  | 74 => ⟨S_, .i32⟩
  | 75 => ⟨S400000, .i32⟩
  | 76 => ⟨S_, .i32⟩
  | 77 => ⟨S400000, .i32⟩
  | 78 => ⟨S400000, .i32⟩
  | 79 => ⟨S400000, .i32⟩
  | 80 => ⟨S_, .i32⟩
  | 81 => ⟨S400000, .i32⟩
  | 82 => ⟨S400000, .i1⟩
  | 83 => ⟨S400000, .i32⟩
  | 84 => ⟨S400000, .i32⟩
  | 85 => ⟨S_, .i32⟩
  | 86 => ⟨S400000, .i32⟩
  | 87 => ⟨S400000, .i1⟩
  | 88 => ⟨S400000, .i1⟩
  | 89 => ⟨S_, .i32⟩
  | 90 => ⟨S400000, .i32⟩
  | 91 => ⟨S400000, .i32⟩
  | 92 => ⟨S400000, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S400000, .i32⟩
  | 100 => ⟨S400000, .i32⟩
  | 101 => ⟨S_, .i32⟩
  | 102 => ⟨S400000, .i32⟩
  | 103 => ⟨S400000, .i1⟩
  | 104 => ⟨S_, .i32⟩
  | 105 => ⟨S400000, .i32⟩
  | 106 => ⟨S400000, .i1⟩
  | 107 => ⟨S_, .i32⟩
  | 108 => ⟨S_, .i1⟩
  | 109 => ⟨S400000, .i1⟩
  | 110 => ⟨S400000, .i1⟩
  | 111 => ⟨S400000, .i1⟩
  | 112 => ⟨S400000, .i32⟩
  | 113 => ⟨S400000, .i32⟩
  | 114 => ⟨S400000, .i32⟩
  | 115 => ⟨S1x800000, .i32⟩
  | 116 => ⟨S800000, .i32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000, .i32⟩
  | 126 => ⟨S1x800000, .i32⟩
  | 127 => ⟨S800000, .i32⟩
  | _ => ⟨S50000x256, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x256, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x256, .f32⟩
  | 27 => ⟨S400000x256, .f32⟩
  | 28 => ⟨S400000x512, .f32⟩
  | 29 => ⟨S400000x256, .f32⟩
  | 30 => ⟨S1x256, .f32⟩
  | 31 => ⟨S400000x256, .f32⟩
  | 32 => ⟨S400000x256, .f32⟩
  | 33 => ⟨S_, .f32⟩
  | 34 => ⟨S400000x256, .f32⟩
  | 35 => ⟨S400000x256, .f32⟩
  | 36 => ⟨S400000x128, .f32⟩
  | 37 => ⟨S1x128, .f32⟩
  | 38 => ⟨S400000x128, .f32⟩
  | 39 => ⟨S400000x128, .f32⟩
  | 40 => ⟨S_, .f32⟩
  | 41 => ⟨S400000x128, .f32⟩
  | 42 => ⟨S400000x128, .f32⟩
  | 43 => ⟨S400000x64, .f32⟩
  | 44 => ⟨S1x64, .f32⟩
  | 45 => ⟨S400000x64, .f32⟩
  | 46 => ⟨S400000x64, .f32⟩
  | 47 => ⟨S_, .f32⟩
  | 48 => ⟨S400000x64, .f32⟩
  | 49 => ⟨S400000x64, .f32⟩
  | 50 => ⟨S_, .f32⟩
  | 51 => ⟨S1000x64, .f32⟩
  | 52 => ⟨S400000x1, .i32⟩
  | 53 => ⟨S1000x64, .f32⟩
  | 54 => ⟨S_, .f32⟩
  | 55 => ⟨S400000x1, .f32⟩
  | 56 => ⟨S_, .f32⟩
  | 57 => ⟨S1000x1, .f32⟩
  | 58 => ⟨S400000x1, .i32⟩
  | 59 => ⟨S1000x1, .f32⟩
  | 60 => ⟨S_, .f32⟩
  | 61 => ⟨S1000x1, .f32⟩
  | 62 => ⟨S1000x1, .f32⟩
  | 63 => ⟨S1000x64, .f32⟩
  | 64 => ⟨S1000x64, .f32⟩
  | 65 => ⟨S1000x128, .f32⟩
  | 66 => ⟨S1000x1, .f32⟩
  | 67 => ⟨S1x1, .f32⟩
  | 68 => ⟨S1000x1, .f32⟩
  | 69 => ⟨S1000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call2_v0 : Ref sig .tc := ⟨.hbm, 52, rfl⟩
abbrev main_call2_call0_c : Ref sig .tc := ⟨.hbm, 53, rfl⟩
abbrev main_call2_call0_v0 : Ref sig .tc := ⟨.hbm, 54, rfl⟩
abbrev main_v26 : Ref sig .tc := ⟨.hbm, 55, rfl⟩
abbrev main_c : Ref sig .tc := ⟨.hbm, 56, rfl⟩
abbrev main_v27 : Ref sig .tc := ⟨.hbm, 57, rfl⟩
abbrev main_c_3 : Ref sig .tc := ⟨.hbm, 58, rfl⟩
abbrev main_call3_v0 : Ref sig .tc := ⟨.hbm, 59, rfl⟩
abbrev main_call3_v1 : Ref sig .tc := ⟨.hbm, 60, rfl⟩
abbrev main_v28 : Ref sig .tc := ⟨.hbm, 61, rfl⟩
abbrev main_c_4 : Ref sig .tc := ⟨.hbm, 62, rfl⟩
abbrev main_v29 : Ref sig .tc := ⟨.hbm, 63, rfl⟩
abbrev main_v30 : Ref sig .tc := ⟨.hbm, 64, rfl⟩
abbrev main_c_5 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_v35 : Ref sig .tc := ⟨.hbm, 71, rfl⟩
abbrev main_v36 : Ref sig .tc := ⟨.hbm, 72, rfl⟩
abbrev main_call4_call0_c : Ref sig .tc := ⟨.hbm, 73, rfl⟩
abbrev main_call4_call0_v0 : Ref sig .tc := ⟨.hbm, 74, rfl⟩
abbrev main_v37 : Ref sig .tc := ⟨.hbm, 75, rfl⟩
abbrev main_c_7 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_v6 : Ref sig .tc := ⟨.hbm, 83, rfl⟩
abbrev main_call5_v7 : Ref sig .tc := ⟨.hbm, 84, rfl⟩
abbrev main_call5_c : Ref sig .tc := ⟨.hbm, 85, rfl⟩
abbrev main_call5_v8 : Ref sig .tc := ⟨.hbm, 86, rfl⟩
abbrev main_call5_v9 : Ref sig .tc := ⟨.hbm, 87, rfl⟩
abbrev main_call5_v10 : Ref sig .tc := ⟨.hbm, 88, rfl⟩
abbrev main_call5_c_0 : Ref sig .tc := ⟨.hbm, 89, rfl⟩
abbrev main_call5_v11 : Ref sig .tc := ⟨.hbm, 90, rfl⟩
abbrev main_call5_v12 : Ref sig .tc := ⟨.hbm, 91, rfl⟩
abbrev main_v38 : Ref sig .tc := ⟨.hbm, 92, rfl⟩
abbrev main_c_8 : Ref sig .tc := ⟨.hbm, 93, rfl⟩
abbrev main_call6_v0 : Ref sig .tc := ⟨.hbm, 94, rfl⟩
abbrev main_call6_c : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_c_1 : Ref sig .tc := ⟨.hbm, 101, rfl⟩
abbrev main_call6_v5 : Ref sig .tc := ⟨.hbm, 102, rfl⟩
abbrev main_call6_v6 : Ref sig .tc := ⟨.hbm, 103, rfl⟩
abbrev main_call6_c_2 : Ref sig .tc := ⟨.hbm, 104, rfl⟩
abbrev main_call6_v7 : Ref sig .tc := ⟨.hbm, 105, rfl⟩
abbrev main_call6_v8 : Ref sig .tc := ⟨.hbm, 106, rfl⟩
abbrev main_call6_c_3 : Ref sig .tc := ⟨.hbm, 107, rfl⟩
abbrev main_call6_v9 : Ref sig .tc := ⟨.hbm, 108, rfl⟩
abbrev main_call6_v10 : Ref sig .tc := ⟨.hbm, 109, rfl⟩
abbrev main_call6_v11 : Ref sig .tc := ⟨.hbm, 110, rfl⟩
abbrev main_call6_v12 : Ref sig .tc := ⟨.hbm, 111, rfl⟩
abbrev main_call6_v13 : Ref sig .tc := ⟨.hbm, 112, rfl⟩
abbrev main_call6_v14 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_c_9 : Ref sig .tc := ⟨.hbm, 117, rfl⟩
abbrev main_v42 : Ref sig .tc := ⟨.hbm, 118, rfl⟩
abbrev main_v43 : Ref sig .tc := ⟨.hbm, 119, rfl⟩
abbrev main_c_10 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_c_11 : Ref sig .tc := ⟨.hbm, 128, rfl⟩
abbrev main_v51 : Ref sig .tc := ⟨.hbm, 129, rfl⟩
abbrev main_v52 : Ref sig .tc := ⟨.hbm, 130, rfl⟩
abbrev main_c_12 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_c_13 : Ref sig .tc := ⟨.hbm, 137, rfl⟩
abbrev main_v58 : Ref sig .tc := ⟨.hbm, 138, rfl⟩
abbrev main_v59 : Ref sig .tc := ⟨.hbm, 139, rfl⟩
abbrev main_c_14 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_c_15 : Ref sig .tc := ⟨.hbm, 146, rfl⟩
abbrev main_v65 : Ref sig .tc := ⟨.hbm, 147, rfl⟩
abbrev main_v66 : Ref sig .tc := ⟨.hbm, 148, rfl⟩
abbrev main_c_16 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_call7_cst : Ref sig .tc := ⟨.hbm, 161, rfl⟩
abbrev main_call7_v0 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_call8_cst : Ref sig .tc := ⟨.hbm, 168, rfl⟩
abbrev main_call8_v0 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_call9_cst : Ref sig .tc := ⟨.hbm, 175, rfl⟩
abbrev main_call9_v0 : Ref sig .tc := ⟨.hbm, 176, rfl⟩
abbrev main_v88 : Ref sig .tc := ⟨.hbm, 177, rfl⟩
abbrev main_cst_17 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_cst_18 : Ref sig .tc := ⟨.hbm, 182, rfl⟩
abbrev main_v92 : Ref sig .tc := ⟨.hbm, 183, rfl⟩
abbrev main_cst_19 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_cst_20 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S1000x64 : S_.BroadcastsInDim S1000x64 (![] : Fin 0 → Fin S1000x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  natLt_1_32 : 1 < 32
  bcast_S_S_ : S_.BroadcastsInDim S_ (![] : Fin 0 → Fin S_.rank)
  reduceWindows_S800000_S800000_w800000s1p799999_0 : S800000.ReduceWindows (![800000] : Fin 1 → Nat) ![1] ![799999] ![0] S800000
  h_S_ : 0 < S_.numel
  bcast_S_S400000 : S_.BroadcastsInDim S400000 (![] : Fin 0 → Fin S400000.rank)
  bcast_S_S800000 : S_.BroadcastsInDim S800000 (![] : Fin 0 → Fin S800000.rank)
  bcast_S800000_S800000x1_0 : S800000.BroadcastsInDim S800000x1 (![0] : Fin 1 → Fin S800000x1.rank)
  reduceWindows_S400000_S400000_w400000s1p399999_0 : S400000.ReduceWindows (![400000] : Fin 1 → Nat) ![1] ![399999] ![0] S400000
  bcast_S400000_S400000x1_0 : S400000.BroadcastsInDim S400000x1 (![0] : Fin 1 → Fin S400000x1.rank)
  concatenates_S400000x256_S400000x256_S400000x512_d1 : Shape.Concatenates [S400000x256, S400000x256] S400000x512 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S_S400000x1 : S_.BroadcastsInDim S400000x1 (![] : Fin 0 → Fin S400000x1.rank)
  concatenates_S1000x64_S1000x64_S1000x128_d1 : Shape.Concatenates [S1000x64, S1000x64] S1000x128 1
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  scatter_S1000x64_S50000x1_S50000x64_1_0_0_1_wf : ScatterDims.WF S1000x64 S50000x1 S50000x64 [1] [0] [0] 1
  scatter_S1000x1_S50000x1_S50000x1_1_0_0_1_wf : ScatterDims.WF S1000x1 S50000x1 S50000x1 [1] [0] [0] 1
  scatter_S400000_S800000x1_S800000_n_0_0_1_wf : ScatterDims.WF S400000 S800000x1 S800000 [] [0] [0] 1
  gather_S800000_S400000x1_S400000_n_0_n_n_0_1_1_wf : GatherDims.WF S800000 S400000x1 S400000 [] [0] [] [0] [] 1 ![1]
  gather_S50000x256_S400000x1_S400000x256_1_0_n_n_0_1_1256_wf : GatherDims.WF S50000x256 S400000x1 S400000x256 [1] [0] [] [0] [] 1 ![1, 256]
  dot_S400000x512_S512x256_S400000x256_1_0_0_1_n_n_wf : DotDims.WF S400000x512 S512x256 S400000x256 [1] [0] [0] [1] [] []
  dot_S400000x256_S256x128_S400000x128_1_0_0_1_n_n_wf : DotDims.WF S400000x256 S256x128 S400000x128 [1] [0] [0] [1] [] []
  dot_S400000x128_S128x64_S400000x64_1_0_0_1_n_n_wf : DotDims.WF S400000x128 S128x64 S400000x64 [1] [0] [0] [1] [] []
  scatter_S1000x64_S400000x1_S400000x64_1_0_0_1_wf : ScatterDims.WF S1000x64 S400000x1 S400000x64 [1] [0] [0] 1
  scatter_S1000x1_S400000x1_S400000x1_1_0_0_1_wf : ScatterDims.WF S1000x1 S400000x1 S400000x1 [1] [0] [0] 1
  dot_S1000x128_S128x1_S1000x1_1_0_0_1_n_n_wf : DotDims.WF S1000x128 S128x1 S1000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000x1_S50000x1_S50000x1_1_0_0_1 : ScatterDims S1000x1 S50000x1 S50000x1 where
  updateWindowDims := [1]
  insertedWindowDims := [0]
  scatterDimsToOperandDims := [0]
  indexVectorDim := 1
  wf := scatter_S1000x1_S50000x1_S50000x1_1_0_0_1_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def gather_S800000_S400000x1_S400000_n_0_n_n_0_1_1 : GatherDims S800000 S400000x1 S400000 where
  offsetDims := []
  collapsedSliceDims := [0]
  operandBatchingDims := []
  startIndicesBatchingDims := []
  startIndexMap := [0]
  indexVectorDim := 1
  sliceSizes := ![1]
  wf := gather_S800000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x512_S512x256_S400000x256_1_0_0_1_n_n : DotDims S400000x512 S512x256 S400000x256 where
  lhsContracting := [1]
  rhsContracting := [0]
  lhsNonContracting := [0]
  rhsNonContracting := [1]
  lhsBatch := []
  rhsBatch := []
  wf := dot_S400000x512_S512x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S1000x64_S400000x1_S400000x64_1_0_0_1 : ScatterDims S1000x64 S400000x1 S400000x64 where
  updateWindowDims := [1]
  insertedWindowDims := [0]
  scatterDimsToOperandDims := [0]
  indexVectorDim := 1
  wf := scatter_S1000x64_S400000x1_S400000x64_1_0_0_1_wf
def scatter_S1000x1_S400000x1_S400000x1_1_0_0_1 : ScatterDims S1000x1 S400000x1 S400000x1 where
  updateWindowDims := [1]
  insertedWindowDims := [0]
  scatterDimsToOperandDims := [0]
  indexVectorDim := 1
  wf := scatter_S1000x1_S400000x1_S400000x1_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.KernelRun.lean ====
/-
  The idealized kernel program's run with its result named.

  The program is a sequence of host stretches and two kernel regions.  Its run ends with every unscoped buffer of a core at
  the last boundary's contents: the fold of the host operations and of the regions' write-backs over the launch memory
  (the valuation W15 of the generated frame).  The generated frame reads only the argument arrays off that state; here the
  result buffer main_v92 is read as well, so that the value the program returns is a named term.
-/
import proofs.«144891_j17377437679650_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last boundary's
    contents and the argument arrays end as launched. -/
theorem run_named : θ_run defs (onTc (τ := τ) (main (F := F))) ⟨m, fun _ => 0, ρ⟩ (fun r => ∀ c : Dev nD,
      r.2.mem ((c.tc : Thread nD τ).loc main_v92) = W15 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v92 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.KernelIdeal.KRun

end
-- ==== Proof.RefRun.lean ====
/- The run of the reference program: its @main written as the list of its 180 operations — the 118 plain statements
   and, at each of the ten calls, the called function's operations over that call's buffers (a function called from a
   called function likewise) —, the equation of @main with that straight line, and the run read back: every weakly
   fair execution terminates with each TensorCore buffer at the fold of the operations over the launch contents. -/
import proofs.«144891_j17377437679650_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements %0 … %9: the node network's two dense layers — a product with the weights, the bias broadcast along the rows and added, and the rectifier (the constant zero, its broadcast, the maximum) —, each call's operations at the call. 14 operations. -/
abbrev opsNode : List (HloOp τ sig (Elt F)) :=
  [ StableHlo.binary main_arg0 main_arg6 main_v0 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x128, .f32⟩) (broadcastInDim S50000x128 ![] bcast_S_S50000x128),
    StableHlo.TRef.binary (.of main_v3 : StableHlo.TRef sig ⟨S50000x128, .f32⟩) (.of main_call0_v0 : StableHlo.TRef sig ⟨S50000x128, .f32⟩) (.of main_v4 : StableHlo.TRef sig ⟨S50000x128, .f32⟩) maximumf,
    StableHlo.binary main_v4 main_arg8 main_v5 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S50000x64 ![0, 1] bcast_S1x64_S50000x64_0_1 : (⟨S1x64, .f32⟩ : BufTy).Contents (Elt F) → (⟨S50000x64, .f32⟩ : BufTy).Contents (Elt F)),
    StableHlo.binary main_v5 main_v7 main_v8 (addf : (⟨S50000x64, .f32⟩ : BufTy).Contents (Elt F) → (⟨S50000x64, .f32⟩ : BufTy).Contents (Elt F) → (⟨S50000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x64, .f32⟩) (broadcastInDim S50000x64 ![] bcast_S_S50000x64),
    StableHlo.TRef.binary (.of main_v8 : StableHlo.TRef sig ⟨S50000x64, .f32⟩) (.of main_call1_v0 : StableHlo.TRef sig ⟨S50000x64, .f32⟩) (.of main_v9 : StableHlo.TRef sig ⟨S50000x64, .f32⟩) maximumf ]

/-- Statements %cst … %20: the node features summed per graph (a scatter-add into zeros), the nodes counted per graph (a scatter-add of ones), the count bounded below by one and broadcast, and the quotient. 15 operations. -/
abbrev opsPool : List (HloOp τ sig (Elt F)) :=
  [ StableHlo.nullary main_cst (constant S_ .f32 0x00000000#32),
    StableHlo.unary main_cst main_v10 (broadcastInDim S1000x64 ![] bcast_S_S1000x64 : (⟨S_, .f32⟩ : BufTy).Contents (Elt F) → (⟨S1000x64, .f32⟩ : BufTy).Contents (Elt F)),
    StableHlo.unary main_arg3 main_v11 (broadcastInDim S50000x1 ![0] bcast_S50000_S50000x1_0 : (⟨S50000, .i32⟩ : BufTy).Contents (Elt F) → (⟨S50000x1, .i32⟩ : BufTy).Contents (Elt F)),
    StableHlo.ternary main_v10 main_v11 main_v9 main_v12 ((fun x i u => Host.scatterAdd scatter_S1000x64_S50000x1_S50000x64_1_0_0_1 x i u) : (⟨S1000x64, .f32⟩ : BufTy).Contents (Elt F) → (⟨S50000x1, .i32⟩ : BufTy).Contents (Elt F) → (⟨S50000x64, .f32⟩ : BufTy).Contents (Elt F) → (⟨S1000x64, .f32⟩ : BufTy).Contents (Elt F)),
    StableHlo.nullary main_cst_0 (constant S_ .f32 0x3F800000#32),
    StableHlo.unary main_cst_0 main_v13 (broadcastInDim S50000x1 ![] bcast_S_S50000x1 : (⟨S_, .f32⟩ : BufTy).Contents (Elt F) → (⟨S50000x1, .f32⟩ : BufTy).Contents (Elt F)),
    StableHlo.nullary main_cst_1 (constant S_ .f32 0x00000000#32),
    StableHlo.unary main_cst_1 main_v14 (broadcastInDim S1000x1 ![] bcast_S_S1000x1 : (⟨S_, .f32⟩ : BufTy).Contents (Elt F) → (⟨S1000x1, .f32⟩ : BufTy).Contents (Elt F)),
    StableHlo.unary main_arg3 main_v15 (broadcastInDim S50000x1 ![0] bcast_S50000_S50000x1_0 : (⟨S50000, .i32⟩ : BufTy).Contents (Elt F) → (⟨S50000x1, .i32⟩ : BufTy).Contents (Elt F)),
    StableHlo.ternary main_v14 main_v15 main_v13 main_v16 ((fun x i u => Host.scatterAdd scatter_S1000x1_S50000x1_S50000x1_1_0_0_1 x i u) : (⟨S1000x1, .f32⟩ : BufTy).Contents (Elt F) → (⟨S50000x1, .i32⟩ : BufTy).Contents (Elt F) → (⟨S50000x1, .f32⟩ : BufTy).Contents (Elt F) → (⟨S1000x1, .f32⟩ : BufTy).Contents (Elt F)),
    StableHlo.nullary main_cst_2 (constant S_ .f32 0x3F800000#32),
    StableHlo.unary main_cst_2 main_v17 (broadcastInDim S1000x1 ![] bcast_S_S1000x1 : (⟨S_, .f32⟩ : BufTy).Contents (Elt F) → (⟨S1000x1, .f32⟩ : BufTy).Contents (Elt F)),
    StableHlo.binary main_v16 main_v17 main_v18 (maximumf : (⟨S1000x1, .f32⟩ : BufTy).Contents (Elt F) → (⟨S1000x1, .f32⟩ : BufTy).Contents (Elt F) → (⟨S1000x1, .f32⟩ : BufTy).Contents (Elt F)),
    StableHlo.unary main_v18 main_v19 (broadcastInDim S1000x64 ![0, 1] bcast_S1000x1_S1000x64_0_1 : (⟨S1000x1, .f32⟩ : BufTy).Contents (Elt F) → (⟨S1000x64, .f32⟩ : BufTy).Contents (Elt F)),
    StableHlo.binary main_v12 main_v19 main_v20 (Host.divf : (⟨S1000x64, .f32⟩ : BufTy).Contents (Elt F) → (⟨S1000x64, .f32⟩ : BufTy).Contents (Elt F) → (⟨S1000x64, .f32⟩ : BufTy).Contents (Elt F)) ]

/-- Statements %21 … %72: the two rows of the edge list, the comparison of sources with targets, its running sum, the clipped and wrapped positions scattered as counts, their running sum, the floored quotient and the remainder (each with its sign corrections), and the four gathers the wrapped indices drive, the two gathered feature blocks added. 109 operations. -/
abbrev opsIdx : List (HloOp τ sig (Elt F)) :=
  [ StableHlo.unary main_arg2 main_v21 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v21 main_v22 rfl shapeCasts_S1x800000_S800000,
    StableHlo.unary main_arg2 main_v23 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v23 main_v24 rfl shapeCasts_S1x800000_S800000,
    StableHlo.binary main_v22 main_v24 main_v25 (cmpi .slt : (⟨S800000, .i32⟩ : BufTy).Contents (Elt F) → (⟨S800000, .i32⟩ : BufTy).Contents (Elt F) → (⟨S800000, .i1⟩ : BufTy).Contents (Elt F)),
    StableHlo.TRef.unary (.of main_v25 : StableHlo.TRef sig ⟨S800000, .i1⟩) (.of main_call2_v0 : StableHlo.TRef sig ⟨S800000, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v0 : StableHlo.TRef sig ⟨S800000, .i32⟩) (.of main_call2_call0_v0 : StableHlo.TRef sig ⟨S_, .i32⟩) (.of main_v26 : StableHlo.TRef sig ⟨S800000, .i32⟩) (fun x v => Host.reduceWindow IntOp.addi ![800000] ![1] ![799999] ![0] x v reduceWindows_S800000_S800000_w800000s1p799999_0 h_S_),
    StableHlo.nullary main_c (constantI S_ 32 0#32),
    StableHlo.unary main_c main_v27 (broadcastInDim S400000 ![] bcast_S_S400000 : (⟨S_, .i32⟩ : BufTy).Contents (Elt F) → (⟨S400000, .i32⟩ : BufTy).Contents (Elt F)),
    StableHlo.nullary main_c_3 (constantI S_ 32 0#32),
    StableHlo.TRef.unary (.of main_c_3 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S800000, .i32⟩) (broadcastInDim S800000 ![] bcast_S_S800000),
    StableHlo.TRef.binary (.of main_call3_v1 : StableHlo.TRef sig ⟨S800000, .i32⟩) (.of main_v26 : StableHlo.TRef sig ⟨S800000, .i32⟩) (.of main_v28 : StableHlo.TRef sig ⟨S800000, .i32⟩) maxsi,
    StableHlo.nullary main_c_4 (constantI S_ 32 0#32),
    StableHlo.unary main_c_4 main_v29 (broadcastInDim S800000 ![] bcast_S_S800000 : (⟨S_, .i32⟩ : BufTy).Contents (Elt F) → (⟨S800000, .i32⟩ : BufTy).Contents (Elt F)),
    StableHlo.binary main_v28 main_v29 main_v30 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 400000#32),
    StableHlo.unary main_c_5 main_v31 (broadcastInDim S800000 ![] bcast_S_S800000 : (⟨S_, .i32⟩ : BufTy).Contents (Elt F) → (⟨S800000, .i32⟩ : BufTy).Contents (Elt F)),
    StableHlo.binary main_v28 main_v31 main_v32 (addi : (⟨S800000, .i32⟩ : BufTy).Contents (Elt F) → (⟨S800000, .i32⟩ : BufTy).Contents (Elt F) → (⟨S800000, .i32⟩ : BufTy).Contents (Elt F)),
    StableHlo.ternary main_v30 main_v32 main_v28 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v33 main_v34 (broadcastInDim S800000x1 ![0] bcast_S800000_S800000x1_0 : (⟨S800000, .i32⟩ : BufTy).Contents (Elt F) → (⟨S800000x1, .i32⟩ : BufTy).Contents (Elt F)),
    StableHlo.nullary main_c_6 (constantI S_ 32 1#32),
    StableHlo.unary main_c_6 main_v35 (broadcastInDim S800000 ![] bcast_S_S800000 : (⟨S_, .i32⟩ : BufTy).Contents (Elt F) → (⟨S800000, .i32⟩ : BufTy).Contents (Elt F)),
    StableHlo.ternary main_v27 main_v34 main_v35 main_v36 ((fun x i u => Host.scatter scatter_S400000_S800000x1_S800000_n_0_0_1 IntOp.addi x i u) : (⟨S400000, .i32⟩ : BufTy).Contents (Elt F) → (⟨S800000x1, .i32⟩ : BufTy).Contents (Elt F) → (⟨S800000, .i32⟩ : BufTy).Contents (Elt F) → (⟨S400000, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v36 : StableHlo.TRef sig ⟨S400000, .i32⟩) (.of main_call4_call0_v0 : StableHlo.TRef sig ⟨S_, .i32⟩) (.of main_v37 : StableHlo.TRef sig ⟨S400000, .i32⟩) (fun x v => Host.reduceWindow IntOp.addi ![400000] ![1] ![399999] ![0] x v reduceWindows_S400000_S400000_w400000s1p399999_0 h_S_),
    StableHlo.nullary main_c_7 (constantI S_ 32 1#32),
    StableHlo.TRef.unary (.of main_c_7 : StableHlo.TRef sig ⟨S_, .i32⟩) (.of main_call5_v0 : StableHlo.TRef sig ⟨S400000, .i32⟩) (broadcastInDim S400000 ![] bcast_S_S400000),
    StableHlo.TRef.binary (.of main_v37 : StableHlo.TRef sig ⟨S400000, .i32⟩) (.of main_call5_v0 : StableHlo.TRef sig ⟨S400000, .i32⟩) (.of main_call5_v1 : StableHlo.TRef sig ⟨S400000, .i32⟩) Host.divsi,
    StableHlo.TRef.unary (.of main_v37 : StableHlo.TRef sig ⟨S400000, .i32⟩) (.of main_call5_v2 : StableHlo.TRef sig ⟨S400000, .i32⟩) signi,
    StableHlo.TRef.unary (.of main_c_7 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S400000, .i32⟩) (broadcastInDim S400000 ![] bcast_S_S400000),
    StableHlo.TRef.binary (.of main_call5_v2 : StableHlo.TRef sig ⟨S400000, .i32⟩) (.of main_call5_v4 : StableHlo.TRef sig ⟨S400000, .i32⟩) (.of main_call5_v5 : StableHlo.TRef sig ⟨S400000, .i1⟩) (cmpi .ne),
    StableHlo.TRef.unary (.of main_c_7 : StableHlo.TRef sig ⟨S_, .i32⟩) (.of main_call5_v6 : StableHlo.TRef sig ⟨S400000, .i32⟩) (broadcastInDim S400000 ![] bcast_S_S400000),
    StableHlo.TRef.binary (.of main_v37 : StableHlo.TRef sig ⟨S400000, .i32⟩) (.of main_call5_v6 : StableHlo.TRef sig ⟨S400000, .i32⟩) (.of main_call5_v7 : StableHlo.TRef sig ⟨S400000, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S400000, .i32⟩) (broadcastInDim S400000 ![] bcast_S_S400000),
    StableHlo.TRef.binary (.of main_call5_v7 : StableHlo.TRef sig ⟨S400000, .i32⟩) (.of main_call5_v8 : StableHlo.TRef sig ⟨S400000, .i32⟩) (.of main_call5_v9 : StableHlo.TRef sig ⟨S400000, .i1⟩) (cmpi .ne),
    StableHlo.TRef.binary (.of main_call5_v5 : StableHlo.TRef sig ⟨S400000, .i1⟩) (.of main_call5_v9 : StableHlo.TRef sig ⟨S400000, .i1⟩) (.of main_call5_v10 : StableHlo.TRef sig ⟨S400000, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S400000, .i32⟩) (broadcastInDim S400000 ![] bcast_S_S400000),
    StableHlo.TRef.binary (.of main_call5_v1 : StableHlo.TRef sig ⟨S400000, .i32⟩) (.of main_call5_v11 : StableHlo.TRef sig ⟨S400000, .i32⟩) (.of main_call5_v12 : StableHlo.TRef sig ⟨S400000, .i32⟩) subi,
    StableHlo.TRef.ternary (.of main_call5_v10 : StableHlo.TRef sig ⟨S400000, .i1⟩) (.of main_call5_v12 : StableHlo.TRef sig ⟨S400000, .i32⟩) (.of main_call5_v1 : StableHlo.TRef sig ⟨S400000, .i32⟩) (.of main_v38 : StableHlo.TRef sig ⟨S400000, .i32⟩) select,
    StableHlo.nullary main_c_8 (constantI S_ 32 800000#32),
    StableHlo.TRef.unary (.of main_c_8 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S400000, .i32⟩) (broadcastInDim S400000 ![] bcast_S_S400000),
    StableHlo.TRef.binary (.of main_v38 : StableHlo.TRef sig ⟨S400000, .i32⟩) (.of main_call6_v3 : StableHlo.TRef sig ⟨S400000, .i32⟩) (.of main_call6_v4 : StableHlo.TRef sig ⟨S400000, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S400000, .i32⟩) (broadcastInDim S400000 ![] bcast_S_S400000),
    StableHlo.TRef.binary (.of main_call6_v4 : StableHlo.TRef sig ⟨S400000, .i32⟩) (.of main_call6_v5 : StableHlo.TRef sig ⟨S400000, .i32⟩) (.of main_call6_v6 : StableHlo.TRef sig ⟨S400000, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S400000, .i32⟩) (broadcastInDim S400000 ![] bcast_S_S400000),
    StableHlo.TRef.binary (.of main_call6_v4 : StableHlo.TRef sig ⟨S400000, .i32⟩) (.of main_call6_v7 : StableHlo.TRef sig ⟨S400000, .i32⟩) (.of main_call6_v8 : StableHlo.TRef sig ⟨S400000, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S400000, .i1⟩) (broadcastInDim S400000 ![] bcast_S_S400000),
    StableHlo.TRef.binary (.of main_call6_v8 : StableHlo.TRef sig ⟨S400000, .i1⟩) (.of main_call6_v10 : StableHlo.TRef sig ⟨S400000, .i1⟩) (.of main_call6_v11 : StableHlo.TRef sig ⟨S400000, .i1⟩) (cmpi .ne),
    StableHlo.TRef.binary (.of main_call6_v11 : StableHlo.TRef sig ⟨S400000, .i1⟩) (.of main_call6_v6 : StableHlo.TRef sig ⟨S400000, .i1⟩) (.of main_call6_v12 : StableHlo.TRef sig ⟨S400000, .i1⟩) andi,
    StableHlo.TRef.unary (.of main_call6_v2 : StableHlo.TRef sig ⟨S_, .i32⟩) (.of main_call6_v13 : StableHlo.TRef sig ⟨S400000, .i32⟩) (broadcastInDim S400000 ![] bcast_S_S400000),
    StableHlo.TRef.binary (.of main_call6_v4 : StableHlo.TRef sig ⟨S400000, .i32⟩) (.of main_call6_v13 : StableHlo.TRef sig ⟨S400000, .i32⟩) (.of main_call6_v14 : StableHlo.TRef sig ⟨S400000, .i32⟩) addi,
    StableHlo.TRef.ternary (.of main_call6_v12 : StableHlo.TRef sig ⟨S400000, .i1⟩) (.of main_call6_v14 : StableHlo.TRef sig ⟨S400000, .i32⟩) (.of main_call6_v4 : StableHlo.TRef sig ⟨S400000, .i32⟩) (.of main_v39 : StableHlo.TRef sig ⟨S400000, .i32⟩) select,
    StableHlo.unary main_arg2 main_v40 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v40 main_v41 rfl shapeCasts_S1x800000_S800000,
    StableHlo.nullary main_c_9 (constantI S_ 32 0#32),
    StableHlo.unary main_c_9 main_v42 (broadcastInDim S400000 ![] bcast_S_S400000 : (⟨S_, .i32⟩ : BufTy).Contents (Elt F) → (⟨S400000, .i32⟩ : BufTy).Contents (Elt F)),
    StableHlo.binary main_v39 main_v42 main_v43 (cmpi .slt : (⟨S400000, .i32⟩ : BufTy).Contents (Elt F) → (⟨S400000, .i32⟩ : BufTy).Contents (Elt F) → (⟨S400000, .i1⟩ : BufTy).Contents (Elt F)),
    StableHlo.nullary main_c_10 (constantI S_ 32 800000#32),
    StableHlo.unary main_c_10 main_v44 (broadcastInDim S400000 ![] bcast_S_S400000 : (⟨S_, .i32⟩ : BufTy).Contents (Elt F) → (⟨S400000, .i32⟩ : BufTy).Contents (Elt F)),
    StableHlo.binary main_v39 main_v44 main_v45 (addi : (⟨S400000, .i32⟩ : BufTy).Contents (Elt F) → (⟨S400000, .i32⟩ : BufTy).Contents (Elt F) → (⟨S400000, .i32⟩ : BufTy).Contents (Elt F)),
    StableHlo.ternary main_v43 main_v45 main_v39 main_v46 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v46 main_v47 (broadcastInDim S400000x1 ![0] bcast_S400000_S400000x1_0 : (⟨S400000, .i32⟩ : BufTy).Contents (Elt F) → (⟨S400000x1, .i32⟩ : BufTy).Contents (Elt F)),
    StableHlo.binary main_v41 main_v47 main_v48 ((fun x i => Host.gather gather_S800000_S400000x1_S400000_n_0_n_n_0_1_1 x i) : (⟨S800000, .i32⟩ : BufTy).Contents (Elt F) → (⟨S400000x1, .i32⟩ : BufTy).Contents (Elt F) → (⟨S400000, .i32⟩ : BufTy).Contents (Elt F)),
    StableHlo.unary main_arg2 main_v49 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v49 main_v50 rfl shapeCasts_S1x800000_S800000,
    StableHlo.nullary main_c_11 (constantI S_ 32 0#32),
    StableHlo.unary main_c_11 main_v51 (broadcastInDim S400000 ![] bcast_S_S400000 : (⟨S_, .i32⟩ : BufTy).Contents (Elt F) → (⟨S400000, .i32⟩ : BufTy).Contents (Elt F)),
    StableHlo.binary main_v39 main_v51 main_v52 (cmpi .slt : (⟨S400000, .i32⟩ : BufTy).Contents (Elt F) → (⟨S400000, .i32⟩ : BufTy).Contents (Elt F) → (⟨S400000, .i1⟩ : BufTy).Contents (Elt F)),
    StableHlo.nullary main_c_12 (constantI S_ 32 800000#32),
    StableHlo.unary main_c_12 main_v53 (broadcastInDim S400000 ![] bcast_S_S400000 : (⟨S_, .i32⟩ : BufTy).Contents (Elt F) → (⟨S400000, .i32⟩ : BufTy).Contents (Elt F)),
    StableHlo.binary main_v39 main_v53 main_v54 (addi : (⟨S400000, .i32⟩ : BufTy).Contents (Elt F) → (⟨S400000, .i32⟩ : BufTy).Contents (Elt F) → (⟨S400000, .i32⟩ : BufTy).Contents (Elt F)),
    StableHlo.ternary main_v52 main_v54 main_v39 main_v55 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v55 main_v56 (broadcastInDim S400000x1 ![0] bcast_S400000_S400000x1_0 : (⟨S400000, .i32⟩ : BufTy).Contents (Elt F) → (⟨S400000x1, .i32⟩ : BufTy).Contents (Elt F)),
    StableHlo.binary main_v50 main_v56 main_v57 ((fun x i => Host.gather gather_S800000_S400000x1_S400000_n_0_n_n_0_1_1 x i) : (⟨S800000, .i32⟩ : BufTy).Contents (Elt F) → (⟨S400000x1, .i32⟩ : BufTy).Contents (Elt F) → (⟨S400000, .i32⟩ : BufTy).Contents (Elt F)),
    StableHlo.nullary main_c_13 (constantI S_ 32 0#32),
    StableHlo.unary main_c_13 main_v58 (broadcastInDim S400000 ![] bcast_S_S400000 : (⟨S_, .i32⟩ : BufTy).Contents (Elt F) → (⟨S400000, .i32⟩ : BufTy).Contents (Elt F)),
    StableHlo.binary main_v48 main_v58 main_v59 (cmpi .slt : (⟨S400000, .i32⟩ : BufTy).Contents (Elt F) → (⟨S400000, .i32⟩ : BufTy).Contents (Elt F) → (⟨S400000, .i1⟩ : BufTy).Contents (Elt F)),
    StableHlo.nullary main_c_14 (constantI S_ 32 50000#32),
    StableHlo.unary main_c_14 main_v60 (broadcastInDim S400000 ![] bcast_S_S400000 : (⟨S_, .i32⟩ : BufTy).Contents (Elt F) → (⟨S400000, .i32⟩ : BufTy).Contents (Elt F)),
    StableHlo.binary main_v48 main_v60 main_v61 (addi : (⟨S400000, .i32⟩ : BufTy).Contents (Elt F) → (⟨S400000, .i32⟩ : BufTy).Contents (Elt F) → (⟨S400000, .i32⟩ : BufTy).Contents (Elt F)),
    StableHlo.ternary main_v59 main_v61 main_v48 main_v62 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v62 main_v63 (broadcastInDim S400000x1 ![0] bcast_S400000_S400000x1_0 : (⟨S400000, .i32⟩ : BufTy).Contents (Elt F) → (⟨S400000x1, .i32⟩ : BufTy).Contents (Elt F)),
    StableHlo.binary main_arg0 main_v63 main_v64 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_c_15 (constantI S_ 32 0#32),
    StableHlo.unary main_c_15 main_v65 (broadcastInDim S400000 ![] bcast_S_S400000 : (⟨S_, .i32⟩ : BufTy).Contents (Elt F) → (⟨S400000, .i32⟩ : BufTy).Contents (Elt F)),
    StableHlo.binary main_v57 main_v65 main_v66 (cmpi .slt : (⟨S400000, .i32⟩ : BufTy).Contents (Elt F) → (⟨S400000, .i32⟩ : BufTy).Contents (Elt F) → (⟨S400000, .i1⟩ : BufTy).Contents (Elt F)),
    StableHlo.nullary main_c_16 (constantI S_ 32 50000#32),
    StableHlo.unary main_c_16 main_v67 (broadcastInDim S400000 ![] bcast_S_S400000 : (⟨S_, .i32⟩ : BufTy).Contents (Elt F) → (⟨S400000, .i32⟩ : BufTy).Contents (Elt F)),
    StableHlo.binary main_v57 main_v67 main_v68 (addi : (⟨S400000, .i32⟩ : BufTy).Contents (Elt F) → (⟨S400000, .i32⟩ : BufTy).Contents (Elt F) → (⟨S400000, .i32⟩ : BufTy).Contents (Elt F)),
    StableHlo.ternary main_v66 main_v68 main_v57 main_v69 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v69 main_v70 (broadcastInDim S400000x1 ![0] bcast_S400000_S400000x1_0 : (⟨S400000, .i32⟩ : BufTy).Contents (Elt F) → (⟨S400000x1, .i32⟩ : BufTy).Contents (Elt F)),
    StableHlo.binary main_arg0 main_v70 main_v71 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.binary main_v64 main_v71 main_v72 (addf : (⟨S400000x256, .f32⟩ : BufTy).Contents (Elt F) → (⟨S400000x256, .f32⟩ : BufTy).Contents (Elt F) → (⟨S400000x256, .f32⟩ : BufTy).Contents (Elt F)) ]

/-- Statements %73 … %88: the edge network — the edge features concatenated with the gathered sum, then three dense layers, each a product, a broadcast bias added, and the rectifier. 22 operations. -/
abbrev opsEdge : List (HloOp τ sig (Elt F)) :=
  [ StableHlo.binary main_arg1 main_v72 main_v73 ((fun a b => concatenate S400000x512 1 [⟨S400000x256, a⟩, ⟨S400000x256, b⟩] concatenates_S400000x256_S400000x256_S400000x512_d1) : (⟨S400000x256, .f32⟩ : BufTy).Contents (Elt F) → (⟨S400000x256, .f32⟩ : BufTy).Contents (Elt F) → (⟨S400000x512, .f32⟩ : BufTy).Contents (Elt F)),
    StableHlo.binary main_v73 main_arg10 main_v74 ((fun l r => Host.dotGeneral dot_S400000x512_S512x256_S400000x256_1_0_0_1_n_n none l r) : (⟨S400000x512, .f32⟩ : BufTy).Contents (Elt F) → (⟨S512x256, .f32⟩ : BufTy).Contents (Elt F) → (⟨S400000x256, .f32⟩ : BufTy).Contents (Elt F)),
    StableHlo.unary main_arg11 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S400000x256 ![0, 1] bcast_S1x256_S400000x256_0_1 : (⟨S1x256, .f32⟩ : BufTy).Contents (Elt F) → (⟨S400000x256, .f32⟩ : BufTy).Contents (Elt F)),
    StableHlo.binary main_v74 main_v76 main_v77 (addf : (⟨S400000x256, .f32⟩ : BufTy).Contents (Elt F) → (⟨S400000x256, .f32⟩ : BufTy).Contents (Elt F) → (⟨S400000x256, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S400000x256, .f32⟩) (broadcastInDim S400000x256 ![] bcast_S_S400000x256),
    StableHlo.TRef.binary (.of main_v77 : StableHlo.TRef sig ⟨S400000x256, .f32⟩) (.of main_call7_v0 : StableHlo.TRef sig ⟨S400000x256, .f32⟩) (.of main_v78 : StableHlo.TRef sig ⟨S400000x256, .f32⟩) maximumf,
    StableHlo.binary main_v78 main_arg12 main_v79 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    StableHlo.unary main_arg13 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S400000x128 ![0, 1] bcast_S1x128_S400000x128_0_1 : (⟨S1x128, .f32⟩ : BufTy).Contents (Elt F) → (⟨S400000x128, .f32⟩ : BufTy).Contents (Elt F)),
    StableHlo.binary main_v79 main_v81 main_v82 (addf : (⟨S400000x128, .f32⟩ : BufTy).Contents (Elt F) → (⟨S400000x128, .f32⟩ : BufTy).Contents (Elt F) → (⟨S400000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S400000x128, .f32⟩) (broadcastInDim S400000x128 ![] bcast_S_S400000x128),
    StableHlo.TRef.binary (.of main_v82 : StableHlo.TRef sig ⟨S400000x128, .f32⟩) (.of main_call8_v0 : StableHlo.TRef sig ⟨S400000x128, .f32⟩) (.of main_v83 : StableHlo.TRef sig ⟨S400000x128, .f32⟩) maximumf,
    StableHlo.binary main_v83 main_arg14 main_v84 ((fun l r => Host.dotGeneral dot_S400000x128_S128x64_S400000x64_1_0_0_1_n_n none l r) : (⟨S400000x128, .f32⟩ : BufTy).Contents (Elt F) → (⟨S128x64, .f32⟩ : BufTy).Contents (Elt F) → (⟨S400000x64, .f32⟩ : BufTy).Contents (Elt F)),
    StableHlo.unary main_arg15 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S400000x64 ![0, 1] bcast_S1x64_S400000x64_0_1 : (⟨S1x64, .f32⟩ : BufTy).Contents (Elt F) → (⟨S400000x64, .f32⟩ : BufTy).Contents (Elt F)),
    StableHlo.binary main_v84 main_v86 main_v87 (addf : (⟨S400000x64, .f32⟩ : BufTy).Contents (Elt F) → (⟨S400000x64, .f32⟩ : BufTy).Contents (Elt F) → (⟨S400000x64, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S400000x64, .f32⟩) (broadcastInDim S400000x64 ![] bcast_S_S400000x64),
    StableHlo.TRef.binary (.of main_v87 : StableHlo.TRef sig ⟨S400000x64, .f32⟩) (.of main_call9_v0 : StableHlo.TRef sig ⟨S400000x64, .f32⟩) (.of main_v88 : StableHlo.TRef sig ⟨S400000x64, .f32⟩) maximumf ]

/-- Statements %cst_17 … %104: the edge features summed per graph, the edges counted per graph, the count bounded below by one, the quotient, the two pooled blocks concatenated, and the last dense layer. 20 operations. -/
abbrev opsTail : List (HloOp τ sig (Elt F)) :=
  [ StableHlo.nullary main_cst_17 (constant S_ .f32 0x00000000#32),
    StableHlo.unary main_cst_17 main_v89 (broadcastInDim S1000x64 ![] bcast_S_S1000x64 : (⟨S_, .f32⟩ : BufTy).Contents (Elt F) → (⟨S1000x64, .f32⟩ : BufTy).Contents (Elt F)),
    StableHlo.unary main_arg4 main_v90 (broadcastInDim S400000x1 ![0] bcast_S400000_S400000x1_0 : (⟨S400000, .i32⟩ : BufTy).Contents (Elt F) → (⟨S400000x1, .i32⟩ : BufTy).Contents (Elt F)),
    StableHlo.ternary main_v89 main_v90 main_v88 main_v91 ((fun x i u => Host.scatterAdd scatter_S1000x64_S400000x1_S400000x64_1_0_0_1 x i u) : (⟨S1000x64, .f32⟩ : BufTy).Contents (Elt F) → (⟨S400000x1, .i32⟩ : BufTy).Contents (Elt F) → (⟨S400000x64, .f32⟩ : BufTy).Contents (Elt F) → (⟨S1000x64, .f32⟩ : BufTy).Contents (Elt F)),
    StableHlo.nullary main_cst_18 (constant S_ .f32 0x3F800000#32),
    StableHlo.unary main_cst_18 main_v92 (broadcastInDim S400000x1 ![] bcast_S_S400000x1 : (⟨S_, .f32⟩ : BufTy).Contents (Elt F) → (⟨S400000x1, .f32⟩ : BufTy).Contents (Elt F)),
    StableHlo.nullary main_cst_19 (constant S_ .f32 0x00000000#32),
    StableHlo.unary main_cst_19 main_v93 (broadcastInDim S1000x1 ![] bcast_S_S1000x1 : (⟨S_, .f32⟩ : BufTy).Contents (Elt F) → (⟨S1000x1, .f32⟩ : BufTy).Contents (Elt F)),
    StableHlo.unary main_arg4 main_v94 (broadcastInDim S400000x1 ![0] bcast_S400000_S400000x1_0 : (⟨S400000, .i32⟩ : BufTy).Contents (Elt F) → (⟨S400000x1, .i32⟩ : BufTy).Contents (Elt F)),
    StableHlo.ternary main_v93 main_v94 main_v92 main_v95 ((fun x i u => Host.scatterAdd scatter_S1000x1_S400000x1_S400000x1_1_0_0_1 x i u) : (⟨S1000x1, .f32⟩ : BufTy).Contents (Elt F) → (⟨S400000x1, .i32⟩ : BufTy).Contents (Elt F) → (⟨S400000x1, .f32⟩ : BufTy).Contents (Elt F) → (⟨S1000x1, .f32⟩ : BufTy).Contents (Elt F)),
    StableHlo.nullary main_cst_20 (constant S_ .f32 0x3F800000#32),
    StableHlo.unary main_cst_20 main_v96 (broadcastInDim S1000x1 ![] bcast_S_S1000x1 : (⟨S_, .f32⟩ : BufTy).Contents (Elt F) → (⟨S1000x1, .f32⟩ : BufTy).Contents (Elt F)),
    StableHlo.binary main_v95 main_v96 main_v97 (maximumf : (⟨S1000x1, .f32⟩ : BufTy).Contents (Elt F) → (⟨S1000x1, .f32⟩ : BufTy).Contents (Elt F) → (⟨S1000x1, .f32⟩ : BufTy).Contents (Elt F)),
    StableHlo.unary main_v97 main_v98 (broadcastInDim S1000x64 ![0, 1] bcast_S1000x1_S1000x64_0_1 : (⟨S1000x1, .f32⟩ : BufTy).Contents (Elt F) → (⟨S1000x64, .f32⟩ : BufTy).Contents (Elt F)),
    StableHlo.binary main_v91 main_v98 main_v99 (Host.divf : (⟨S1000x64, .f32⟩ : BufTy).Contents (Elt F) → (⟨S1000x64, .f32⟩ : BufTy).Contents (Elt F) → (⟨S1000x64, .f32⟩ : BufTy).Contents (Elt F)),
    StableHlo.binary main_v20 main_v99 main_v100 ((fun a b => concatenate S1000x128 1 [⟨S1000x64, a⟩, ⟨S1000x64, b⟩] concatenates_S1000x64_S1000x64_S1000x128_d1) : (⟨S1000x64, .f32⟩ : BufTy).Contents (Elt F) → (⟨S1000x64, .f32⟩ : BufTy).Contents (Elt F) → (⟨S1000x128, .f32⟩ : BufTy).Contents (Elt F)),
    StableHlo.binary main_v100 main_arg16 main_v101 ((fun l r => Host.dotGeneral dot_S1000x128_S128x1_S1000x1_1_0_0_1_n_n none l r) : (⟨S1000x128, .f32⟩ : BufTy).Contents (Elt F) → (⟨S128x1, .f32⟩ : BufTy).Contents (Elt F) → (⟨S1000x1, .f32⟩ : BufTy).Contents (Elt F)),
    StableHlo.unary main_arg17 main_v102 (broadcastInDim S1x1 ![1] bcast_S1_S1x1_1 : (⟨S1, .f32⟩ : BufTy).Contents (Elt F) → (⟨S1x1, .f32⟩ : BufTy).Contents (Elt F)),
    StableHlo.unary main_v102 main_v103 (broadcastInDim S1000x1 ![0, 1] bcast_S1x1_S1000x1_0_1 : (⟨S1x1, .f32⟩ : BufTy).Contents (Elt F) → (⟨S1000x1, .f32⟩ : BufTy).Contents (Elt F)),
    StableHlo.binary main_v101 main_v103 main_v104 (addf : (⟨S1000x1, .f32⟩ : BufTy).Contents (Elt F) → (⟨S1000x1, .f32⟩ : BufTy).Contents (Elt F) → (⟨S1000x1, .f32⟩ : BufTy).Contents (Elt F)) ]

/-- @main's operations, in program order: the five stretches one after the other. -/
abbrev ops : List (HloOp τ sig (Elt F)) := opsNode ++ opsPool ++ opsIdx ++ opsEdge ++ opsTail

/-- @main is that straight line. Unfolding @main's three windows, each called function's body at its call and each
    call's record at its fields, and re-associating the sequencing, both sides are the same chain of operation steps
    ending in the return: the equation holds by definitional unfolding alone. -/
theorem main_eq (c : Dev nD) : main (F := F) c = seq ops := by
  chain_rfl

-- the enumerations over the signature's 198 references recurse past the default depth
set_option maxRecDepth 4096 in
/-- The signature scopes no TensorCore buffer. -/
theorem scopedRefs_eq : (Finset.univ.filter fun b : Ref sig .tc => b.isScoped) = ∅ := by decide
set_option maxRecDepth 4096 in
/-- The signature scopes no semaphore. -/
theorem scopedSems_eq : (Finset.univ.filter fun sm : SemLoc sig => sm.isScoped .tc) = ∅ := by decide

/-- Each operation of `opsNode` touches TensorCore references only. -/
theorem opsNode_sub : (opsNode : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Each operation of `opsNode` determines its results: none allocates a buffer of contents not chosen. -/
theorem opsNode_fresh : (opsNode : List (HloOp τ sig (Elt F))).Forall fun op => op.fresh = ∅ := by
  simp only [List.Forall]; repeat' constructor

/-- Each operation of `opsPool` touches TensorCore references only. -/
theorem opsPool_sub : (opsPool : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
/-- Each operation of `opsPool` determines its results: none allocates a buffer of contents not chosen. -/
theorem opsPool_fresh : (opsPool : List (HloOp τ sig (Elt F))).Forall fun op => op.fresh = ∅ := by
  simp only [List.Forall]; repeat' constructor

/-- Each operation of `opsIdx` touches TensorCore references only. -/
theorem opsIdx_sub : (opsIdx : List (HloOp τ sig (Elt F))).Forall fun op => op.bufs ⊆ tcRefs τ sig :=
  ⟨unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- Each operation of `opsIdx` determines its results: none allocates a buffer of contents not chosen. -/
theorem opsIdx_fresh : (opsIdx : List (HloOp τ sig (Elt F))).Forall fun op => op.fresh = ∅ := by
  simp only [List.Forall]; repeat' constructor

/-- Each operation of `opsEdge` touches TensorCore references only. -/
theorem opsEdge_sub : (opsEdge : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
/-- Each operation of `opsEdge` determines its results: none allocates a buffer of contents not chosen. -/
theorem opsEdge_fresh : (opsEdge : List (HloOp τ sig (Elt F))).Forall fun op => op.fresh = ∅ := by
  simp only [List.Forall]; repeat' constructor

/-- Each operation of `opsTail` touches TensorCore references only. -/
theorem opsTail_sub : (opsTail : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., unary_bufs_sub .., unary_bufs_sub .., binary_bufs_sub ..⟩
/-- Each operation of `opsTail` determines its results: none allocates a buffer of contents not chosen. -/
theorem opsTail_fresh : (opsTail : List (HloOp τ sig (Elt F))).Forall fun op => op.fresh = ∅ := by
  simp only [List.Forall]; repeat' constructor

/-- Each operation of @main touches TensorCore references only. -/
theorem ops_sub : (ops : List (HloOp τ sig (Elt F))).Forall fun op => op.bufs ⊆ tcRefs τ sig :=
  List.forall_append.mpr ⟨List.forall_append.mpr ⟨List.forall_append.mpr ⟨List.forall_append.mpr
    ⟨opsNode_sub, opsPool_sub⟩, opsIdx_sub⟩, opsEdge_sub⟩, opsTail_sub⟩

/-- Each operation of @main determines its results. -/
theorem ops_fresh : ∀ op ∈ (ops : List (HloOp τ sig (Elt F))), op.fresh = ∅ :=
  List.forall_iff_forall_mem.mp (List.forall_append.mpr ⟨List.forall_append.mpr ⟨List.forall_append.mpr ⟨List.forall_append.mpr
    ⟨opsNode_fresh, opsPool_fresh⟩, opsIdx_fresh⟩, opsEdge_fresh⟩, opsTail_fresh⟩)

/-- At the compiled mesh, for any float values, from any memory with zero counters: every weakly fair execution of
    @main on the TensorCores terminates, and every final state has each TensorCore buffer at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefArgs.lean ====
/-
  The reference program writes none of its 18 argument buffers.  Each of its 180 operations writes one buffer, its own
  result's; the 180 result buffers are listed once, in the order of the operations, and no argument buffer is in
  the list.  So the fold of the operations over any contents leaves every argument buffer as it was.
-/
import proofs.«144891_j17377437679650_1_alg».proof.Proof.RefRun
import Idealize.ShloMosaic.Lib.StableHlo.Run

noncomputable section

namespace Cert.ReferenceIdeal.RefArgs

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The result buffers of the 180 operations, in the operations' order. -/
def written : List (Ref sig .tc) :=
  [
    main_v0, main_v1, main_v2, main_v3, main_call0_cst, main_call0_v0, main_v4, main_v5, main_v6, main_v7, main_v8, main_call1_cst, main_call1_v0, main_v9,
    main_cst, main_v10, main_v11, main_v12, main_cst_0, main_v13, main_cst_1, main_v14, main_v15, main_v16, main_cst_2, main_v17, main_v18, main_v19, main_v20,
    main_v21, main_v22, main_v23, main_v24, main_v25, main_call2_v0, main_call2_call0_c, main_call2_call0_v0, main_v26, main_c, main_v27, main_c_3, main_call3_v0, main_call3_v1, main_v28, main_c_4, main_v29, main_v30, main_c_5, main_v31, main_v32, main_v33, main_v34, main_c_6, main_v35, main_v36, main_call4_call0_c, main_call4_call0_v0, main_v37, main_c_7, main_call5_v0, main_call5_v1, main_call5_v2, main_call5_v3, main_call5_v4, main_call5_v5, main_call5_v6, main_call5_v7, main_call5_c, main_call5_v8, main_call5_v9, main_call5_v10, main_call5_c_0, main_call5_v11, main_call5_v12, main_v38, main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v39, main_v40, main_v41, main_c_9, main_v42, main_v43, main_c_10, main_v44, main_v45, main_v46, main_v47, main_v48, main_v49, main_v50, main_c_11, main_v51, main_v52, main_c_12, main_v53, main_v54, main_v55, main_v56, main_v57, main_c_13, main_v58, main_v59, main_c_14, main_v60, main_v61, main_v62, main_v63, main_v64, main_c_15, main_v65, main_v66, main_c_16, main_v67, main_v68, main_v69, main_v70, main_v71, main_v72,
    main_v73, main_v74, main_v75, main_v76, main_v77, main_call7_cst, main_call7_v0, main_v78, main_v79, main_v80, main_v81, main_v82, main_call8_cst, main_call8_v0, main_v83, main_v84, main_v85, main_v86, main_v87, main_call9_cst, main_call9_v0, main_v88,
    main_cst_17, main_v89, main_v90, main_v91, main_cst_18, main_v92, main_cst_19, main_v93, main_v94, main_v95, main_cst_20, main_v96, main_v97, main_v98, main_v99, main_v100, main_v101, main_v102, main_v103, main_v104 ]

/-- An operation that writes one listed buffer writes inside the list. -/
theorem sub_written {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map.mpr ⟨y, h, rfl⟩))

/-- Each of the node network's operations writes a listed buffer. -/
theorem opsNode_writes : (opsNode : List (HloOp τ sig (Elt F))).Forall fun op => op.writes ⊆ (written.map (Proc.devRef (τ := τ) .tc)).toFinset := by
  simp only [opsNode, List.Forall, StableHlo.nullary_writes, StableHlo.unary_writes, StableHlo.binary_writes, StableHlo.ternary_writes,
    StableHlo.reshape_writes]
  repeat' apply And.intro
  all_goals exact sub_written (by decide +kernel)

/-- Each of the per-graph mean's operations writes a listed buffer. -/
theorem opsPool_writes : (opsPool : List (HloOp τ sig (Elt F))).Forall fun op => op.writes ⊆ (written.map (Proc.devRef (τ := τ) .tc)).toFinset := by
  simp only [opsPool, List.Forall, StableHlo.nullary_writes, StableHlo.unary_writes, StableHlo.binary_writes, StableHlo.ternary_writes,
    StableHlo.reshape_writes]
  repeat' apply And.intro
  all_goals exact sub_written (by decide +kernel)

/-- Each of the index arithmetic's and the gathers' operations writes a listed buffer. -/
theorem opsIdx_writes : (opsIdx : List (HloOp τ sig (Elt F))).Forall fun op => op.writes ⊆ (written.map (Proc.devRef (τ := τ) .tc)).toFinset := by
  simp only [opsIdx, List.Forall, StableHlo.nullary_writes, StableHlo.unary_writes, StableHlo.binary_writes, StableHlo.ternary_writes,
    StableHlo.reshape_writes]
  repeat' apply And.intro
  all_goals exact sub_written (by decide +kernel)

/-- Each of the edge network's operations writes a listed buffer. -/
theorem opsEdge_writes : (opsEdge : List (HloOp τ sig (Elt F))).Forall fun op => op.writes ⊆ (written.map (Proc.devRef (τ := τ) .tc)).toFinset := by
  simp only [opsEdge, List.Forall, StableHlo.nullary_writes, StableHlo.unary_writes, StableHlo.binary_writes, StableHlo.ternary_writes,
    StableHlo.reshape_writes]
  repeat' apply And.intro
  all_goals exact sub_written (by decide +kernel)

/-- Each of the closing operations writes a listed buffer. -/
theorem opsTail_writes : (opsTail : List (HloOp τ sig (Elt F))).Forall fun op => op.writes ⊆ (written.map (Proc.devRef (τ := τ) .tc)).toFinset := by
  simp only [opsTail, List.Forall, StableHlo.nullary_writes, StableHlo.unary_writes, StableHlo.binary_writes, StableHlo.ternary_writes,
    StableHlo.reshape_writes]
  repeat' apply And.intro
  all_goals exact sub_written (by decide +kernel)

/-- Every operation of the reference writes a listed buffer. -/
theorem ops_writes : (ops : List (HloOp τ sig (Elt F))).Forall fun op => op.writes ⊆ (written.map (Proc.devRef (τ := τ) .tc)).toFinset :=
  List.forall_append.mpr ⟨List.forall_append.mpr ⟨List.forall_append.mpr ⟨List.forall_append.mpr
    ⟨opsNode_writes, opsPool_writes⟩, opsIdx_writes⟩, opsEdge_writes⟩, opsTail_writes⟩

/-- Argument 0's buffer is not a result buffer: the operations leave it as it was. -/
theorem arg_kept_0 (V : Valuation τ sig (Elt F)) : after ops V (Proc.devRef .tc main_arg0) = V (Proc.devRef .tc main_arg0) :=
  after_of_writes_sub ops V ops_writes (by decide +kernel)

/-- Argument 1's buffer is not a result buffer: the operations leave it as it was. -/
theorem arg_kept_1 (V : Valuation τ sig (Elt F)) : after ops V (Proc.devRef .tc main_arg1) = V (Proc.devRef .tc main_arg1) :=
  after_of_writes_sub ops V ops_writes (by decide +kernel)

/-- Argument 2's buffer is not a result buffer: the operations leave it as it was. -/
theorem arg_kept_2 (V : Valuation τ sig (Elt F)) : after ops V (Proc.devRef .tc main_arg2) = V (Proc.devRef .tc main_arg2) :=
  after_of_writes_sub ops V ops_writes (by decide +kernel)

/-- Argument 3's buffer is not a result buffer: the operations leave it as it was. -/
theorem arg_kept_3 (V : Valuation τ sig (Elt F)) : after ops V (Proc.devRef .tc main_arg3) = V (Proc.devRef .tc main_arg3) :=
  after_of_writes_sub ops V ops_writes (by decide +kernel)

/-- Argument 4's buffer is not a result buffer: the operations leave it as it was. -/
theorem arg_kept_4 (V : Valuation τ sig (Elt F)) : after ops V (Proc.devRef .tc main_arg4) = V (Proc.devRef .tc main_arg4) :=
  after_of_writes_sub ops V ops_writes (by decide +kernel)

/-- Argument 5's buffer is not a result buffer: the operations leave it as it was. -/
theorem arg_kept_5 (V : Valuation τ sig (Elt F)) : after ops V (Proc.devRef .tc main_arg5) = V (Proc.devRef .tc main_arg5) :=
  after_of_writes_sub ops V ops_writes (by decide +kernel)

/-- Argument 6's buffer is not a result buffer: the operations leave it as it was. -/
theorem arg_kept_6 (V : Valuation τ sig (Elt F)) : after ops V (Proc.devRef .tc main_arg6) = V (Proc.devRef .tc main_arg6) :=
  after_of_writes_sub ops V ops_writes (by decide +kernel)

/-- Argument 7's buffer is not a result buffer: the operations leave it as it was. -/
theorem arg_kept_7 (V : Valuation τ sig (Elt F)) : after ops V (Proc.devRef .tc main_arg7) = V (Proc.devRef .tc main_arg7) :=
  after_of_writes_sub ops V ops_writes (by decide +kernel)

/-- Argument 8's buffer is not a result buffer: the operations leave it as it was. -/
theorem arg_kept_8 (V : Valuation τ sig (Elt F)) : after ops V (Proc.devRef .tc main_arg8) = V (Proc.devRef .tc main_arg8) :=
  after_of_writes_sub ops V ops_writes (by decide +kernel)

/-- Argument 9's buffer is not a result buffer: the operations leave it as it was. -/
theorem arg_kept_9 (V : Valuation τ sig (Elt F)) : after ops V (Proc.devRef .tc main_arg9) = V (Proc.devRef .tc main_arg9) :=
  after_of_writes_sub ops V ops_writes (by decide +kernel)

/-- Argument 10's buffer is not a result buffer: the operations leave it as it was. -/
theorem arg_kept_10 (V : Valuation τ sig (Elt F)) : after ops V (Proc.devRef .tc main_arg10) = V (Proc.devRef .tc main_arg10) :=
  after_of_writes_sub ops V ops_writes (by decide +kernel)

/-- Argument 11's buffer is not a result buffer: the operations leave it as it was. -/
theorem arg_kept_11 (V : Valuation τ sig (Elt F)) : after ops V (Proc.devRef .tc main_arg11) = V (Proc.devRef .tc main_arg11) :=
  after_of_writes_sub ops V ops_writes (by decide +kernel)

/-- Argument 12's buffer is not a result buffer: the operations leave it as it was. -/
theorem arg_kept_12 (V : Valuation τ sig (Elt F)) : after ops V (Proc.devRef .tc main_arg12) = V (Proc.devRef .tc main_arg12) :=
  after_of_writes_sub ops V ops_writes (by decide +kernel)

/-- Argument 13's buffer is not a result buffer: the operations leave it as it was. -/
theorem arg_kept_13 (V : Valuation τ sig (Elt F)) : after ops V (Proc.devRef .tc main_arg13) = V (Proc.devRef .tc main_arg13) :=
  after_of_writes_sub ops V ops_writes (by decide +kernel)

/-- Argument 14's buffer is not a result buffer: the operations leave it as it was. -/
theorem arg_kept_14 (V : Valuation τ sig (Elt F)) : after ops V (Proc.devRef .tc main_arg14) = V (Proc.devRef .tc main_arg14) :=
  after_of_writes_sub ops V ops_writes (by decide +kernel)

/-- Argument 15's buffer is not a result buffer: the operations leave it as it was. -/
theorem arg_kept_15 (V : Valuation τ sig (Elt F)) : after ops V (Proc.devRef .tc main_arg15) = V (Proc.devRef .tc main_arg15) :=
  after_of_writes_sub ops V ops_writes (by decide +kernel)

/-- Argument 16's buffer is not a result buffer: the operations leave it as it was. -/
theorem arg_kept_16 (V : Valuation τ sig (Elt F)) : after ops V (Proc.devRef .tc main_arg16) = V (Proc.devRef .tc main_arg16) :=
  after_of_writes_sub ops V ops_writes (by decide +kernel)

/-- Argument 17's buffer is not a result buffer: the operations leave it as it was. -/
theorem arg_kept_17 (V : Valuation τ sig (Elt F)) : after ops V (Proc.devRef .tc main_arg17) = V (Proc.devRef .tc main_arg17) :=
  after_of_writes_sub ops V ops_writes (by decide +kernel)

end Cert.ReferenceIdeal.RefArgs

end
-- ==== Proof.KChainW2.lean ====
/-
  The buffers the first kernel region does not touch, read at its exit, and its input arrays, read at its entry, as
  functions of the launch memory.  Before the region the host rounds the two node weight matrices to bfloat16 and lays the
  two bias vectors out as rows; the region writes only its output array; every argument array is as launched.
-/
import proofs.«144891_j17377437679650_1_alg».proof.Proof.Gen.KernelIdeal.Frame
import Idealize.ShloMosaic.PureOps.Ideal

set_option maxRecDepth 16384

noncomputable section

namespace Cert.KernelIdeal.ChainW2

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- Argument 1 at the first region's exit is as launched: no host operation before it and no window of the region writes it. -/
theorem w2_a1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp <;> rfl

/-- Argument 2 at the first region's exit is as launched: no host operation before it and no window of the region writes it. -/
theorem w2_a2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

/-- Argument 3 at the first region's exit is as launched: no host operation before it and no window of the region writes it. -/
theorem w2_a3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl

/-- Argument 4 at the first region's exit is as launched: no host operation before it and no window of the region writes it. -/
theorem w2_a4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp <;> rfl

/-- Argument 10 at the first region's exit is as launched: no host operation before it and no window of the region writes it. -/
theorem w2_a10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl

/-- Argument 11 at the first region's exit is as launched: no host operation before it and no window of the region writes it. -/
theorem w2_a11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results_simp <;> rfl

/-- Argument 12 at the first region's exit is as launched: no host operation before it and no window of the region writes it. -/
theorem w2_a12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results_simp <;> rfl

/-- Argument 13 at the first region's exit is as launched: no host operation before it and no window of the region writes it. -/
theorem w2_a13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results_simp <;> rfl

/-- Argument 14 at the first region's exit is as launched: no host operation before it and no window of the region writes it. -/
theorem w2_a14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results_simp <;> rfl

/-- Argument 15 at the first region's exit is as launched: no host operation before it and no window of the region writes it. -/
theorem w2_a15 (c : Dev nD) : W2 m ρ c (Proc.devRef .tc main_arg15) = m ((c : Thread nD τ).loc main_arg15) := by
  rw [W2_of_ne m ρ c main_arg15 (by decide)]
  show StableHlo.after hostOps0 (W0 m ρ c) (Proc.devRef .tc main_arg15) = _
  after_results_simp <;> rfl

/-- Argument 16 at the first region's exit is as launched: no host operation before it and no window of the region writes it. -/
theorem w2_a16 (c : Dev nD) : W2 m ρ c (Proc.devRef .tc main_arg16) = m ((c : Thread nD τ).loc main_arg16) := by
  rw [W2_of_ne m ρ c main_arg16 (by decide)]
  show StableHlo.after hostOps0 (W0 m ρ c) (Proc.devRef .tc main_arg16) = _
  after_results_simp <;> rfl

/-- Argument 17 at the first region's exit is as launched: no host operation before it and no window of the region writes it. -/
theorem w2_a17 (c : Dev nD) : W2 m ρ c (Proc.devRef .tc main_arg17) = m ((c : Thread nD τ).loc main_arg17) := by
  rw [W2_of_ne m ρ c main_arg17 (by decide)]
  show StableHlo.after hostOps0 (W0 m ρ c) (Proc.devRef .tc main_arg17) = _
  after_results_simp <;> rfl

/-- The node features at the first region's entry are the launch contents. -/
theorem v1_a0 (c : Dev nD) : V1 m ρ c main_arg0 = m ((c : Thread nD τ).loc main_arg0) := by
  show StableHlo.after hostOps0 (W0 m ρ c) (Proc.devRef .tc main_arg0) = _
  after_results_simp <;> rfl

/-- The first node weight matrix at the region's entry: the launch contents rounded to bfloat16. -/
theorem v1_v0 (c : Dev nD) : V1 m ρ c main_v0 = truncf .bf16 (m ((c : Thread nD τ).loc main_arg6)) bitsLt_bf16_f32 := by
  show StableHlo.after hostOps0 (W0 m ρ c) (Proc.devRef .tc main_v0) = _
  after_results_simp <;> rfl

/-- The second node weight matrix at the region's entry: the launch contents rounded to bfloat16. -/
theorem v1_v1 (c : Dev nD) : V1 m ρ c main_v1 = truncf .bf16 (m ((c : Thread nD τ).loc main_arg8)) bitsLt_bf16_f32 := by
  show StableHlo.after hostOps0 (W0 m ρ c) (Proc.devRef .tc main_v1) = _
  after_results_simp <;> rfl

/-- The first node bias at the region's entry: the launch vector laid out as a row. -/
theorem v1_v2 (c : Dev nD) : V1 m ρ c main_v2 = shapeCast S1x128 (m ((c : Thread nD τ).loc main_arg7)) shapeCasts_S128_S1x128 := by
  show StableHlo.after hostOps0 (W0 m ρ c) (Proc.devRef .tc main_v2) = _
  after_results_simp <;> rfl

/-- The second node bias at the region's entry: the launch vector laid out as a row. -/
theorem v1_v3 (c : Dev nD) : V1 m ρ c main_v3 = shapeCast S1x64 (m ((c : Thread nD τ).loc main_arg9)) shapeCasts_S64_S1x64 := by
  show StableHlo.after hostOps0 (W0 m ρ c) (Proc.devRef .tc main_v3) = _
  after_results_simp <;> rfl

/-- The node network's output array at the first region's exit is what the region's write-backs leave. -/
theorem w2_v4 (c : Dev nD) : W2 m ρ c (Proc.devRef .tc main_v4) = (dat0 (V1 m ρ) c).arrAt 5 cfg0.N := W2_arr m ρ c 5

end Cert.KernelIdeal.ChainW2

end
-- ==== Proof.KChainW13.lean ====
/-
  The second kernel region's input arrays, read at its entry, as functions of the buffers at the first region's exit.
  Between the regions the host pools the node features, builds the edge endpoints' summed features, rounds the edge weight
  matrices to bfloat16, cuts the first one into its upper and lower halves and lays the bias vectors out as rows.
-/
import proofs.«144891_j17377437679650_1_alg».proof.Proof.Gen.KernelIdeal.Frame
import Idealize.ShloMosaic.PureOps.Ideal

set_option maxRecDepth 16384

noncomputable section

namespace Cert.KernelIdeal.ChainW13

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- Argument 1 at the second region's entry is what it was at the first region's exit. -/
theorem w13_a1 (c : Dev nD) : W13 m ρ c (Proc.devRef .tc main_arg1) = W2 m ρ c (Proc.devRef .tc main_arg1) := by
  after_results_simp <;> rfl

/-- Argument 4 at the second region's entry is what it was at the first region's exit. -/
theorem w13_a4 (c : Dev nD) : W13 m ρ c (Proc.devRef .tc main_arg4) = W2 m ρ c (Proc.devRef .tc main_arg4) := by
  after_results_simp <;> rfl

/-- Argument 16 at the second region's entry is what it was at the first region's exit. -/
theorem w13_a16 (c : Dev nD) : W13 m ρ c (Proc.devRef .tc main_arg16) = W2 m ρ c (Proc.devRef .tc main_arg16) := by
  after_results_simp <;> rfl

/-- Argument 17 at the second region's entry is what it was at the first region's exit. -/
theorem w13_a17 (c : Dev nD) : W13 m ρ c (Proc.devRef .tc main_arg17) = W2 m ρ c (Proc.devRef .tc main_arg17) := by
  after_results_simp <;> rfl

/-- The upper half of the first edge weight matrix, rounded to bfloat16. -/
theorem w13_v69 (c : Dev nD) : W13 m ρ c (Proc.devRef .tc main_v69)
    = extractStridedSlice S256x256 ![0, 0] (truncf .bf16 (W2 m ρ c (Proc.devRef .tc main_arg10)) bitsLt_bf16_f32) slices_S512x256_S256x256_0_0 := by
  after_results_simp <;> rfl

/-- The lower half of the first edge weight matrix, rounded to bfloat16. -/
theorem w13_v70 (c : Dev nD) : W13 m ρ c (Proc.devRef .tc main_v70)
    = extractStridedSlice S256x256 ![256, 0] (truncf .bf16 (W2 m ρ c (Proc.devRef .tc main_arg10)) bitsLt_bf16_f32) slices_S512x256_S256x256_256_0 := by
  after_results_simp <;> rfl

/-- The second edge weight matrix, rounded to bfloat16. -/
theorem w13_v71 (c : Dev nD) : W13 m ρ c (Proc.devRef .tc main_v71) = truncf .bf16 (W2 m ρ c (Proc.devRef .tc main_arg12)) bitsLt_bf16_f32 := by
  after_results_simp <;> rfl

/-- The third edge weight matrix, rounded to bfloat16. -/
theorem w13_v72 (c : Dev nD) : W13 m ρ c (Proc.devRef .tc main_v72) = truncf .bf16 (W2 m ρ c (Proc.devRef .tc main_arg14)) bitsLt_bf16_f32 := by
  after_results_simp <;> rfl

/-- The first edge bias laid out as a row. -/
theorem w13_v73 (c : Dev nD) : W13 m ρ c (Proc.devRef .tc main_v73) = shapeCast S1x256 (W2 m ρ c (Proc.devRef .tc main_arg11)) shapeCasts_S256_S1x256 := by
  after_results_simp <;> rfl

/-- The second edge bias laid out as a row. -/
theorem w13_v74 (c : Dev nD) : W13 m ρ c (Proc.devRef .tc main_v74) = shapeCast S1x128 (W2 m ρ c (Proc.devRef .tc main_arg13)) shapeCasts_S128_S1x128 := by
  after_results_simp <;> rfl

/-- The third edge bias laid out as a row. -/
theorem w13_v75 (c : Dev nD) : W13 m ρ c (Proc.devRef .tc main_v75) = shapeCast S1x64 (W2 m ρ c (Proc.devRef .tc main_arg15)) shapeCasts_S64_S1x64 := by
  after_results_simp <;> rfl

end Cert.KernelIdeal.ChainW13

end
-- ==== Proof.Shared.lean ====
/-
  The part of the network both programs spell alike, as functions of arrays, for any reading of the floats.

  A segment mean pools the rows of a feature array by graph: the rows of each segment are added into that segment's row
  (a scatter-add into zeros), the segment's row count is found the same way from a column of ones, and the sums are
  divided by max(count, 1).  The head joins the pooled node and edge features along the columns, multiplies by the output
  weights and adds the output bias.  Each definition is the composition of host operations that both programs print for it.
-/
import proofs.«144891_j17377437679650_1_alg».proof.Proof.Gen.KernelIdeal
import Idealize.ShloMosaic.PureOps.Ideal

noncomputable section

namespace Cert.Shared

open Cert.KernelIdeal Cert.KernelIdeal.Gen Idealize.ShloMosaic

variable {F : FTy → Type} [FloatOps F]

/-- The segment mean of the 50000 node rows over 1000 graphs. -/
def poolNodes (g : (⟨S50000x64, .f32⟩ : BufTy).Contents (Elt F)) (seg : (⟨S50000, .i32⟩ : BufTy).Contents (Elt F)) :
    (⟨S1000x64, .f32⟩ : BufTy).Contents (Elt F) :=
  Host.divf (F := F)
    (Host.scatterAdd (F := F) scatter_S1000x64_S50000x1_S50000x64_1_0_0_1
      (broadcastInDim S1000x64 ![] bcast_S_S1000x64 (constant (F := F) S_ .f32 0x00000000#32))
      (broadcastInDim S50000x1 ![0] bcast_S50000_S50000x1_0 seg) g)
    (broadcastInDim S1000x64 ![0, 1] bcast_S1000x1_S1000x64_0_1
      (maximumf
        (Host.scatterAdd (F := F) scatter_S1000x1_S50000x1_S50000x1_1_0_0_1
          (broadcastInDim S1000x1 ![] bcast_S_S1000x1 (constant (F := F) S_ .f32 0x00000000#32))
          (broadcastInDim S50000x1 ![0] bcast_S50000_S50000x1_0 seg)
          (broadcastInDim S50000x1 ![] bcast_S_S50000x1 (constant (F := F) S_ .f32 0x3F800000#32)))
        (broadcastInDim S1000x1 ![] bcast_S_S1000x1 (constant (F := F) S_ .f32 0x3F800000#32))))

/-- The segment mean of the 400000 edge rows over 1000 graphs. -/
def poolEdges (g : (⟨S400000x64, .f32⟩ : BufTy).Contents (Elt F)) (seg : (⟨S400000, .i32⟩ : BufTy).Contents (Elt F)) :
    (⟨S1000x64, .f32⟩ : BufTy).Contents (Elt F) :=
  Host.divf (F := F)
    (Host.scatterAdd (F := F) scatter_S1000x64_S400000x1_S400000x64_1_0_0_1
      (broadcastInDim S1000x64 ![] bcast_S_S1000x64 (constant (F := F) S_ .f32 0x00000000#32))
      (broadcastInDim S400000x1 ![0] bcast_S400000_S400000x1_0 seg) g)
    (broadcastInDim S1000x64 ![0, 1] bcast_S1000x1_S1000x64_0_1
      (maximumf
        (Host.scatterAdd (F := F) scatter_S1000x1_S400000x1_S400000x1_1_0_0_1
          (broadcastInDim S1000x1 ![] bcast_S_S1000x1 (constant (F := F) S_ .f32 0x00000000#32))
          (broadcastInDim S400000x1 ![0] bcast_S400000_S400000x1_0 seg)
          (broadcastInDim S400000x1 ![] bcast_S_S400000x1 (constant (F := F) S_ .f32 0x3F800000#32)))
        (broadcastInDim S1000x1 ![] bcast_S_S1000x1 (constant (F := F) S_ .f32 0x3F800000#32))))

/-- The output head: the two pooled feature arrays side by side, times the output weights, plus the output bias. -/
def head (p1 p2 : (⟨S1000x64, .f32⟩ : BufTy).Contents (Elt F)) (ow : (⟨S128x1, .f32⟩ : BufTy).Contents (Elt F))
    (ob : (⟨S1, .f32⟩ : BufTy).Contents (Elt F)) : (⟨S1000x1, .f32⟩ : BufTy).Contents (Elt F) :=
  addf
    (((fun l r => Host.dotGeneral (F := F) dot_S1000x128_S128x1_S1000x1_1_0_0_1_n_n none l r) :
        (⟨S1000x128, .f32⟩ : BufTy).Contents (Elt F) → (⟨S128x1, .f32⟩ : BufTy).Contents (Elt F) → (⟨S1000x1, .f32⟩ : BufTy).Contents (Elt F))
      ((fun a b => concatenate S1000x128 1 [⟨S1000x64, a⟩, ⟨S1000x64, b⟩] concatenates_S1000x64_S1000x64_S1000x128_d1 :
          (⟨S1000x64, .f32⟩ : BufTy).Contents (Elt F) → (⟨S1000x64, .f32⟩ : BufTy).Contents (Elt F) → (⟨S1000x128, .f32⟩ : BufTy).Contents (Elt F)) p1 p2) ow)
    (broadcastInDim S1000x1 ![0, 1] bcast_S1x1_S1000x1_0_1 (broadcastInDim S1x1 ![1] bcast_S1_S1x1_1 ob))

end Cert.Shared

end
-- ==== Proof.KChainOut.lean ====
/-
  The program's result as the shared head of the pooled node features and the pooled edge features, read at the second
  region's exit; and the pooled node features as the segment mean of the first region's output array.
-/
import proofs.«144891_j17377437679650_1_alg».proof.Proof.Gen.KernelIdeal.Frame
import Idealize.ShloMosaic.PureOps.Ideal
import proofs.«144891_j17377437679650_1_alg».proof.Proof.Shared
set_option maxRecDepth 16384

noncomputable section

namespace Cert.KernelIdeal.ChainOut

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- The result buffer: the head of the pooled node features and of the segment mean of the second region's output. -/
theorem out_eq (c : Dev nD) : W15 m ρ c (Proc.devRef .tc main_v92)
    = Cert.Shared.head (W14 m ρ c (Proc.devRef .tc main_v15))
        (Cert.Shared.poolEdges (W14 m ρ c (Proc.devRef .tc main_v76)) (W14 m ρ c (Proc.devRef .tc main_arg4)))
        (W14 m ρ c (Proc.devRef .tc main_arg16)) (W14 m ρ c (Proc.devRef .tc main_arg17)) := by
  show StableHlo.after hostOps2 (W14 m ρ c) (Proc.devRef .tc main_v92) = _
  after_results_simp <;> rfl

/-- The pooled node features are not an array of the second region: they leave it as they entered. -/
theorem w14_v15 (c : Dev nD) : W14 m ρ c (Proc.devRef .tc main_v15) = W13 m ρ c (Proc.devRef .tc main_v15) := W14_of_ne m ρ c main_v15 (by decide)
theorem w14_a4 (c : Dev nD) : W14 m ρ c (Proc.devRef .tc main_arg4) = W13 m ρ c (Proc.devRef .tc main_arg4) := W14_of_ne m ρ c main_arg4 (by decide)
theorem w14_a16 (c : Dev nD) : W14 m ρ c (Proc.devRef .tc main_arg16) = W13 m ρ c (Proc.devRef .tc main_arg16) := W14_of_ne m ρ c main_arg16 (by decide)
theorem w14_a17 (c : Dev nD) : W14 m ρ c (Proc.devRef .tc main_arg17) = W13 m ρ c (Proc.devRef .tc main_arg17) := W14_of_ne m ρ c main_arg17 (by decide)

/-- The edge network's output array at the second region's exit is what the region's write-backs leave. -/
theorem w14_v76 (c : Dev nD) : W14 m ρ c (Proc.devRef .tc main_v76) = (dat1 (V13 m ρ) c).arrAt 9 cfg1.N := W14_arr m ρ c 9

/-- The pooled node features: the segment mean of the first region's output array by the node segment ids. -/
theorem w13_v15 (c : Dev nD) : W13 m ρ c (Proc.devRef .tc main_v15)
    = Cert.Shared.poolNodes (W2 m ρ c (Proc.devRef .tc main_v4)) (W2 m ρ c (Proc.devRef .tc main_arg3)) := by
  after_results_simp <;> rfl

end Cert.KernelIdeal.ChainOut

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«144891_j17377437679650_1_alg».proof.Proof.LibMatmulPlain
import proofs.«144891_j17377437679650_1_alg».proof.Proof.LibDotsNT
import proofs.«144891_j17377437679650_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.Spec.lean ====
/-
  The two multilayer perceptrons of the network as functions of whole arrays, on the extended reals.

  A dense layer with bias is Cert.Dense.biased: entry (r, q) of h W + B is the sum over c of h(r, c) W(c, q) plus B(0, q).
  The node network is two such layers, each followed by max(., 0).  The edge network's first layer multiplies the edge
  features by the upper half of its weight matrix and the summed endpoint features by the lower half, adds the two
  products and the bias; two more layers follow.  Every entry of a result row depends on that row of the features only,
  so a block of consecutive rows of the result is the network applied to that block of rows (node_rows, edge_rows).
-/
import Idealize.ShloMosaic.Lib.ValueIdx
import Idealize.ShloMosaic.PureOps.Ideal
import proofs.«144891_j17377437679650_1_alg».proof.Proof.LibDenseLayer

noncomputable section

open scoped BigOperators

namespace Cert.Spec

open Idealize.ShloMosaic Idealize.ShloMosaic.ValueIdx Cert.Dense

/-- An [a, n] array of extended reals. -/
abbrev Mat (a n : ℕ) : Type := (⟨2, ![a, n]⟩ : Shape).Idx → EReal

variable {a b n : ℕ}

/-- max(x, 0), entry by entry. -/
def relu (x : Mat a n) : Mat a n := fun i => max (x i) 0

/-- The node network: two biased layers, each followed by max(., 0). -/
def node (x : Mat a 256) (W0 : Mat 256 128) (B0 : Mat 1 128) (W1 : Mat 128 64) (B1 : Mat 1 64) : Mat a 64 :=
  relu (biased (relu (biased x W0 B0)) W1 B1)

/-- The first edge layer before its max: e We + s Ws + B, the two products added first. -/
def edge0 (e s : Mat a 256) (We Ws : Mat 256 256) (B0 : Mat 1 256) : Mat a 256 :=
  fun i => prod e We i + prod s Ws i + B0 (ix2 (0 : Fin 1) (i 1))

/-- The edge network: the split first layer, then two biased layers, each followed by max(., 0). -/
def edge (e s : Mat a 256) (We Ws : Mat 256 256) (B0 : Mat 1 256) (W1 : Mat 256 128) (B1 : Mat 1 128)
    (W2 : Mat 128 64) (B2 : Mat 1 64) : Mat a 64 :=
  relu (biased (relu (biased (relu (edge0 e s We Ws B0)) W1 B1)) W2 B2)

/-- Rows o, o+1, ..., o+b-1 of an array with at least o+b rows. -/
def rows (b o : ℕ) (h : o + b ≤ a) (x : Mat a n) : Mat b n :=
  fun i => x (ix2 (⟨o + (i 0).val, by have := idx2_lt0 i; omega⟩ : Fin a) (i 1))

theorem rows_apply (o : ℕ) (h : o + b ≤ a) (x : Mat a n) (p : Fin b) (q : Fin n) :
    rows b o h x (ix2 p q) = x (ix2 (⟨o + p.val, by have := p.isLt; omega⟩ : Fin a) q) := rfl

/-- A block of rows of the node network's result is the network on that block of rows. -/
theorem node_rows (o : ℕ) (h : o + b ≤ a) (x : Mat a 256) (W0 : Mat 256 128) (B0 : Mat 1 128) (W1 : Mat 128 64) (B1 : Mat 1 64) :
    node (rows b o h x) W0 B0 W1 B1 = rows b o h (node x W0 B0 W1 B1) := rfl

/-- A block of rows of the edge network's result is the network on those rows of both feature arrays. -/
theorem edge_rows (o : ℕ) (h : o + b ≤ a) (e s : Mat a 256) (We Ws : Mat 256 256) (B0 : Mat 1 256) (W1 : Mat 256 128)
    (B1 : Mat 1 128) (W2 : Mat 128 64) (B2 : Mat 1 64) :
    edge (rows b o h e) (rows b o h s) We Ws B0 W1 B1 W2 B2 = rows b o h (edge e s We Ws B0 W1 B1 W2 B2) := rfl

end Cert.Spec

end
-- ==== Proof.RegionNode.lean ====
/-
  The node region's result array after the region, as one function of the arrays the region reads.

  The region runs the node network's body at 25 grid points.  At point t the feature window holds rows 2000 t, ...,
  2000 t + 1999 of the [50000, 256] feature array, each weight and bias window holds its whole array, and the body stores
  the node network of those blocks into the result window's block, rows 2000 t, ..., 2000 t + 1999 of the [50000, 64]
  result array.  A block of rows of the network's result is the network on that block of rows, the 25 blocks are
  disjoint and cover every row, and every point writes its block back: so the array ends as the node network of the
  whole arrays.
-/
import proofs.«144891_j17377437679650_1_alg».proof.Proof.Gen.KernelIdeal.Frame
import proofs.«144891_j17377437679650_1_alg».proof.Proof.Spec
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.ShloMosaic.Tactic
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem node_hz : (![0, 0] : Fin 2 → Nat) = fun _ => 0 := funext fun a => by fin_cases a <;> rfl

/-- The block index maps of the node region's windows, decided over its 25 grid points: the feature window and
    the result window are at block (t, 0) at point t, the four weight windows at block (0, 0) throughout. -/
theorem node_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Rows 2000 t, ..., 2000 t + 1999 lie inside the 50000 rows, at each of the 25 points. -/
theorem node_fits (t : Fin cfg0.N) : 2000 * t.val + 2000 ≤ 50000 := by
  have h := t.isLt; have hN : cfg0.N = 25 := N_0; omega

/-- The feature window's block at point t is rows 2000 t, ..., 2000 t + 1999 of the feature array. -/
theorem node_blk0 (c : Dev nD) (t : Fin cfg0.N) :
    (iblk0 (F := Ideal) V c 0 t : Vec Ideal S2000x256 .f32) = Cert.Spec.rows 2000 (2000 * t.val) (node_fits t) (V c main_arg0) := by
  obtain ⟨e0, e1, -⟩ := node_idx t
  funext j
  show V c main_arg0 (((cfg0.win 0).blk t).view.emb j) = V c main_arg0 (ix2 ⟨2000 * t.val + (j 0).val, _⟩ (j 1))
  congr 1
  funext a; apply Fin.ext
  match a with
  | ⟨0, _⟩ => show win0_0.index t (0 : Fin 2) * 2000 + 1 * (j 0).val = 2000 * t.val + (j 0).val; omega
  | ⟨1, _⟩ => show win0_0.index t (1 : Fin 2) * 256 + 1 * (j 1).val = (j 1).val; omega

/-- The first weight window's block is the whole weight array, at every point. -/
theorem node_blk1 (c : Dev nD) (t : Fin cfg0.N) :
    (iblk0 (F := Ideal) V c 1 t : Vec Ideal S256x128 .bf16) = V c main_v0 := by
  obtain ⟨-, -, e0, e1, -⟩ := node_idx t
  funext j
  show V c main_v0 (((cfg0.win 1).blk t).view.emb j) = V c main_v0 j
  congr 1
  funext a; apply Fin.ext
  match a with
  | ⟨0, _⟩ => show win0_1.index t (0 : Fin 2) * 256 + 1 * (j 0).val = (j 0).val; omega
  | ⟨1, _⟩ => show win0_1.index t (1 : Fin 2) * 128 + 1 * (j 1).val = (j 1).val; omega

/-- The first bias window's block is the whole bias row. -/
theorem node_blk2 (c : Dev nD) (t : Fin cfg0.N) :
    (iblk0 (F := Ideal) V c 2 t : Vec Ideal S1x128 .f32) = V c main_v2 := by
  obtain ⟨-, -, -, -, e0, e1, -⟩ := node_idx t
  funext j
  show V c main_v2 (((cfg0.win 2).blk t).view.emb j) = V c main_v2 j
  congr 1
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The second weight window's block is the whole weight array. -/
theorem node_blk3 (c : Dev nD) (t : Fin cfg0.N) :
    (iblk0 (F := Ideal) V c 3 t : Vec Ideal S128x64 .bf16) = V c main_v1 := by
  obtain ⟨-, -, -, -, -, -, e0, e1, -⟩ := node_idx t
  funext j
  show V c main_v1 (((cfg0.win 3).blk t).view.emb j) = V c main_v1 j
  congr 1
  funext a; apply Fin.ext
  match a with
  | ⟨0, _⟩ => show win0_3.index t (0 : Fin 2) * 128 + 1 * (j 0).val = (j 0).val; omega
  | ⟨1, _⟩ => show win0_3.index t (1 : Fin 2) * 64 + 1 * (j 1).val = (j 1).val; omega

/-- The second bias window's block is the whole bias row. -/
theorem node_blk4 (c : Dev nD) (t : Fin cfg0.N) :
    (iblk0 (F := Ideal) V c 4 t : Vec Ideal S1x64 .f32) = V c main_v3 := by
  obtain ⟨-, -, -, -, -, -, -, -, e0, e1, -⟩ := node_idx t
  funext j
  show V c main_v3 (((cfg0.win 4).blk t).view.emb j) = V c main_v3 j
  congr 1
  funext a; apply Fin.ext
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- The result window's block at point t, read off a [50000, 64] array, is its rows 2000 t, ..., 2000 t + 1999. -/
theorem node_read5 (t : Fin cfg0.N) (G : Cert.Spec.Mat 50000 64) :
    (((cfg0.win 5).blk t).view.read (Elt Ideal) G : Vec Ideal S2000x64 .f32) = Cert.Spec.rows 2000 (2000 * t.val) (node_fits t) G := by
  obtain ⟨-, -, -, -, -, -, -, -, -, -, e0, e1⟩ := node_idx t
  funext j
  show G (((cfg0.win 5).blk t).view.emb j) = G (ix2 ⟨2000 * t.val + (j 0).val, _⟩ (j 1))
  congr 1
  funext a; apply Fin.ext
  match a with
  | ⟨0, _⟩ => show win0_5.index t (0 : Fin 2) * 2000 + 1 * (j 0).val = 2000 * t.val + (j 0).val; omega
  | ⟨1, _⟩ => show win0_5.index t (1 : Fin 2) * 64 + 1 * (j 1).val = (j 1).val; omega

/-- What point t writes back is rows 2000 t, ..., 2000 t + 1999 of the node network of the whole arrays: the body
    computes the network on its block of feature rows, and a block of rows of the network's result is the network
    on that block of rows. -/
theorem node_flushed
    (hbody : ∀ (x0 : Vec Ideal S2000x256 .f32) (x1 : Vec Ideal S256x128 .bf16) (x2 : Vec Ideal S1x128 .f32)
      (x3 : Vec Ideal S128x64 .bf16) (x4 : Vec Ideal S1x64 .f32),
      k0_pay1 (F := Ideal) x0 x1 x2 x3 x4 = Cert.Spec.node (a := 2000) x0 x1 x2 x3 x4)
    (c : Dev nD) (t : Fin cfg0.N) :
    (dat0 (F := Ideal) V c).flushed 5 t = ((cfg0.win 5).blk t).view.read (Elt Ideal)
      (Cert.Spec.node (a := 50000) (V c main_arg0) (V c main_v0) (V c main_v2) (V c main_v1) (V c main_v3)) := by
  show (cfg0.win 5).cut (grid0.coords t) ((dat0 V c).after 5 t) = _
  rw [after0_5]
  unfold out0_5
  rw [View.canon_unit_zero node_hz]
  simp only [View.ld_unit_zero (S := S2000x256) node_hz, View.ld_unit_zero (S := S256x128) node_hz, View.ld_unit_zero (S := S1x128) node_hz,
    View.ld_unit_zero (S := S128x64) node_hz, View.ld_unit_zero (S := S1x64) node_hz]
  rw [hbody, node_blk0, node_blk1, node_blk2, node_blk3, node_blk4, Cert.Spec.node_rows, node_read5]
  rfl

/-- An index of the result array is in point t's block iff each coordinate is in the block's range on its axis. -/
theorem node_mem_blk (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v4).slice (win0_5.rect t)).set ↔ _
  rw [View.set_slice_whole, Rect.mem_set_unit]
  exact Iff.rfl

/-- Every index of the result array lies in the block of the point (row / 2000), and every point writes back. -/
theorem node_cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨-, -, -, -, -, -, -, -, -, -, e0, e1⟩ := node_idx t
  have ht : t.val = (i 0).val / 2000 := rfl
  refine ⟨t, flush0_5 t, ?_⟩
  rw [node_mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- THE NODE REGION'S RESULT ARRAY after the region is the node network of the region's input arrays. -/
theorem node_arr
    (hbody : ∀ (x0 : Vec Ideal S2000x256 .f32) (x1 : Vec Ideal S256x128 .bf16) (x2 : Vec Ideal S1x128 .f32)
      (x3 : Vec Ideal S128x64 .bf16) (x4 : Vec Ideal S1x64 .f32),
      k0_pay1 (F := Ideal) x0 x1 x2 x3 x4 = Cert.Spec.node (a := 2000) x0 x1 x2 x3 x4)
    (c : Dev nD) :
    (dat0 (F := Ideal) V c).arrAt 5 cfg0.N
      = Cert.Spec.node (a := 50000) (V c main_arg0) (V c main_v0) (V c main_v2) (V c main_v1) (V c main_v3) :=
  (dat0 (F := Ideal) V c).arrAt_eq_of_cover 5 _ (fun t _ => node_flushed V hbody c t) node_cover

end Cert.KernelIdeal.Regions

end
-- ==== Proof.RegionEdge.lean ====
/-
  The edge region's result array after the region, as one function of the arrays the region reads.

  The region runs the edge network's body at 200 grid points.  At point t the two feature windows hold rows 2000 t, ...,
  2000 t + 1999 of the [400000, 256] edge features and of the summed endpoint features, each weight and bias window holds
  its whole array, and the body stores the edge network of those blocks into rows 2000 t, ..., 2000 t + 1999 of the
  [400000, 64] result array.  A block of rows of the network's result is the network on those rows of both feature
  arrays, the 200 blocks cover every row, and every point writes its block back: so the array ends as the edge network
  of the whole arrays.
-/
import proofs.«144891_j17377437679650_1_alg».proof.Proof.Gen.KernelIdeal.Frame
import proofs.«144891_j17377437679650_1_alg».proof.Proof.Spec
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.ShloMosaic.Tactic
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

theorem edge_hz : (![0, 0] : Fin 2 → Nat) = fun _ => 0 := funext fun a => by fin_cases a <;> rfl

/-- The block index maps of the edge region's windows, decided over its 200 grid points: the two feature windows
    and the result window are at block (t, 0) at point t, the seven weight windows at block (0, 0) throughout. -/
theorem edge_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Rows 2000 t, ..., 2000 t + 1999 lie inside the 400000 rows, at each of the 200 points. -/
theorem edge_fits (t : Fin cfg1.N) : 2000 * t.val + 2000 ≤ 400000 := by
  have h := t.isLt; have hN : cfg1.N = 200 := N_1; omega

/-- The edge-feature window's block at point t is rows 2000 t, ..., 2000 t + 1999 of the edge-feature array. -/
theorem edge_blk0 (c : Dev nD) (t : Fin cfg1.N) :
    (iblk1 (F := Ideal) V c 0 t : Vec Ideal S2000x256 .f32) = Cert.Spec.rows 2000 (2000 * t.val) (edge_fits t) (V c main_arg1) := by
  obtain ⟨e0, e1, -⟩ := edge_idx t
  funext j
  show V c main_arg1 (((cfg1.win 0).blk t).view.emb j) = V c main_arg1 (ix2 ⟨2000 * t.val + (j 0).val, _⟩ (j 1))
  congr 1
  funext a; apply Fin.ext
  match a with
  | ⟨0, _⟩ => show win1_0.index t (0 : Fin 2) * 2000 + 1 * (j 0).val = 2000 * t.val + (j 0).val; omega
  | ⟨1, _⟩ => show win1_0.index t (1 : Fin 2) * 256 + 1 * (j 1).val = (j 1).val; omega

/-- The endpoint-sum window's block at point t is the same rows of the endpoint-sum array. -/
theorem edge_blk1 (c : Dev nD) (t : Fin cfg1.N) :
    (iblk1 (F := Ideal) V c 1 t : Vec Ideal S2000x256 .f32) = Cert.Spec.rows 2000 (2000 * t.val) (edge_fits t) (V c main_v67) := by
  obtain ⟨-, -, e0, e1, -⟩ := edge_idx t
  funext j
  show V c main_v67 (((cfg1.win 1).blk t).view.emb j) = V c main_v67 (ix2 ⟨2000 * t.val + (j 0).val, _⟩ (j 1))
  congr 1
  funext a; apply Fin.ext
  match a with
  | ⟨0, _⟩ => show win1_1.index t (0 : Fin 2) * 2000 + 1 * (j 0).val = 2000 * t.val + (j 0).val; omega
  | ⟨1, _⟩ => show win1_1.index t (1 : Fin 2) * 256 + 1 * (j 1).val = (j 1).val; omega

/-- The feature half of the first weight matrix: its window's block is the whole array, at every point. -/
theorem edge_blk2 (c : Dev nD) (t : Fin cfg1.N) :
    (iblk1 (F := Ideal) V c 2 t : Vec Ideal S256x256 .bf16) = V c main_v69 := by
  obtain ⟨-, -, -, -, e0, e1, -⟩ := edge_idx t
  funext j
  show V c main_v69 (((cfg1.win 2).blk t).view.emb j) = V c main_v69 j
  congr 1
  funext a; apply Fin.ext
  match a with
  | ⟨0, _⟩ => show win1_2.index t (0 : Fin 2) * 256 + 1 * (j 0).val = (j 0).val; omega
  | ⟨1, _⟩ => show win1_2.index t (1 : Fin 2) * 256 + 1 * (j 1).val = (j 1).val; omega

/-- The endpoint-sum half of the first weight matrix: its window's block is the whole array, at every point. -/
theorem edge_blk3 (c : Dev nD) (t : Fin cfg1.N) :
    (iblk1 (F := Ideal) V c 3 t : Vec Ideal S256x256 .bf16) = V c main_v70 := by
  obtain ⟨-, -, -, -, -, -, e0, e1, -⟩ := edge_idx t
  funext j
  show V c main_v70 (((cfg1.win 3).blk t).view.emb j) = V c main_v70 j
  congr 1
  funext a; apply Fin.ext
  match a with
  | ⟨0, _⟩ => show win1_3.index t (0 : Fin 2) * 256 + 1 * (j 0).val = (j 0).val; omega
  | ⟨1, _⟩ => show win1_3.index t (1 : Fin 2) * 256 + 1 * (j 1).val = (j 1).val; omega

/-- The first bias row: its window's block is the whole array, at every point. -/
theorem edge_blk4 (c : Dev nD) (t : Fin cfg1.N) :
    (iblk1 (F := Ideal) V c 4 t : Vec Ideal S1x256 .f32) = V c main_v73 := by
  obtain ⟨-, -, -, -, -, -, -, -, e0, e1, -⟩ := edge_idx t
  funext j
  show V c main_v73 (((cfg1.win 4).blk t).view.emb j) = V c main_v73 j
  congr 1
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega

/-- The second weight matrix: its window's block is the whole array, at every point. -/
theorem edge_blk5 (c : Dev nD) (t : Fin cfg1.N) :
    (iblk1 (F := Ideal) V c 5 t : Vec Ideal S256x128 .bf16) = V c main_v71 := by
  obtain ⟨-, -, -, -, -, -, -, -, -, -, e0, e1, -⟩ := edge_idx t
  funext j
  show V c main_v71 (((cfg1.win 5).blk t).view.emb j) = V c main_v71 j
  congr 1
  funext a; apply Fin.ext
  match a with
  | ⟨0, _⟩ => show win1_5.index t (0 : Fin 2) * 256 + 1 * (j 0).val = (j 0).val; omega
  | ⟨1, _⟩ => show win1_5.index t (1 : Fin 2) * 128 + 1 * (j 1).val = (j 1).val; omega

/-- The second bias row: its window's block is the whole array, at every point. -/
theorem edge_blk6 (c : Dev nD) (t : Fin cfg1.N) :
    (iblk1 (F := Ideal) V c 6 t : Vec Ideal S1x128 .f32) = V c main_v74 := by
  obtain ⟨-, -, -, -, -, -, -, -, -, -, -, -, e0, e1, -⟩ := edge_idx t
  funext j
  show V c main_v74 (((cfg1.win 6).blk t).view.emb j) = V c main_v74 j
  congr 1
  funext a; apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- The third weight matrix: its window's block is the whole array, at every point. -/
theorem edge_blk7 (c : Dev nD) (t : Fin cfg1.N) :
    (iblk1 (F := Ideal) V c 7 t : Vec Ideal S128x64 .bf16) = V c main_v72 := by
  obtain ⟨-, -, -, -, -, -, -, -, -, -, -, -, -, -, e0, e1, -⟩ := edge_idx t
  funext j
  show V c main_v72 (((cfg1.win 7).blk t).view.emb j) = V c main_v72 j
  congr 1
  funext a; apply Fin.ext
  match a with
  | ⟨0, _⟩ => show win1_7.index t (0 : Fin 2) * 128 + 1 * (j 0).val = (j 0).val; omega
  | ⟨1, _⟩ => show win1_7.index t (1 : Fin 2) * 64 + 1 * (j 1).val = (j 1).val; omega

/-- The third bias row: its window's block is the whole array, at every point. -/
theorem edge_blk8 (c : Dev nD) (t : Fin cfg1.N) :
    (iblk1 (F := Ideal) V c 8 t : Vec Ideal S1x64 .f32) = V c main_v75 := by
  obtain ⟨-, -, -, -, -, -, -, -, -, -, -, -, -, -, -, -, e0, e1, -⟩ := edge_idx t
  funext j
  show V c main_v75 (((cfg1.win 8).blk t).view.emb j) = V c main_v75 j
  congr 1
  funext a; apply Fin.ext
  match a with
  | ⟨0, _⟩ => show win1_8.index t (0 : Fin 2) * 1 + 1 * (j 0).val = (j 0).val; omega
  | ⟨1, _⟩ => show win1_8.index t (1 : Fin 2) * 64 + 1 * (j 1).val = (j 1).val; omega

/-- The result window's block at point t, read off a [400000, 64] array, is its rows 2000 t, ..., 2000 t + 1999. -/
theorem edge_read9 (t : Fin cfg1.N) (G : Cert.Spec.Mat 400000 64) :
    (((cfg1.win 9).blk t).view.read (Elt Ideal) G : Vec Ideal S2000x64 .f32) = Cert.Spec.rows 2000 (2000 * t.val) (edge_fits t) G := by
  obtain ⟨-, -, -, -, -, -, -, -, -, -, -, -, -, -, -, -, -, -, e0, e1⟩ := edge_idx t
  funext j
  show G (((cfg1.win 9).blk t).view.emb j) = G (ix2 ⟨2000 * t.val + (j 0).val, _⟩ (j 1))
  congr 1
  funext a; apply Fin.ext
  match a with
  | ⟨0, _⟩ => show win1_9.index t (0 : Fin 2) * 2000 + 1 * (j 0).val = 2000 * t.val + (j 0).val; omega
  | ⟨1, _⟩ => show win1_9.index t (1 : Fin 2) * 64 + 1 * (j 1).val = (j 1).val; omega

/-- What point t writes back is rows 2000 t, ..., 2000 t + 1999 of the edge network of the whole arrays: the body
    computes the network on its block of rows of the two feature arrays, and a block of rows of the network's result
    is the network on those rows. -/
theorem edge_flushed
    (hbody : ∀ (x0 x1 : Vec Ideal S2000x256 .f32) (x2 x3 : Vec Ideal S256x256 .bf16) (x4 : Vec Ideal S1x256 .f32)
      (x5 : Vec Ideal S256x128 .bf16) (x6 : Vec Ideal S1x128 .f32) (x7 : Vec Ideal S128x64 .bf16) (x8 : Vec Ideal S1x64 .f32),
      k1_pay1 (F := Ideal) (k1_pay2 x0 x2 x1 x3 x4 x5 x6 x7) (k1_pay3 x8) = Cert.Spec.edge (a := 2000) x0 x1 x2 x3 x4 x5 x6 x7 x8)
    (c : Dev nD) (t : Fin cfg1.N) :
    (dat1 (F := Ideal) V c).flushed 9 t = ((cfg1.win 9).blk t).view.read (Elt Ideal)
      (Cert.Spec.edge (a := 400000) (V c main_arg1) (V c main_v67) (V c main_v69) (V c main_v70) (V c main_v73) (V c main_v71)
        (V c main_v74) (V c main_v72) (V c main_v75)) := by
  show (cfg1.win 9).cut (grid1.coords t) ((dat1 V c).after 9 t) = _
  rw [after1_9]
  unfold out1_9
  rw [View.canon_unit_zero edge_hz]
  simp only [View.ld_unit_zero (S := S2000x256) edge_hz, View.ld_unit_zero (S := S256x256) edge_hz, View.ld_unit_zero (S := S1x256) edge_hz,
    View.ld_unit_zero (S := S256x128) edge_hz, View.ld_unit_zero (S := S1x128) edge_hz, View.ld_unit_zero (S := S128x64) edge_hz,
    View.ld_unit_zero (S := S1x64) edge_hz]
  rw [hbody, edge_blk0, edge_blk1, edge_blk2, edge_blk3, edge_blk4, edge_blk5, edge_blk6, edge_blk7, edge_blk8,
    Cert.Spec.edge_rows, edge_read9]
  rfl

/-- An index of the result array is in point t's block iff each coordinate is in the block's range on its axis. -/
theorem edge_mem_blk (t : Fin cfg1.N) (i : S400000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v76).slice (win1_9.rect t)).set ↔ _
  rw [View.set_slice_whole, Rect.mem_set_unit]
  exact Iff.rfl

/-- Every index of the result array lies in the block of the point (row / 2000), and every point writes back. -/
theorem edge_cover (i : S400000x64.Idx) :
    ∃ t : Fin cfg1.N, (cfg1.win 9).flush t = true ∧ i ∈ ((cfg1.win 9).blk t).view.set := by
  have hi0 : (i 0).val < 400000 := (i 0).isLt
  have hi1 : (i 1).val < 64 := (i 1).isLt
  have hN : cfg1.N = 200 := N_1
  let t : Fin cfg1.N := ⟨(i 0).val / 2000, by rw [hN]; omega⟩
  obtain ⟨-, -, -, -, -, -, -, -, -, -, -, -, -, -, -, -, -, -, e0, e1⟩ := edge_idx t
  have ht : t.val = (i 0).val / 2000 := rfl
  refine ⟨t, flush1_9 t, ?_⟩
  rw [edge_mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 64 ≤ (i 1).val ∧ (i 1).val < win1_9.index t (1 : Fin 2) * 64 + 64; omega

/-- THE EDGE REGION'S RESULT ARRAY after the region is the edge network of the region's input arrays. -/
theorem edge_arr
    (hbody : ∀ (x0 x1 : Vec Ideal S2000x256 .f32) (x2 x3 : Vec Ideal S256x256 .bf16) (x4 : Vec Ideal S1x256 .f32)
      (x5 : Vec Ideal S256x128 .bf16) (x6 : Vec Ideal S1x128 .f32) (x7 : Vec Ideal S128x64 .bf16) (x8 : Vec Ideal S1x64 .f32),
      k1_pay1 (F := Ideal) (k1_pay2 x0 x2 x1 x3 x4 x5 x6 x7) (k1_pay3 x8) = Cert.Spec.edge (a := 2000) x0 x1 x2 x3 x4 x5 x6 x7 x8)
    (c : Dev nD) :
    (dat1 (F := Ideal) V c).arrAt 9 cfg1.N
      = Cert.Spec.edge (a := 400000) (V c main_arg1) (V c main_v67) (V c main_v69) (V c main_v70) (V c main_v73) (V c main_v71)
        (V c main_v74) (V c main_v72) (V c main_v75) :=
  (dat1 (F := Ideal) V c).arrAt_eq_of_cover 9 _ (fun t _ => edge_flushed V hbody c t) edge_cover

end Cert.KernelIdeal.Regions

end
-- ==== Proof.BodiesTile.lean ====
/-
  The tile's spelling of the two multilayer perceptrons is the whole-array functions of the specification.

  One layer of a tile: the matrix unit's product of the features rounded to bfloat16 and the weights, into a zero
  accumulator, plus the bias row spread over the rows, then the maximum with zero.  On the extended reals the rounding
  is the identity, the product at entry (r, q) is the sum over c of h(r, c) W(c, q), the spread row contributes B(0, q),
  and the f32 word 0 denotes 0: the layer is max(h W + B, 0), entry by entry.  The node network is two such layers and
  the edge network three, the first with two products added before the bias.
-/
import Idealize.ShloMosaic.Lib.ValueIdx
import Idealize.ShloMosaic.PureOps.Ideal
import Idealize.ShloMosaic.PureOps.Ideal.Laws
import proofs.«144891_j17377437679650_1_alg».proof.Proof.LibDenseLayer
import proofs.«144891_j17377437679650_1_alg».proof.Proof.Spec
import proofs.«144891_j17377437679650_1_alg».proof.Proof.Gen.KernelIdeal.Skeleton

noncomputable section

open scoped BigOperators

namespace Cert.Bodies

open Idealize.ShloMosaic Idealize.ShloMosaic.ValueIdx

section TileLayer

variable {a k n : ℕ} (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the features rounded to bfloat16 and the weights cast to their own shape, into a zero
    accumulator, is the product. -/
theorem tile_prod (h : FVec Ideal ⟨2, ![a, k]⟩ .f32) (W : FVec Ideal ⟨2, ![k, n]⟩ .bf16)
    (hb : FTy.bf16.bits < FTy.f32.bits) (hcW : (⟨2, ![k, n]⟩ : Shape).ShapeCasts ⟨2, ![k, n]⟩) :
    matmul d none (truncf .bf16 h hb) (shapeCast ⟨2, ![k, n]⟩ W hcW) (constant (F := Ideal) ⟨2, ![a, n]⟩ .f32 0x00000000#32)
      = Cert.Dense.prod h W := by
  funext j
  obtain ⟨r, q, rfl⟩ : ∃ (r : Fin a) (q : Fin n), j = ix2 r q := ⟨j 0, j 1, eq_ix2 j⟩
  rw [shapeCast_self]
  exact Cert.LibMatmulPlain.matmul_zero_apply d hlc hrc hln hrn hlb hrb none _ _ r q

/-- The maximum with the f32 word 0 spread over the array is max(., 0). -/
theorem tile_relu (P : FVec Ideal ⟨2, ![a, n]⟩ .f32) :
    maximumf P (broadcast ⟨2, ![a, n]⟩ (Scalar.ofBits (F := Ideal) .f32 0x00000000#32)) = Cert.Spec.relu P := by
  funext j
  rw [maximumf_apply, broadcast_apply]
  show max (P j) (Ideal.ofBits .f32 0x00000000#32) = max (P j) 0
  rw [Ideal.ofBits_zero_f32]

include hlc hrc hln hrn hlb hrb in
/-- One layer of a tile is max(h W + B, 0). -/
theorem tile_layer (h : FVec Ideal ⟨2, ![a, k]⟩ .f32) (W : FVec Ideal ⟨2, ![k, n]⟩ .bf16) (B : FVec Ideal ⟨2, ![1, n]⟩ .f32)
    (hb : FTy.bf16.bits < FTy.f32.bits) (hcW : (⟨2, ![k, n]⟩ : Shape).ShapeCasts ⟨2, ![k, n]⟩)
    (hcB : (⟨2, ![1, n]⟩ : Shape).ShapeCasts ⟨2, ![1, n]⟩) (hbB : (⟨2, ![1, n]⟩ : Shape).Broadcasts ⟨2, ![a, n]⟩) :
    maximumf (addf (matmul d none (truncf .bf16 h hb) (shapeCast ⟨2, ![k, n]⟩ W hcW)
          (constant (F := Ideal) ⟨2, ![a, n]⟩ .f32 0x00000000#32))
        (broadcastTo ⟨2, ![a, n]⟩ (shapeCast ⟨2, ![1, n]⟩ B hcB) hbB))
      (broadcast ⟨2, ![a, n]⟩ (Scalar.ofBits (F := Ideal) .f32 0x00000000#32))
      = Cert.Spec.relu (Cert.Dense.biased h W B) := by
  rw [tile_relu, tile_prod d hlc hrc hln hrn hlb hrb]
  refine congrArg Cert.Spec.relu (funext fun j => ?_)
  obtain ⟨r, q, rfl⟩ : ∃ (r : Fin a) (q : Fin n), j = ix2 r q := ⟨j 0, j 1, eq_ix2 j⟩
  exact Cert.Dense.tile_biased _ B hcB hbB r q

end TileLayer

end Cert.Bodies

namespace Cert.KernelIdeal.Bodies

open Idealize.ShloMosaic Idealize.ShloMosaic.ValueIdx Cert.KernelIdeal Cert.KernelIdeal.Gen Cert.Bodies

/-- The node tile computes the node network of its block of rows: two tile layers. -/
theorem node_body (x0 : Vec Ideal S2000x256 .f32) (x1 : Vec Ideal S256x128 .bf16) (x2 : Vec Ideal S1x128 .f32)
    (x3 : Vec Ideal S128x64 .bf16) (x4 : Vec Ideal S1x64 .f32) :
    k0_pay1 (F := Ideal) x0 x1 x2 x3 x4 = Cert.Spec.node (a := 2000) x0 x1 x2 x3 x4 := by
  unfold k0_pay1 Cert.Spec.node
  dsimp only
  rw [tile_layer dot_S2000x256_S256x128_S2000x128_1_0_0_1_n_n rfl rfl rfl rfl rfl rfl x0 x1 x2 bitsLt_bf16_f32
      shapeCasts_S256x128_S256x128 shapeCasts_S1x128_S1x128 broadcasts_S1x128_S2000x128]
  exact tile_layer dot_S2000x128_S128x64_S2000x64_1_0_0_1_n_n rfl rfl rfl rfl rfl rfl _ x3 x4 bitsLt_bf16_f32
    shapeCasts_S128x64_S128x64 shapeCasts_S1x64_S1x64 broadcasts_S1x64_S2000x64

end Cert.KernelIdeal.Bodies

end
-- ==== Proof.BodiesTileEdge.lean ====
/-
  The edge tile's spelling of the edge network is the whole-array function of the specification.

  The first layer of the edge tile makes two products on the matrix unit, the edge features against the upper half of
  the weight matrix and the summed endpoint features against the lower half, adds them, adds the bias row spread over
  the rows and takes the maximum with zero: max(e We + s Ws + B, 0), the two products added first.  Two plain tile
  layers follow.
-/
import proofs.«144891_j17377437679650_1_alg».proof.Proof.BodiesTile

noncomputable section

open scoped BigOperators

namespace Cert.Bodies

open Idealize.ShloMosaic Idealize.ShloMosaic.ValueIdx

section TileEdgeLayer

variable {a : ℕ} (d : DotDims ⟨2, ![a, 256]⟩ ⟨2, ![256, 256]⟩ ⟨2, ![a, 256]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The first layer of the edge tile is max(e We + s Ws + B, 0). -/
theorem tile_edge_layer (e s : FVec Ideal ⟨2, ![a, 256]⟩ .f32) (We Ws : FVec Ideal ⟨2, ![256, 256]⟩ .bf16)
    (B : FVec Ideal ⟨2, ![1, 256]⟩ .f32) (hb : FTy.bf16.bits < FTy.f32.bits)
    (hcW : (⟨2, ![256, 256]⟩ : Shape).ShapeCasts ⟨2, ![256, 256]⟩)
    (hcs : (⟨2, ![a, 256]⟩ : Shape).ShapeCasts ⟨2, ![a, 256]⟩)
    (hcB : (⟨2, ![1, 256]⟩ : Shape).ShapeCasts ⟨2, ![1, 256]⟩)
    (hbB : (⟨2, ![1, 256]⟩ : Shape).Broadcasts ⟨2, ![a, 256]⟩) :
    maximumf (addf (addf
          (matmul d none (truncf .bf16 e hb) (shapeCast ⟨2, ![256, 256]⟩ We hcW)
            (constant (F := Ideal) ⟨2, ![a, 256]⟩ .f32 0x00000000#32))
          (matmul d none (truncf .bf16 (shapeCast ⟨2, ![a, 256]⟩ s hcs) hb) (shapeCast ⟨2, ![256, 256]⟩ Ws hcW)
            (constant (F := Ideal) ⟨2, ![a, 256]⟩ .f32 0x00000000#32)))
        (broadcastTo ⟨2, ![a, 256]⟩ (shapeCast ⟨2, ![1, 256]⟩ B hcB) hbB))
      (broadcast ⟨2, ![a, 256]⟩ (Scalar.ofBits (F := Ideal) .f32 0x00000000#32))
      = Cert.Spec.relu (Cert.Spec.edge0 e s We Ws B) := by
  rw [tile_relu, shapeCast_self s hcs, tile_prod d hlc hrc hln hrn hlb hrb, tile_prod d hlc hrc hln hrn hlb hrb]
  refine congrArg Cert.Spec.relu (funext fun j => ?_)
  obtain ⟨r, q, rfl⟩ : ∃ (r : Fin a) (q : Fin 256), j = ix2 r q := ⟨j 0, j 1, eq_ix2 j⟩
  rw [Cert.Dense.tile_biased _ B hcB hbB r q, addf_apply]
  rfl

end TileEdgeLayer

end Cert.Bodies

namespace Cert.KernelIdeal.Bodies

open Idealize.ShloMosaic Idealize.ShloMosaic.ValueIdx Cert.KernelIdeal Cert.KernelIdeal.Gen Cert.Bodies

/-- The edge tile computes the edge network of its block of rows: the split first layer and two tile layers. -/
theorem edge_body (x0 x1 : Vec Ideal S2000x256 .f32) (x2 x3 : Vec Ideal S256x256 .bf16) (x4 : Vec Ideal S1x256 .f32)
    (x5 : Vec Ideal S256x128 .bf16) (x6 : Vec Ideal S1x128 .f32) (x7 : Vec Ideal S128x64 .bf16)
    (x8 : Vec Ideal S1x64 .f32) :
    k1_pay1 (F := Ideal) (k1_pay2 x0 x2 x1 x3 x4 x5 x6 x7) (k1_pay3 x8)
      = Cert.Spec.edge (a := 2000) x0 x1 x2 x3 x4 x5 x6 x7 x8 := by
  unfold k1_pay1 k1_pay2 k1_pay3 Cert.Spec.edge
  dsimp only
  rw [tile_edge_layer dot_S2000x256_S256x256_S2000x256_1_0_0_1_n_n rfl rfl rfl rfl rfl rfl x0 x1 x2 x3 x4
      bitsLt_bf16_f32 shapeCasts_S256x256_S256x256 shapeCasts_S2000x256_S2000x256 shapeCasts_S1x256_S1x256
      broadcasts_S1x256_S2000x256]
  rw [tile_layer dot_S2000x256_S256x128_S2000x128_1_0_0_1_n_n rfl rfl rfl rfl rfl rfl _ x5 x6 bitsLt_bf16_f32
      shapeCasts_S256x128_S256x128 shapeCasts_S1x128_S1x128 broadcasts_S1x128_S2000x128]
  exact tile_layer dot_S2000x128_S128x64_S2000x64_1_0_0_1_n_n rfl rfl rfl rfl rfl rfl _ x7 x8 bitsLt_bf16_f32
    shapeCasts_S128x64_S128x64 shapeCasts_S1x64_S1x64 broadcasts_S1x64_S2000x64

end Cert.KernelIdeal.Bodies

end
-- ==== Proof.KernelValue.lean ====
/-
  The value the idealized kernel program returns, as one function of its argument arrays.

  The first region leaves the node network of the node features in its output array; the host pools it by graph.  The
  second region leaves the edge network of the edge features and of the summed endpoint features; the host pools that too
  and applies the output head to the two pooled arrays.  Rounding a weight matrix to bfloat16 does nothing to an extended
  real, so the weights enter as launched; the bias vectors enter laid out as rows.
-/
import proofs.«144891_j17377437679650_1_alg».proof.Proof.KChainW2
import proofs.«144891_j17377437679650_1_alg».proof.Proof.KChainW13
import proofs.«144891_j17377437679650_1_alg».proof.Proof.KChainOut
import proofs.«144891_j17377437679650_1_alg».proof.Proof.RegionNode
import proofs.«144891_j17377437679650_1_alg».proof.Proof.RegionEdge
import proofs.«144891_j17377437679650_1_alg».proof.Proof.BodiesTile
import proofs.«144891_j17377437679650_1_alg».proof.Proof.BodiesTileEdge

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The node features at the first region's exit are as launched: the region only reads them. -/
theorem w2_a0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (ChainW2.v1_a0 m ρ c)

/-- The node network of the launched node features and node weights. -/
def nodeK (c : Dev nD) : Cert.Spec.Mat 50000 64 :=
  Cert.Spec.node (a := 50000) (m ((c : Thread nD τ).loc main_arg0)) (m ((c : Thread nD τ).loc main_arg6)) (shapeCast S1x128 (m ((c : Thread nD τ).loc main_arg7)) shapeCasts_S128_S1x128)
    (m ((c : Thread nD τ).loc main_arg8)) (shapeCast S1x64 (m ((c : Thread nD τ).loc main_arg9)) shapeCasts_S64_S1x64)

/-- The edge network of the launched edge features and edge weights and of the summed endpoint features the host built. -/
def edgeK (c : Dev nD) : Cert.Spec.Mat 400000 64 :=
  Cert.Spec.edge (a := 400000) (m ((c : Thread nD τ).loc main_arg1)) (W13 m ρ c (Proc.devRef .tc main_v67))
    (extractStridedSlice S256x256 ![0, 0] (m ((c : Thread nD τ).loc main_arg10)) slices_S512x256_S256x256_0_0)
    (extractStridedSlice S256x256 ![256, 0] (m ((c : Thread nD τ).loc main_arg10)) slices_S512x256_S256x256_256_0)
    (shapeCast S1x256 (m ((c : Thread nD τ).loc main_arg11)) shapeCasts_S256_S1x256) (m ((c : Thread nD τ).loc main_arg12)) (shapeCast S1x128 (m ((c : Thread nD τ).loc main_arg13)) shapeCasts_S128_S1x128)
    (m ((c : Thread nD τ).loc main_arg14)) (shapeCast S1x64 (m ((c : Thread nD τ).loc main_arg15)) shapeCasts_S64_S1x64)

/-- The first region's output array at its exit is the node network. -/
theorem node_value (c : Dev nD) : W2 m ρ c (Proc.devRef .tc main_v4) = nodeK m c := by
  rw [ChainW2.w2_v4, Regions.node_arr (V1 m ρ) Bodies.node_body c, ChainW2.v1_a0, ChainW2.v1_v0, ChainW2.v1_v2, ChainW2.v1_v1,
    ChainW2.v1_v3]
  rfl

/-- The second region's output array at its exit is the edge network. -/
theorem edge_value (c : Dev nD) : W14 m ρ c (Proc.devRef .tc main_v76) = edgeK m ρ c := by
  rw [ChainOut.w14_v76, Regions.edge_arr (V13 m ρ) Bodies.edge_body c]
  show Cert.Spec.edge (a := 400000) (W13 m ρ c (Proc.devRef .tc main_arg1)) (W13 m ρ c (Proc.devRef .tc main_v67))
    (W13 m ρ c (Proc.devRef .tc main_v69)) (W13 m ρ c (Proc.devRef .tc main_v70)) (W13 m ρ c (Proc.devRef .tc main_v73))
    (W13 m ρ c (Proc.devRef .tc main_v71)) (W13 m ρ c (Proc.devRef .tc main_v74)) (W13 m ρ c (Proc.devRef .tc main_v72))
    (W13 m ρ c (Proc.devRef .tc main_v75)) = _
  rw [ChainW13.w13_a1, ChainW2.w2_a1, ChainW13.w13_v69, ChainW13.w13_v70, ChainW2.w2_a10, ChainW13.w13_v73, ChainW2.w2_a11,
    ChainW13.w13_v71, ChainW2.w2_a12, ChainW13.w13_v74, ChainW2.w2_a13, ChainW13.w13_v72, ChainW2.w2_a14, ChainW13.w13_v75,
    ChainW2.w2_a15]
  rfl

/-- The program's result: the head of the pooled node network and the pooled edge network. -/
theorem value (c : Dev nD) : W15 m ρ c (Proc.devRef .tc main_v92)
    = Cert.Shared.head (F := Ideal) (Cert.Shared.poolNodes (F := Ideal) (nodeK m c) (m ((c : Thread nD τ).loc main_arg3)))
        (Cert.Shared.poolEdges (F := Ideal) (edgeK m ρ c) (m ((c : Thread nD τ).loc main_arg4))) (m ((c : Thread nD τ).loc main_arg16)) (m ((c : Thread nD τ).loc main_arg17)) := by
  rw [ChainOut.out_eq, ChainOut.w14_v15, ChainOut.w13_v15, node_value, ChainW2.w2_a3, edge_value, ChainOut.w14_a4, ChainW13.w13_a4,
    ChainW2.w2_a4, ChainOut.w14_a16, ChainW13.w13_a16, ChainW2.w2_a16, ChainOut.w14_a17, ChainW13.w13_a17, ChainW2.w2_a17]

end Cert.KernelIdeal.KValue

end
-- ==== Proof.XsumAgree.lean ====
/-
  The summed endpoint features are one function of the edge list and the node features in both programs.

  Both programs select the edges whose first endpoint is smaller than the second (a running count of the mask, a scatter of
  ones at the counted positions, a second running count: the positions of the selected edges), gather the two endpoint
  rows of the node features at those positions and add them.  The two programs print the same operations for this, one
  after the other over their own buffers; so from buffer contents that agree on the edge list and on the node features
  the two folds end with the same array.
-/
import proofs.«144891_j17377437679650_1_alg».proof.Proof.Gen.KernelIdeal.Launch
import proofs.«144891_j17377437679650_1_alg».proof.Proof.RefRun

set_option maxRecDepth 16384

noncomputable section

namespace Cert.Xsum

open Idealize.ShloMosaic Idealize.ShloMosaic.TcCoe Idealize.SL.Sem Idealize.ShloMosaic.StableHlo

variable {F : FTy → Type} [FloatOps F]

/-- The kernel program's host operations between its two regions, as one fold. -/
abbrev kernelFold (W : Valuation Cert.KernelIdeal.τ Cert.KernelIdeal.sig (Elt F)) : Valuation Cert.KernelIdeal.τ Cert.KernelIdeal.sig (Elt F) :=
  after Cert.KernelIdeal.Gen.hostOps1_10 (after Cert.KernelIdeal.Gen.hostOps1_9 (after Cert.KernelIdeal.Gen.hostOps1_8 (after Cert.KernelIdeal.Gen.hostOps1_7
    (after Cert.KernelIdeal.Gen.hostOps1_6 (after Cert.KernelIdeal.Gen.hostOps1_5 (after Cert.KernelIdeal.Gen.hostOps1_4 (after Cert.KernelIdeal.Gen.hostOps1_3
      (after Cert.KernelIdeal.Gen.hostOps1_2 (after Cert.KernelIdeal.Gen.hostOps1_1 (after Cert.KernelIdeal.Gen.hostOps1 W))))))))))

set_option maxHeartbeats 400000000 in
/-- From contents agreeing on the edge list and the node features, the reference's summed endpoint features are the
    kernel program's. -/
theorem agree (W : Valuation Cert.KernelIdeal.τ Cert.KernelIdeal.sig (Elt F)) (V : Valuation Cert.ReferenceIdeal.τ Cert.ReferenceIdeal.sig (Elt F))
    (h0 : V (Proc.devRef .tc Cert.ReferenceIdeal.main_arg0) = W (Proc.devRef .tc Cert.KernelIdeal.main_arg0))
    (h2 : V (Proc.devRef .tc Cert.ReferenceIdeal.main_arg2) = W (Proc.devRef .tc Cert.KernelIdeal.main_arg2)) :
    after Cert.ReferenceIdeal.RefRun.opsIdx V (Proc.devRef .tc Cert.ReferenceIdeal.main_v72)
      = kernelFold W (Proc.devRef .tc Cert.KernelIdeal.main_v67) := by
  after_results_simp
  rw [h0, h2]
  rfl

end Cert.Xsum

end
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.RefRead.lean ====
/- Readings of the reference program's fold: what its result buffer, and the two networks' output buffers, hold after
   the operations have run from ANY contents, as compositions of the whole-array functions of the arguments' contents.
   The fold is cut at the five stretches; a stretch is opened only where one of its results is read, and a buffer a
   stretch does not write is carried through it unread. -/
import proofs.«144891_j17377437679650_1_alg».proof.Proof.RefRun
import proofs.«144891_j17377437679650_1_alg».proof.Proof.LibTRefCasts
import Idealize.ShloMosaic.PureOps.Ideal
import proofs.«144891_j17377437679650_1_alg».proof.Proof.Shared

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The fold over two lines one after the other is the second line's fold over the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Which buffers each stretch writes

Each operation writes one buffer, its result's; a buffer outside a stretch's list of results holds after the stretch
what it held before. -/

/-- The buffers the node network's operations (`opsNode`) write, in order. -/
abbrev opsNode_W : List (Ref sig .tc) := [main_v0, main_v1, main_v2, main_v3, main_call0_cst, main_call0_v0, main_v4, main_v5, main_v6, main_v7, main_v8, main_call1_cst, main_call1_v0, main_v9]
set_option maxRecDepth 8192 in
/-- Each operation of `opsNode` writes a buffer of that list. -/
theorem opsNode_writes : (opsNode : List (HloOp τ sig (Elt F))).Forall fun op => op.writes ⊆ (opsNode_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the node pooling's operations (`opsPool`) write, in order. -/
abbrev opsPool_W : List (Ref sig .tc) := [main_cst, main_v10, main_v11, main_v12, main_cst_0, main_v13, main_cst_1, main_v14, main_v15, main_v16, main_cst_2, main_v17, main_v18, main_v19, main_v20]
set_option maxRecDepth 8192 in
/-- Each operation of `opsPool` writes a buffer of that list. -/
theorem opsPool_writes : (opsPool : List (HloOp τ sig (Elt F))).Forall fun op => op.writes ⊆ (opsPool_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the index computation's operations (`opsIdx`) write, in order. -/
abbrev opsIdx_W : List (Ref sig .tc) := [main_v21, main_v22, main_v23, main_v24, main_v25, main_call2_v0, main_call2_call0_c, main_call2_call0_v0, main_v26, main_c, main_v27, main_c_3, main_call3_v0, main_call3_v1, main_v28, main_c_4, main_v29, main_v30, main_c_5, main_v31, main_v32, main_v33, main_v34, main_c_6, main_v35, main_v36, main_call4_call0_c, main_call4_call0_v0, main_v37, main_c_7, main_call5_v0, main_call5_v1, main_call5_v2, main_call5_v3, main_call5_v4, main_call5_v5, main_call5_v6, main_call5_v7, main_call5_c, main_call5_v8, main_call5_v9, main_call5_v10, main_call5_c_0, main_call5_v11, main_call5_v12, main_v38, main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v39, main_v40, main_v41, main_c_9, main_v42, main_v43, main_c_10, main_v44, main_v45, main_v46, main_v47, main_v48, main_v49, main_v50, main_c_11, main_v51, main_v52, main_c_12, main_v53, main_v54, main_v55, main_v56, main_v57, main_c_13, main_v58, main_v59, main_c_14, main_v60, main_v61, main_v62, main_v63, main_v64, main_c_15, main_v65, main_v66, main_c_16, main_v67, main_v68, main_v69, main_v70, main_v71, main_v72]
set_option maxRecDepth 8192 in
/-- Each operation of `opsIdx` writes a buffer of that list. -/
theorem opsIdx_writes : (opsIdx : List (HloOp τ sig (Elt F))).Forall fun op => op.writes ⊆ (opsIdx_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The buffers the edge network's operations (`opsEdge`) write, in order. -/
abbrev opsEdge_W : List (Ref sig .tc) := [main_v73, main_v74, main_v75, main_v76, main_v77, main_call7_cst, main_call7_v0, main_v78, main_v79, main_v80, main_v81, main_v82, main_call8_cst, main_call8_v0, main_v83, main_v84, main_v85, main_v86, main_v87, main_call9_cst, main_call9_v0, main_v88]
set_option maxRecDepth 8192 in
/-- Each operation of `opsEdge` writes a buffer of that list. -/
theorem opsEdge_writes : (opsEdge : List (HloOp τ sig (Elt F))).Forall fun op => op.writes ⊆ (opsEdge_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer none of the first three stretches writes holds after them what it held before. -/
theorem keep3 (V : Valuation τ sig (Elt F)) (r : Ref sig .tc) (hN : r ∉ opsNode_W) (hP : r ∉ opsPool_W) (hI : r ∉ opsIdx_W) :
    after ((opsNode ++ opsPool) ++ opsIdx) V (Proc.devRef .tc r) = V (Proc.devRef .tc r) := by
  rw [after_append, after_of_writes_sub opsIdx _ opsIdx_writes hI, after_append, after_of_writes_sub opsPool _ opsPool_writes hP,
    after_of_writes_sub opsNode _ opsNode_writes hN]

/-- A buffer none of the first four stretches writes holds after them what it held before. -/
theorem keep4 (V : Valuation τ sig (Elt F)) (r : Ref sig .tc) (hN : r ∉ opsNode_W) (hP : r ∉ opsPool_W) (hI : r ∉ opsIdx_W)
    (hE : r ∉ opsEdge_W) :
    after (((opsNode ++ opsPool) ++ opsIdx) ++ opsEdge) V (Proc.devRef .tc r) = V (Proc.devRef .tc r) := by
  rw [after_append, after_of_writes_sub opsEdge _ opsEdge_writes hE, keep3 V r hN hP hI]

/-! ## The stretches read at their results, for any contents before them -/

/-- The node pooling read at its quotient: the segment mean of the node network's output by the node-to-graph table. -/
theorem pool_read (W : Valuation τ sig (Elt F)) : after opsPool W (Proc.devRef .tc main_v20) =
    Cert.Shared.poolNodes (W (Proc.devRef .tc main_v9)) (W (Proc.devRef .tc main_arg3)) := by
  after_results_simp
  rfl

/-- The last stretch read at the program's result: the head over the pooled node features, the segment mean of the
    edge network's output by the edge-to-graph table, the output weights and the output bias. -/
theorem tail_read (W : Valuation τ sig (Elt F)) : after opsTail W (Proc.devRef .tc main_v104) =
    Cert.Shared.head (W (Proc.devRef .tc main_v20))
      (Cert.Shared.poolEdges (W (Proc.devRef .tc main_v88)) (W (Proc.devRef .tc main_arg4)))
      (W (Proc.devRef .tc main_arg16)) (W (Proc.devRef .tc main_arg17)) := by
  after_results_simp
  rfl

/-- The edge network read at its output, over the extended reals: three layers, each the product with the weights
    plus the bias laid over the rows, bounded below by zero, the first over the edge features joined with the gathered
    node sums. A called function's operations carry their contents to the buffer's type and back: there and back is
    the identity, and at a literal buffer each way is. -/
theorem edge_read (W : Valuation τ sig (Elt Ideal)) : after opsEdge W (Proc.devRef .tc main_v88) =
    maximumf (addf (Host.dotGeneral (F := Ideal) (φ₁ := .f32) (φ₂ := .f32) dot_S400000x128_S128x64_S400000x64_1_0_0_1_n_n none
        (maximumf (addf (Host.dotGeneral (F := Ideal) (φ₁ := .f32) (φ₂ := .f32) dot_S400000x256_S256x128_S400000x128_1_0_0_1_n_n none
            (maximumf (addf (Host.dotGeneral (F := Ideal) (φ₁ := .f32) (φ₂ := .f32) dot_S400000x512_S512x256_S400000x256_1_0_0_1_n_n none
                  (concatenate S400000x512 1 [⟨S400000x256, (W (Proc.devRef .tc main_arg1))⟩, ⟨S400000x256, (W (Proc.devRef .tc main_v72))⟩]
                    concatenates_S400000x256_S400000x256_S400000x512_d1) (W (Proc.devRef .tc main_arg10)))
                (broadcastInDim S400000x256 ![0, 1] bcast_S1x256_S400000x256_0_1
                  (broadcastInDim S1x256 ![1] bcast_S256_S1x256_1 (W (Proc.devRef .tc main_arg11)))))
              (broadcastInDim S400000x256 ![] bcast_S_S400000x256 (constant (F := Ideal) S_ .f32 0x00000000#32))) (W (Proc.devRef .tc main_arg12)))
            (broadcastInDim S400000x128 ![0, 1] bcast_S1x128_S400000x128_0_1
              (broadcastInDim S1x128 ![1] bcast_S128_S1x128_1 (W (Proc.devRef .tc main_arg13)))))
          (broadcastInDim S400000x128 ![] bcast_S_S400000x128 (constant (F := Ideal) S_ .f32 0x00000000#32))) (W (Proc.devRef .tc main_arg14)))
        (broadcastInDim S400000x64 ![0, 1] bcast_S1x64_S400000x64_0_1
          (broadcastInDim S1x64 ![1] bcast_S64_S1x64_1 (W (Proc.devRef .tc main_arg15)))))
      (broadcastInDim S400000x64 ![] bcast_S_S400000x64 (constant (F := Ideal) S_ .f32 0x00000000#32)) := by
  after_results_simp
  simp only [Cert.Casts.ofBuf_toBuf]
  simp only [TRef.toBuf, TRef.ofBuf, cast_eq]

/-! ## The readings of the whole fold -/

set_option maxRecDepth 8192 in
/-- The program's result, for any reading of the floats: the head over the two segment means — of the node network's
    output and of the edge network's output —, the output weights and the output bias. The last stretch is read at the
    result; the pooled node features are the node pooling's, which the two stretches after it do not write; the tables,
    the weights and the bias are arguments, which no stretch writes. -/
theorem out_eq (V : Valuation τ sig (Elt F)) : after ops V (Proc.devRef .tc main_v104)
    = Cert.Shared.head (Cert.Shared.poolNodes (after opsNode V (Proc.devRef .tc main_v9)) (V (Proc.devRef .tc main_arg3)))
        (Cert.Shared.poolEdges (after (((opsNode ++ opsPool) ++ opsIdx) ++ opsEdge) V (Proc.devRef .tc main_v88)) (V (Proc.devRef .tc main_arg4)))
        (V (Proc.devRef .tc main_arg16)) (V (Proc.devRef .tc main_arg17)) := by
  have h20 : after (((opsNode ++ opsPool) ++ opsIdx) ++ opsEdge) V (Proc.devRef .tc main_v20)
      = Cert.Shared.poolNodes (after opsNode V (Proc.devRef .tc main_v9)) (V (Proc.devRef .tc main_arg3)) := by
    rw [after_append, after_of_writes_sub (r := main_v20) opsEdge _ opsEdge_writes (by decide), after_append,
      after_of_writes_sub (r := main_v20) opsIdx _ opsIdx_writes (by decide), after_append, pool_read,
      after_of_writes_sub (r := main_arg3) opsNode _ opsNode_writes (by decide)]
  show after ((((opsNode ++ opsPool) ++ opsIdx) ++ opsEdge) ++ opsTail) V (Proc.devRef .tc main_v104) = _
  rw [after_append, tail_read, h20,
    keep4 V main_arg4 (by decide) (by decide) (by decide) (by decide),
    keep4 V main_arg16 (by decide) (by decide) (by decide) (by decide),
    keep4 V main_arg17 (by decide) (by decide) (by decide) (by decide)]

/-- The node network's output over the extended reals: two layers, each the product with the weights plus the bias
    laid over the rows, bounded below by zero, of the node features. -/
theorem node_eq (V : Valuation τ sig (Elt Ideal)) : after opsNode V (Proc.devRef .tc main_v9) =
    maximumf (addf (Host.dotGeneral (F := Ideal) (φ₁ := .f32) (φ₂ := .f32) dot_S50000x128_S128x64_S50000x64_1_0_0_1_n_n none
        (maximumf (addf (Host.dotGeneral (F := Ideal) (φ₁ := .f32) (φ₂ := .f32) dot_S50000x256_S256x128_S50000x128_1_0_0_1_n_n none (V (Proc.devRef .tc main_arg0)) (V (Proc.devRef .tc main_arg6)))
            (broadcastInDim S50000x128 ![0, 1] bcast_S1x128_S50000x128_0_1 (broadcastInDim S1x128 ![1] bcast_S128_S1x128_1 (V (Proc.devRef .tc main_arg7)))))
          (broadcastInDim S50000x128 ![] bcast_S_S50000x128 (constant (F := Ideal) S_ .f32 0x00000000#32))) (V (Proc.devRef .tc main_arg8)))
        (broadcastInDim S50000x64 ![0, 1] bcast_S1x64_S50000x64_0_1 (broadcastInDim S1x64 ![1] bcast_S64_S1x64_1 (V (Proc.devRef .tc main_arg9)))))
      (broadcastInDim S50000x64 ![] bcast_S_S50000x64 (constant (F := Ideal) S_ .f32 0x00000000#32)) := by
  after_results_simp
  simp only [Cert.Casts.ofBuf_toBuf]
  simp only [TRef.toBuf, TRef.ofBuf, cast_eq]

set_option maxRecDepth 8192 in
/-- The edge network's output over the extended reals, after the first four stretches: the three layers over the edge
    features joined with the gathered node sums (the index computation's last result), the weights and biases the
    arguments, which the first three stretches do not write. -/
theorem edge_eq (V : Valuation τ sig (Elt Ideal)) :
    after (((opsNode ++ opsPool) ++ opsIdx) ++ opsEdge) V (Proc.devRef .tc main_v88) =
    maximumf (addf (Host.dotGeneral (F := Ideal) (φ₁ := .f32) (φ₂ := .f32) dot_S400000x128_S128x64_S400000x64_1_0_0_1_n_n none
        (maximumf (addf (Host.dotGeneral (F := Ideal) (φ₁ := .f32) (φ₂ := .f32) dot_S400000x256_S256x128_S400000x128_1_0_0_1_n_n none
            (maximumf (addf (Host.dotGeneral (F := Ideal) (φ₁ := .f32) (φ₂ := .f32) dot_S400000x512_S512x256_S400000x256_1_0_0_1_n_n none
                  (concatenate S400000x512 1 [⟨S400000x256, (V (Proc.devRef .tc main_arg1))⟩, ⟨S400000x256, (after ((opsNode ++ opsPool) ++ opsIdx) V (Proc.devRef .tc main_v72))⟩]
                    concatenates_S400000x256_S400000x256_S400000x512_d1) (V (Proc.devRef .tc main_arg10)))
                (broadcastInDim S400000x256 ![0, 1] bcast_S1x256_S400000x256_0_1
                  (broadcastInDim S1x256 ![1] bcast_S256_S1x256_1 (V (Proc.devRef .tc main_arg11)))))
              (broadcastInDim S400000x256 ![] bcast_S_S400000x256 (constant (F := Ideal) S_ .f32 0x00000000#32))) (V (Proc.devRef .tc main_arg12)))
            (broadcastInDim S400000x128 ![0, 1] bcast_S1x128_S400000x128_0_1
              (broadcastInDim S1x128 ![1] bcast_S128_S1x128_1 (V (Proc.devRef .tc main_arg13)))))
          (broadcastInDim S400000x128 ![] bcast_S_S400000x128 (constant (F := Ideal) S_ .f32 0x00000000#32))) (V (Proc.devRef .tc main_arg14)))
        (broadcastInDim S400000x64 ![0, 1] bcast_S1x64_S400000x64_0_1
          (broadcastInDim S1x64 ![1] bcast_S64_S1x64_1 (V (Proc.devRef .tc main_arg15)))))
      (broadcastInDim S400000x64 ![] bcast_S_S400000x64 (constant (F := Ideal) S_ .f32 0x00000000#32)) := by
  rw [after_append, edge_read,
    keep3 V main_arg1 (by decide) (by decide) (by decide), keep3 V main_arg10 (by decide) (by decide) (by decide),
    keep3 V main_arg11 (by decide) (by decide) (by decide), keep3 V main_arg12 (by decide) (by decide) (by decide),
    keep3 V main_arg13 (by decide) (by decide) (by decide), keep3 V main_arg14 (by decide) (by decide) (by decide),
    keep3 V main_arg15 (by decide) (by decide) (by decide)]

end Cert.ReferenceIdeal.RefRead

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.BodiesHost.lean ====
/-
  The host's spelling of the two multilayer perceptrons is the whole-array functions of the specification.

  One layer of the host program: the dot_general of the features and the weights, plus the bias vector laid out as a
  row and then over the rows, then the maximum with the scalar zero laid over the array.  On the extended reals the
  dot_general at entry (r, q) is the sum over c of h(r, c) W(c, q), the laid-out bias contributes b(q), and the f32
  word 0 denotes 0: the layer is max(h W + B, 0) with B the bias vector as a [1, n] row.  The edge network's first layer
  multiplies the two feature arrays joined side by side with the whole weight matrix: row r of [e | s] against column q
  is the sum over the first 256 columns against the upper half of the matrix plus the sum over the last 256 against
  the lower half.
-/
import Idealize.ShloMosaic.Lib.ValueIdx
import Idealize.ShloMosaic.Lib.Pipeline.Value
import Idealize.ShloMosaic.PureOps.Ideal
import Idealize.ShloMosaic.PureOps.Ideal.Laws
import proofs.«144891_j17377437679650_1_alg».proof.Proof.LibDenseLayer
import proofs.«144891_j17377437679650_1_alg».proof.Proof.LibConcatCols
import proofs.«144891_j17377437679650_1_alg».proof.Proof.Spec
import proofs.«144891_j17377437679650_1_alg».proof.Proof.Gen.ReferenceIdeal

noncomputable section

open scoped BigOperators

namespace Cert.Bodies

open Idealize.ShloMosaic Idealize.ShloMosaic.ValueIdx

section HostLayer

variable {a k n : ℕ} (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

/-- The maximum with the scalar f32 word 0 laid over the array is max(., 0). -/
theorem host_relu (P : FVec Ideal ⟨2, ![a, n]⟩ .f32) (hz : (⟨0, ![]⟩ : Shape).BroadcastsInDim ⟨2, ![a, n]⟩ ![]) :
    maximumf P (broadcastInDim ⟨2, ![a, n]⟩ ![] hz (constant (F := Ideal) ⟨0, ![]⟩ .f32 0x00000000#32))
      = Cert.Spec.relu P := by
  funext j
  rw [maximumf_apply, broadcastInDim_apply ![] hz _ j ix0 (fun ax => ax.elim0), constant_apply,
    Ideal.ofBits_zero_f32]
  rfl

include hlc hrc hln hrn hlb hrb in
/-- One layer of the host program is max(h W + B, 0), B the bias vector as a row. -/
theorem host_layer (h : FVec Ideal ⟨2, ![a, k]⟩ .f32) (W : FVec Ideal ⟨2, ![k, n]⟩ .f32) (b : FVec Ideal ⟨1, ![n]⟩ .f32)
    (hb1 : (⟨1, ![n]⟩ : Shape).BroadcastsInDim ⟨2, ![1, n]⟩ ![1])
    (hb2 : (⟨2, ![1, n]⟩ : Shape).BroadcastsInDim ⟨2, ![a, n]⟩ ![0, 1])
    (hz : (⟨0, ![]⟩ : Shape).BroadcastsInDim ⟨2, ![a, n]⟩ ![])
    (hc : (⟨1, ![n]⟩ : Shape).ShapeCasts ⟨2, ![1, n]⟩) :
    maximumf (addf (Host.dotGeneral (F := Ideal) d none h W)
        (broadcastInDim ⟨2, ![a, n]⟩ ![0, 1] hb2 (broadcastInDim ⟨2, ![1, n]⟩ ![1] hb1 b)))
      (broadcastInDim ⟨2, ![a, n]⟩ ![] hz (constant (F := Ideal) ⟨0, ![]⟩ .f32 0x00000000#32))
      = Cert.Spec.relu (Cert.Dense.biased h W (shapeCast ⟨2, ![1, n]⟩ b hc)) := by
  rw [host_relu, Cert.Dense.row_cast_eq_bcast b hc hb1, Cert.Dense.biased_eq_host d hlc hrc hln hrn hlb hrb]

end HostLayer

end Cert.Bodies

namespace Cert.ReferenceIdeal.Bodies

open Idealize.ShloMosaic Idealize.ShloMosaic.ValueIdx Cert.ReferenceIdeal Cert.ReferenceIdeal.Gen Cert.Bodies

/-- The host's node chain is the node network of the whole feature array. -/
theorem refNode_eq (x : FVec Ideal S50000x256 .f32) (W0 : FVec Ideal S256x128 .f32) (b0 : FVec Ideal S128 .f32)
    (W1 : FVec Ideal S128x64 .f32) (b1 : FVec Ideal S64 .f32) (hc0 : S128.ShapeCasts S1x128) (hc1 : S64.ShapeCasts S1x64) :
    maximumf (addf (Host.dotGeneral (F := Ideal) dot_S50000x128_S128x64_S50000x64_1_0_0_1_n_n none
        (maximumf (addf (Host.dotGeneral (F := Ideal) dot_S50000x256_S256x128_S50000x128_1_0_0_1_n_n none x W0)
            (broadcastInDim S50000x128 ![0, 1] bcast_S1x128_S50000x128_0_1 (broadcastInDim S1x128 ![1] bcast_S128_S1x128_1 b0)))
          (broadcastInDim S50000x128 ![] bcast_S_S50000x128 (constant (F := Ideal) S_ .f32 0x00000000#32))) W1)
        (broadcastInDim S50000x64 ![0, 1] bcast_S1x64_S50000x64_0_1 (broadcastInDim S1x64 ![1] bcast_S64_S1x64_1 b1)))
      (broadcastInDim S50000x64 ![] bcast_S_S50000x64 (constant (F := Ideal) S_ .f32 0x00000000#32))
      = Cert.Spec.node (a := 50000) x W0 (shapeCast S1x128 b0 hc0) W1 (shapeCast S1x64 b1 hc1) := by
  unfold Cert.Spec.node
  rw [host_layer dot_S50000x256_S256x128_S50000x128_1_0_0_1_n_n rfl rfl rfl rfl rfl rfl x W0 b0
    bcast_S128_S1x128_1 bcast_S1x128_S50000x128_0_1 bcast_S_S50000x128 hc0]
  exact host_layer dot_S50000x128_S128x64_S50000x64_1_0_0_1_n_n rfl rfl rfl rfl rfl rfl _ W1 b1
    bcast_S64_S1x64_1 bcast_S1x64_S50000x64_0_1 bcast_S_S50000x64 hc1

end Cert.ReferenceIdeal.Bodies

end
-- ==== Proof.BodiesHostEdge.lean ====
/-
  The host's spelling of the edge network is the whole-array function of the specification.

  The first layer of the host program joins the edge features e and the summed endpoint features s side by side into
  [e | s] and multiplies by the whole [512, 256] weight matrix W.  Row r of [e | s] against column q of W is a sum over
  256 + 256 columns: the first 256 terms read e(r, c) and W(c, q), the upper half of W; the last 256 read s(r, c) and
  W(256 + c, q), the lower half.  So [e | s] W = e We + s Ws, entry by entry, whatever the entries (addition and
  multiplication of extended reals are total).  The bias and the maximum with zero follow as in every host layer, and
  two plain host layers complete the network.
-/
import proofs.«144891_j17377437679650_1_alg».proof.Proof.BodiesHost

noncomputable section

open scoped BigOperators

namespace Cert.Bodies

open Idealize.ShloMosaic Idealize.ShloMosaic.ValueIdx

section JoinedProduct

variable {a k1 k2 K n : ℕ}

/-- The product of two arrays joined side by side with a matrix is the sum of the two products with the matrix's upper
    and lower row blocks. -/
theorem prod_concat (hK : K = k1 + k2) (e : (⟨2, ![a, k1]⟩ : Shape).Idx → EReal) (s : (⟨2, ![a, k2]⟩ : Shape).Idx → EReal)
    (W : (⟨2, ![K, n]⟩ : Shape).Idx → EReal)
    (hcat : Shape.Concatenates [(⟨2, ![a, k1]⟩ : Shape), ⟨2, ![a, k2]⟩] ⟨2, ![a, K]⟩ 1)
    (hs0 : (⟨2, ![K, n]⟩ : Shape).Slices ![0, 0] ⟨2, ![k1, n]⟩)
    (hs1 : (⟨2, ![K, n]⟩ : Shape).Slices ![k1, 0] ⟨2, ![k2, n]⟩) (r : Fin a) (q : Fin n) :
    Cert.Dense.prod (concatenate ⟨2, ![a, K]⟩ 1 [⟨⟨2, ![a, k1]⟩, e⟩, ⟨⟨2, ![a, k2]⟩, s⟩] hcat) W (ix2 r q)
      = Cert.Dense.prod e (extractStridedSlice ⟨2, ![k1, n]⟩ ![0, 0] W hs0) (ix2 r q)
        + Cert.Dense.prod s (extractStridedSlice ⟨2, ![k2, n]⟩ ![k1, 0] W hs1) (ix2 r q) := by
  subst hK
  rw [Cert.Dense.prod_ix2, Cert.Dense.prod_ix2, Cert.Dense.prod_ix2, Fin.sum_univ_add]
  congr 1
  · refine Finset.sum_congr rfl fun c _ => ?_
    rw [Cert.LibConcatCols.cols_left e s hcat r (Fin.castAdd k2 c) c rfl]
    refine congrArg (e (ix2 r c) * ·) ?_
    refine (extractStridedSlice_apply ![0, 0] W hs0 (ix2 c q) (ix2 (Fin.castAdd k2 c) q) fun ax => ?_).symm
    match ax with
    | ⟨0, _⟩ => exact (Nat.zero_add _).symm
    | ⟨1, _⟩ => exact (Nat.zero_add _).symm
  · refine Finset.sum_congr rfl fun c _ => ?_
    rw [Cert.LibConcatCols.cols_right e s hcat r (Fin.natAdd k1 c) c (Nat.add_comm _ _)]
    refine congrArg (s (ix2 r c) * ·) ?_
    refine (extractStridedSlice_apply ![k1, 0] W hs1 (ix2 c q) (ix2 (Fin.natAdd k1 c) q) fun ax => ?_).symm
    match ax with
    | ⟨0, _⟩ => rfl
    | ⟨1, _⟩ => exact (Nat.zero_add _).symm

end JoinedProduct

section HostEdgeLayer

variable {a : ℕ} (d : DotDims ⟨2, ![a, 512]⟩ ⟨2, ![512, 256]⟩ ⟨2, ![a, 256]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The first layer of the host's edge chain is max(e We + s Ws + B, 0), We and Ws the upper and lower halves of the
    weight matrix (rounded to bfloat16, which changes nothing here) and B the bias vector as a row. -/
theorem host_edge_layer (e s : FVec Ideal ⟨2, ![a, 256]⟩ .f32) (W0 : FVec Ideal ⟨2, ![512, 256]⟩ .f32)
    (b : FVec Ideal ⟨1, ![256]⟩ .f32)
    (hcat : Shape.Concatenates [(⟨2, ![a, 256]⟩ : Shape), ⟨2, ![a, 256]⟩] ⟨2, ![a, 512]⟩ 1)
    (hb1 : (⟨1, ![256]⟩ : Shape).BroadcastsInDim ⟨2, ![1, 256]⟩ ![1])
    (hb2 : (⟨2, ![1, 256]⟩ : Shape).BroadcastsInDim ⟨2, ![a, 256]⟩ ![0, 1])
    (hz : (⟨0, ![]⟩ : Shape).BroadcastsInDim ⟨2, ![a, 256]⟩ ![])
    (hc : (⟨1, ![256]⟩ : Shape).ShapeCasts ⟨2, ![1, 256]⟩)
    (hb : FTy.bf16.bits < FTy.f32.bits)
    (hs0 : (⟨2, ![512, 256]⟩ : Shape).Slices ![0, 0] ⟨2, ![256, 256]⟩)
    (hs1 : (⟨2, ![512, 256]⟩ : Shape).Slices ![256, 0] ⟨2, ![256, 256]⟩) :
    maximumf (addf (Host.dotGeneral (F := Ideal) d none
          (concatenate ⟨2, ![a, 512]⟩ 1 [⟨⟨2, ![a, 256]⟩, e⟩, ⟨⟨2, ![a, 256]⟩, s⟩] hcat) W0)
        (broadcastInDim ⟨2, ![a, 256]⟩ ![0, 1] hb2 (broadcastInDim ⟨2, ![1, 256]⟩ ![1] hb1 b)))
      (broadcastInDim ⟨2, ![a, 256]⟩ ![] hz (constant (F := Ideal) ⟨0, ![]⟩ .f32 0x00000000#32))
      = Cert.Spec.relu (Cert.Spec.edge0 e s
          (extractStridedSlice ⟨2, ![256, 256]⟩ ![0, 0] (truncf .bf16 W0 hb) hs0)
          (extractStridedSlice ⟨2, ![256, 256]⟩ ![256, 0] (truncf .bf16 W0 hb) hs1)
          (shapeCast ⟨2, ![1, 256]⟩ b hc)) := by
  have hW : (truncf .bf16 W0 hb : FVec Ideal ⟨2, ![512, 256]⟩ .bf16) = W0 := rfl
  rw [host_layer d hlc hrc hln hrn hlb hrb _ W0 b hb1 hb2 hz hc, hW]
  refine congrArg Cert.Spec.relu (funext fun j => ?_)
  obtain ⟨r, q, rfl⟩ : ∃ (r : Fin a) (q : Fin 256), j = ix2 r q := ⟨j 0, j 1, eq_ix2 j⟩
  show Cert.Dense.prod _ W0 (ix2 r q) + _ = Cert.Dense.prod e _ (ix2 r q) + Cert.Dense.prod s _ (ix2 r q) + _
  rw [prod_concat rfl e s W0 hcat hs0 hs1 r q]

end HostEdgeLayer

end Cert.Bodies

namespace Cert.ReferenceIdeal.Bodies

open Idealize.ShloMosaic Idealize.ShloMosaic.ValueIdx Cert.ReferenceIdeal Cert.ReferenceIdeal.Gen Cert.Bodies

/-- The host's edge chain is the edge network of the whole feature arrays. -/
theorem refEdge_eq (e s : FVec Ideal S400000x256 .f32) (W0 : FVec Ideal S512x256 .f32) (b0 : FVec Ideal S256 .f32)
    (W1 : FVec Ideal S256x128 .f32) (b1 : FVec Ideal S128 .f32) (W2 : FVec Ideal S128x64 .f32) (b2 : FVec Ideal S64 .f32)
    (hb : FTy.bf16.bits < FTy.f32.bits) (hs0 : S512x256.Slices ![0, 0] (⟨2, ![256, 256]⟩ : Shape))
    (hs1 : S512x256.Slices ![256, 0] (⟨2, ![256, 256]⟩ : Shape))
    (hc0 : S256.ShapeCasts S1x256) (hc1 : S128.ShapeCasts S1x128) (hc2 : S64.ShapeCasts S1x64) :
    maximumf (addf (Host.dotGeneral (F := Ideal) dot_S400000x128_S128x64_S400000x64_1_0_0_1_n_n none
        (maximumf (addf (Host.dotGeneral (F := Ideal) dot_S400000x256_S256x128_S400000x128_1_0_0_1_n_n none
            (maximumf (addf (Host.dotGeneral (F := Ideal) dot_S400000x512_S512x256_S400000x256_1_0_0_1_n_n none
                  (concatenate S400000x512 1 [⟨S400000x256, e⟩, ⟨S400000x256, s⟩]
                    concatenates_S400000x256_S400000x256_S400000x512_d1) W0)
                (broadcastInDim S400000x256 ![0, 1] bcast_S1x256_S400000x256_0_1
                  (broadcastInDim S1x256 ![1] bcast_S256_S1x256_1 b0)))
              (broadcastInDim S400000x256 ![] bcast_S_S400000x256 (constant (F := Ideal) S_ .f32 0x00000000#32))) W1)
            (broadcastInDim S400000x128 ![0, 1] bcast_S1x128_S400000x128_0_1
              (broadcastInDim S1x128 ![1] bcast_S128_S1x128_1 b1)))
          (broadcastInDim S400000x128 ![] bcast_S_S400000x128 (constant (F := Ideal) S_ .f32 0x00000000#32))) W2)
        (broadcastInDim S400000x64 ![0, 1] bcast_S1x64_S400000x64_0_1
          (broadcastInDim S1x64 ![1] bcast_S64_S1x64_1 b2)))
      (broadcastInDim S400000x64 ![] bcast_S_S400000x64 (constant (F := Ideal) S_ .f32 0x00000000#32))
      = Cert.Spec.edge (a := 400000) e s
          (extractStridedSlice (⟨2, ![256, 256]⟩ : Shape) ![0, 0] (truncf .bf16 W0 hb) hs0)
          (extractStridedSlice (⟨2, ![256, 256]⟩ : Shape) ![256, 0] (truncf .bf16 W0 hb) hs1)
          (shapeCast S1x256 b0 hc0) W1 (shapeCast S1x128 b1 hc1) W2 (shapeCast S1x64 b2 hc2) := by
  unfold Cert.Spec.edge
  rw [host_edge_layer dot_S400000x512_S512x256_S400000x256_1_0_0_1_n_n rfl rfl rfl rfl rfl rfl e s W0 b0
      concatenates_S400000x256_S400000x256_S400000x512_d1 bcast_S256_S1x256_1 bcast_S1x256_S400000x256_0_1
      bcast_S_S400000x256 hc0 hb hs0 hs1]
  rw [host_layer dot_S400000x256_S256x128_S400000x128_1_0_0_1_n_n rfl rfl rfl rfl rfl rfl _ W1 b1
      bcast_S128_S1x128_1 bcast_S1x128_S400000x128_0_1 bcast_S_S400000x128 hc1]
  exact host_layer dot_S400000x128_S128x64_S400000x64_1_0_0_1_n_n rfl rfl rfl rfl rfl rfl _ W2 b2
    bcast_S64_S1x64_1 bcast_S1x64_S400000x64_0_1 bcast_S_S400000x64 hc2

end Cert.ReferenceIdeal.Bodies

end
-- ==== Proof.Agree.lean ====
/-
  From launch memories that agree on the eighteen arguments the two idealized programs return the same array.

  The kernel program's result is the shared head of the pooled node network and the pooled edge network of its arguments.
  The reference's fold reads the same way: its node chain and its edge chain are those networks (a dot_general with the
  bias laid over the rows and a maximum with zero is a biased layer followed by max(., 0); the product of the joined
  features [e | s] with the whole first weight matrix is e times its upper half plus s times its lower half), the summed
  endpoint features it hands the edge network are the kernel program's, and pooling and head are spelt alike.
-/
import proofs.«144891_j17377437679650_1_alg».proof.Proof.KernelValue
import proofs.«144891_j17377437679650_1_alg».proof.Proof.XsumAgree
import proofs.«144891_j17377437679650_1_alg».proof.Proof.RefRead
import proofs.«144891_j17377437679650_1_alg».proof.Proof.BodiesHost
import proofs.«144891_j17377437679650_1_alg».proof.Proof.BodiesHostEdge

set_option maxRecDepth 16384

noncomputable section

namespace Cert.Agree

open Idealize.ShloMosaic Idealize.ShloMosaic.TcCoe Idealize.SL.Sem Idealize.ShloMosaic.StableHlo
open Cert.ReferenceIdeal.RefRun

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The node features are not written by the reference's node and pooling operations. -/
theorem pre_a0 (V : Valuation Cert.ReferenceIdeal.τ Cert.ReferenceIdeal.sig (Elt Ideal)) :
    after (opsNode ++ opsPool) V (Proc.devRef .tc Cert.ReferenceIdeal.main_arg0) = V (Proc.devRef .tc Cert.ReferenceIdeal.main_arg0) := by
  rw [Cert.ReferenceIdeal.RefRead.after_append]
  after_results_simp <;> rfl

/-- The edge list is not written by the reference's node and pooling operations. -/
theorem pre_a2 (V : Valuation Cert.ReferenceIdeal.τ Cert.ReferenceIdeal.sig (Elt Ideal)) :
    after (opsNode ++ opsPool) V (Proc.devRef .tc Cert.ReferenceIdeal.main_arg2) = V (Proc.devRef .tc Cert.ReferenceIdeal.main_arg2) := by
  rw [Cert.ReferenceIdeal.RefRead.after_append]
  after_results_simp <;> rfl

/-- The reference's result buffer, read off its fold from the launch memory, is the kernel program's result. -/
theorem value_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    after (ops (F := Ideal)) (launchContents m' c) (Proc.devRef .tc Cert.ReferenceIdeal.main_v104)
      = Cert.KernelIdeal.Gen.W15 m ρ c (Proc.devRef .tc Cert.KernelIdeal.main_v92) := by
  have hn : after (opsNode (F := Ideal)) (launchContents m' c) (Proc.devRef .tc Cert.ReferenceIdeal.main_v9) = Cert.KernelIdeal.KValue.nodeK m c := by
    refine (Cert.ReferenceIdeal.RefRead.node_eq (launchContents m' c)).trans
      ((Cert.ReferenceIdeal.Bodies.refNode_eq _ _ _ _ _ Cert.KernelIdeal.Gen.shapeCasts_S128_S1x128 Cert.KernelIdeal.Gen.shapeCasts_S64_S1x64).trans ?_)
    unfold Cert.KernelIdeal.KValue.nodeK
    show Cert.Spec.node (a := 50000) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6))
      (shapeCast Cert.ReferenceIdeal.S1x128 (m' ((c.tc : Thread Cert.ReferenceIdeal.nD Cert.ReferenceIdeal.τ).loc Cert.ReferenceIdeal.main_arg7)) Cert.KernelIdeal.Gen.shapeCasts_S128_S1x128)
      (m' ((c.tc : Thread Cert.ReferenceIdeal.nD Cert.ReferenceIdeal.τ).loc Cert.ReferenceIdeal.main_arg8))
      (shapeCast Cert.ReferenceIdeal.S1x64 (m' ((c.tc : Thread Cert.ReferenceIdeal.nD Cert.ReferenceIdeal.τ).loc Cert.ReferenceIdeal.main_arg9)) Cert.KernelIdeal.Gen.shapeCasts_S64_S1x64) = _
    rw [h0, h6, h7, h8, h9]
  have hs : after ((opsNode ++ opsPool) ++ opsIdx) (launchContents m' c) (Proc.devRef .tc Cert.ReferenceIdeal.main_v72)
      = Cert.KernelIdeal.Gen.W13 m ρ c (Proc.devRef .tc Cert.KernelIdeal.main_v67) := by
    rw [Cert.ReferenceIdeal.RefRead.after_append]
    exact Cert.Xsum.agree (Cert.KernelIdeal.Gen.W2 m ρ c) (after (opsNode ++ opsPool) (launchContents m' c))
      ((pre_a0 _).trans (h0.trans (Cert.KernelIdeal.KValue.w2_a0 m ρ c).symm))
      ((pre_a2 _).trans (h2.trans (Cert.KernelIdeal.ChainW2.w2_a2 m ρ c).symm))
  have he : after ((((opsNode ++ opsPool) ++ opsIdx) ++ opsEdge) : List (HloOp Cert.ReferenceIdeal.τ Cert.ReferenceIdeal.sig (Elt Ideal))) (launchContents m' c) (Proc.devRef .tc Cert.ReferenceIdeal.main_v88)
      = Cert.KernelIdeal.KValue.edgeK m ρ c := by
    refine (Cert.ReferenceIdeal.RefRead.edge_eq (launchContents m' c)).trans
      ((Cert.ReferenceIdeal.Bodies.refEdge_eq _ _ _ _ _ _ _ _ Cert.KernelIdeal.Gen.bitsLt_bf16_f32 Cert.KernelIdeal.Gen.slices_S512x256_S256x256_0_0 Cert.KernelIdeal.Gen.slices_S512x256_S256x256_256_0
        Cert.KernelIdeal.Gen.shapeCasts_S256_S1x256 Cert.KernelIdeal.Gen.shapeCasts_S128_S1x128 Cert.KernelIdeal.Gen.shapeCasts_S64_S1x64).trans ?_)
    rw [hs]
    unfold Cert.KernelIdeal.KValue.edgeK
    show Cert.Spec.edge (a := 400000) (m' ((c.tc : Thread Cert.ReferenceIdeal.nD Cert.ReferenceIdeal.τ).loc Cert.ReferenceIdeal.main_arg1)) (Cert.KernelIdeal.Gen.W13 m ρ c (Proc.devRef .tc Cert.KernelIdeal.main_v67))
      (extractStridedSlice (⟨2, ![256, 256]⟩ : Shape) ![0, 0] (m' ((c.tc : Thread Cert.ReferenceIdeal.nD Cert.ReferenceIdeal.τ).loc Cert.ReferenceIdeal.main_arg10)) Cert.KernelIdeal.Gen.slices_S512x256_S256x256_0_0)
      (extractStridedSlice (⟨2, ![256, 256]⟩ : Shape) ![256, 0] (m' ((c.tc : Thread Cert.ReferenceIdeal.nD Cert.ReferenceIdeal.τ).loc Cert.ReferenceIdeal.main_arg10)) Cert.KernelIdeal.Gen.slices_S512x256_S256x256_256_0)
      (shapeCast Cert.ReferenceIdeal.S1x256 (m' ((c.tc : Thread Cert.ReferenceIdeal.nD Cert.ReferenceIdeal.τ).loc Cert.ReferenceIdeal.main_arg11)) Cert.KernelIdeal.Gen.shapeCasts_S256_S1x256)
      (m' ((c.tc : Thread Cert.ReferenceIdeal.nD Cert.ReferenceIdeal.τ).loc Cert.ReferenceIdeal.main_arg12))
      (shapeCast Cert.ReferenceIdeal.S1x128 (m' ((c.tc : Thread Cert.ReferenceIdeal.nD Cert.ReferenceIdeal.τ).loc Cert.ReferenceIdeal.main_arg13)) Cert.KernelIdeal.Gen.shapeCasts_S128_S1x128)
      (m' ((c.tc : Thread Cert.ReferenceIdeal.nD Cert.ReferenceIdeal.τ).loc Cert.ReferenceIdeal.main_arg14))
      (shapeCast Cert.ReferenceIdeal.S1x64 (m' ((c.tc : Thread Cert.ReferenceIdeal.nD Cert.ReferenceIdeal.τ).loc Cert.ReferenceIdeal.main_arg15)) Cert.KernelIdeal.Gen.shapeCasts_S64_S1x64) = _
    rw [h1, h10, h11, h12, h13, h14, h15]
  rw [Cert.ReferenceIdeal.RefRead.out_eq, hn, he, Cert.KernelIdeal.KValue.value m ρ c]
  show Cert.Shared.head (F := Ideal) (Cert.Shared.poolNodes (F := Ideal) (Cert.KernelIdeal.KValue.nodeK m c) (m' ((c.tc : Thread Cert.ReferenceIdeal.nD Cert.ReferenceIdeal.τ).loc Cert.ReferenceIdeal.main_arg3)))
    (Cert.Shared.poolEdges (F := Ideal) (Cert.KernelIdeal.KValue.edgeK m ρ c) (m' ((c.tc : Thread Cert.ReferenceIdeal.nD Cert.ReferenceIdeal.τ).loc Cert.ReferenceIdeal.main_arg4)))
    (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
  rw [h3, h4, h16, h17]

end Cert.Agree

end
-- ==== Proof.lean ====
/-
  The certificate of a two-stage graph network: a node network and an edge network, each a short stack of dense layers
  with max(., 0), run as tiled kernels over blocks of 2000 rows, between host operations that pool the rows by graph, pick
  the edges whose first endpoint is the smaller one, sum the endpoints' node features, and apply a linear output head.

  Frames: the two kernel programs run, fault nowhere and leave their arguments as launched (the generated frames); the
  reference is a straight line of host operations, so its run is the fold of their results over the launch memory, and no
  operation writes an argument.  The idealization rewrote nothing.  At the ideal reading both programs return the head of
  the pooled node network and the pooled edge network of the same arguments: a tile of 2000 rows of either network is the
  network on those rows, rounding to bfloat16 is the identity on the extended reals, and the reference's one product of
  the joined features with the whole first edge weight matrix is the kernel's two products with its halves, added.
-/
import proofs.«144891_j17377437679650_1_alg».proof.Defs
import proofs.«144891_j17377437679650_1_alg».proof.Proof.Gen.Kernel
import proofs.«144891_j17377437679650_1_alg».proof.Proof.Gen.Kernel.Skeleton
import proofs.«144891_j17377437679650_1_alg».proof.Proof.Gen.Kernel.Launch
import proofs.«144891_j17377437679650_1_alg».proof.Proof.Gen.Kernel.Points
import proofs.«144891_j17377437679650_1_alg».proof.Proof.Gen.Kernel.Frame
import proofs.«144891_j17377437679650_1_alg».proof.Proof.Gen.KernelIdeal
import proofs.«144891_j17377437679650_1_alg».proof.Proof.Gen.KernelIdeal.Skeleton
import proofs.«144891_j17377437679650_1_alg».proof.Proof.Gen.KernelIdeal.Launch
import proofs.«144891_j17377437679650_1_alg».proof.Proof.Gen.KernelIdeal.Points
import proofs.«144891_j17377437679650_1_alg».proof.Proof.Gen.KernelIdeal.Frame
import proofs.«144891_j17377437679650_1_alg».proof.Proof.Gen.ReferenceIdeal
import proofs.«144891_j17377437679650_1_alg».proof.Proof.Gen.Pre_finite_inputs
import proofs.«144891_j17377437679650_1_alg».proof.Proof.KernelRun
import proofs.«144891_j17377437679650_1_alg».proof.Proof.RefRun
import proofs.«144891_j17377437679650_1_alg».proof.Proof.RefArgs
import proofs.«144891_j17377437679650_1_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The kernel program as printed runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs, and every argument ends at the fold's value there, which is the launch value: no operation
    writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefArgs.arg_kept_0 _),
     (h c Cert.ReferenceIdeal.main_arg1).trans (Cert.ReferenceIdeal.RefArgs.arg_kept_1 _),
     (h c Cert.ReferenceIdeal.main_arg2).trans (Cert.ReferenceIdeal.RefArgs.arg_kept_2 _),
     (h c Cert.ReferenceIdeal.main_arg3).trans (Cert.ReferenceIdeal.RefArgs.arg_kept_3 _),
     (h c Cert.ReferenceIdeal.main_arg4).trans (Cert.ReferenceIdeal.RefArgs.arg_kept_4 _),
     (h c Cert.ReferenceIdeal.main_arg5).trans (Cert.ReferenceIdeal.RefArgs.arg_kept_5 _),
     (h c Cert.ReferenceIdeal.main_arg6).trans (Cert.ReferenceIdeal.RefArgs.arg_kept_6 _),
     (h c Cert.ReferenceIdeal.main_arg7).trans (Cert.ReferenceIdeal.RefArgs.arg_kept_7 _),
     (h c Cert.ReferenceIdeal.main_arg8).trans (Cert.ReferenceIdeal.RefArgs.arg_kept_8 _),
     (h c Cert.ReferenceIdeal.main_arg9).trans (Cert.ReferenceIdeal.RefArgs.arg_kept_9 _),
     (h c Cert.ReferenceIdeal.main_arg10).trans (Cert.ReferenceIdeal.RefArgs.arg_kept_10 _),
     (h c Cert.ReferenceIdeal.main_arg11).trans (Cert.ReferenceIdeal.RefArgs.arg_kept_11 _),
     (h c Cert.ReferenceIdeal.main_arg12).trans (Cert.ReferenceIdeal.RefArgs.arg_kept_12 _),
     (h c Cert.ReferenceIdeal.main_arg13).trans (Cert.ReferenceIdeal.RefArgs.arg_kept_13 _),
     (h c Cert.ReferenceIdeal.main_arg14).trans (Cert.ReferenceIdeal.RefArgs.arg_kept_14 _),
     (h c Cert.ReferenceIdeal.main_arg15).trans (Cert.ReferenceIdeal.RefArgs.arg_kept_15 _),
     (h c Cert.ReferenceIdeal.main_arg16).trans (Cert.ReferenceIdeal.RefArgs.arg_kept_16 _),
     (h c Cert.ReferenceIdeal.main_arg17).trans (Cert.ReferenceIdeal.RefArgs.arg_kept_17 _)⟩)
    (Cert.ReferenceIdeal.RefRun.run (F := Ideal) m ρ)

/-- The ideal pass rewrote no operation. -/
theorem preserves : Cert.preserves_Kernel_KernelIdeal := trivial

/-- From memories agreeing on the arguments both idealized programs end with the same result array and with their
    arguments as launched. -/
theorem algebraic : Cert.algebraic_KernelIdeal_ReferenceIdeal := by
  intro m ρ m' ρ' _ hagree
  refine ⟨fun c => Cert.KernelIdeal.Gen.W15 (F := Ideal) m ρ c (Proc.devRef .tc Cert.KernelIdeal.main_v92), fun c => m ((c.tc : Thread Cert.KernelIdeal.nD Cert.KernelIdeal.τ).loc Cert.KernelIdeal.main_arg5), ?_, ?_⟩
  · exact (θ_run Cert.KernelIdeal.defs _ _).mono (fun _ h c => ⟨(h c).1, (h c).2.2.2.2.2.2.1, (h c).2⟩) (Cert.KernelIdeal.KRun.run_named m ρ)
  · refine (θ_run Cert.ReferenceIdeal.defs _ _).mono (fun _ h c => ?_) (Cert.ReferenceIdeal.RefRun.run (F := Ideal) m' ρ')
    obtain ⟨h0, h1, h2, h3, h4, h5, h6, h7, h8, h9, h10, h11, h12, h13, h14, h15, h16, h17⟩ := hagree c
    exact ⟨(h c Cert.ReferenceIdeal.main_v104).trans (Cert.Agree.value_eq m ρ m' c h0 h1 h2 h3 h4 h5 h6 h7 h8 h9 h10 h11 h12 h13 h14 h15 h16 h17),
      ((h c Cert.ReferenceIdeal.main_arg5).trans (Cert.ReferenceIdeal.RefArgs.arg_kept_5 _)).trans h5,
      (h c Cert.ReferenceIdeal.main_arg0).trans (Cert.ReferenceIdeal.RefArgs.arg_kept_0 _),
      (h c Cert.ReferenceIdeal.main_arg1).trans (Cert.ReferenceIdeal.RefArgs.arg_kept_1 _),
      (h c Cert.ReferenceIdeal.main_arg2).trans (Cert.ReferenceIdeal.RefArgs.arg_kept_2 _),
      (h c Cert.ReferenceIdeal.main_arg3).trans (Cert.ReferenceIdeal.RefArgs.arg_kept_3 _),
      (h c Cert.ReferenceIdeal.main_arg4).trans (Cert.ReferenceIdeal.RefArgs.arg_kept_4 _),
      (h c Cert.ReferenceIdeal.main_arg5).trans (Cert.ReferenceIdeal.RefArgs.arg_kept_5 _),
      (h c Cert.ReferenceIdeal.main_arg6).trans (Cert.ReferenceIdeal.RefArgs.arg_kept_6 _),
      (h c Cert.ReferenceIdeal.main_arg7).trans (Cert.ReferenceIdeal.RefArgs.arg_kept_7 _),
      (h c Cert.ReferenceIdeal.main_arg8).trans (Cert.ReferenceIdeal.RefArgs.arg_kept_8 _),
      (h c Cert.ReferenceIdeal.main_arg9).trans (Cert.ReferenceIdeal.RefArgs.arg_kept_9 _),
      (h c Cert.ReferenceIdeal.main_arg10).trans (Cert.ReferenceIdeal.RefArgs.arg_kept_10 _),
      (h c Cert.ReferenceIdeal.main_arg11).trans (Cert.ReferenceIdeal.RefArgs.arg_kept_11 _),
      (h c Cert.ReferenceIdeal.main_arg12).trans (Cert.ReferenceIdeal.RefArgs.arg_kept_12 _),
      (h c Cert.ReferenceIdeal.main_arg13).trans (Cert.ReferenceIdeal.RefArgs.arg_kept_13 _),
      (h c Cert.ReferenceIdeal.main_arg14).trans (Cert.ReferenceIdeal.RefArgs.arg_kept_14 _),
      (h c Cert.ReferenceIdeal.main_arg15).trans (Cert.ReferenceIdeal.RefArgs.arg_kept_15 _),
      (h c Cert.ReferenceIdeal.main_arg16).trans (Cert.ReferenceIdeal.RefArgs.arg_kept_16 _),
      (h c Cert.ReferenceIdeal.main_arg17).trans (Cert.ReferenceIdeal.RefArgs.arg_kept_17 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
